-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4x112 : Shape := ⟨3, ![65536, 4, 112]⟩
abbrev S65536x84 : Shape := ⟨2, ![65536, 84]⟩
abbrev S112 : Shape := ⟨1, ![112]⟩
abbrev S_ : Shape := ⟨0, ![]⟩
abbrev S111 : Shape := ⟨1, ![111]⟩
abbrev S1 : Shape := ⟨1, ![1]⟩
abbrev S109 : Shape := ⟨1, ![109]⟩

class Facts : Prop where
  bcast_S_S65536x4x112 : S_.BroadcastsInDim S65536x4x112 (![] : Fin 0 → Fin S65536x4x112.rank)
  reducesTo_S65536x4x112_S_d0_1_2 : S65536x4x112.ReducesTo [0, 1, 2] S_
  h_S_ : 0 < S_.numel
  bcast_S_S65536x84 : S_.BroadcastsInDim S65536x84 (![] : Fin 0 → Fin S65536x84.rank)
  reducesTo_S65536x84_S_d0_1 : S65536x84.ReducesTo [0, 1] S_
  bcast_S_S112 : S_.BroadcastsInDim S112 (![] : Fin 0 → Fin S112.rank)
  reducesTo_S112_S_d0 : S112.ReducesTo [0] S_
  slices_S112_S111_0 : S112.Slices ![0] S111
  slices_S111_S1_1 : S111.Slices ![1] S1
  slices_S111_S1_0 : S111.Slices ![0] S1
  slices_S111_S109_2 : S111.Slices ![2] S109
  slices_S111_S109_0 : S111.Slices ![0] S109
  bcast_S_S109 : S_.BroadcastsInDim S109 (![] : Fin 0 → Fin S109.rank)
  slices_S111_S1_110 : S111.Slices ![110] S1
  slices_S111_S1_109 : S111.Slices ![109] S1
  concatenates_S1_S109_S1_S111_d0 : Shape.Concatenates [S1, S109, S1] S111 0
  bcast_S_S111 : S_.BroadcastsInDim S111 (![] : Fin 0 → Fin S111.rank)
  reducesTo_S111_S_d0 : S111.ReducesTo [0] S_

variable [Facts]

def fn_part1 {F : FTy → Type} [FloatOps F] (main_arg3 : FVec F S112 .f32) (main_v13 : IVec S_ 1) (main_v16 : IVec S112 1) : IVec S_ 1 :=
  let main_c_5 : IVec S_ 1 := constantI S_ 1 1#1
  let main_v17 : IVec S_ 1 := (fun x v => Host.reduce IntOp.andi x v reducesTo_S112_S_d0 h_S_) main_v16 main_c_5
  let main_v18 : IVec S_ 1 := andi main_v13 main_v17
  let main_v19 : FVec F S111 .f32 := (extractStridedSlice S111 ![0] · slices_S112_S111_0) main_arg3
  let main_v20 : FVec F S1 .f32 := (extractStridedSlice S1 ![1] · slices_S111_S1_1) main_v19
  let main_v21 : FVec F S1 .f32 := (extractStridedSlice S1 ![0] · slices_S111_S1_0) main_v19
  let main_v22 : FVec F S1 .f32 := subf main_v20 main_v21
  let main_v23 : FVec F S109 .f32 := (extractStridedSlice S109 ![2] · slices_S111_S109_2) main_v19
  let main_v24 : FVec F S109 .f32 := (extractStridedSlice S109 ![0] · slices_S111_S109_0) main_v19
  let main_v25 : FVec F S109 .f32 := subf main_v23 main_v24
  let main_cst_6 : FVec F S_ .f32 := constant S_ .f32 0x3F000000#32
  let main_v26 : FVec F S109 .f32 := broadcastInDim S109 ![] bcast_S_S109 main_cst_6
  let main_v27 : FVec F S109 .f32 := mulf main_v25 main_v26
  let main_v28 : FVec F S1 .f32 := (extractStridedSlice S1 ![110] · slices_S111_S1_110) main_v19
  let main_v29 : FVec F S1 .f32 := (extractStridedSlice S1 ![109] · slices_S111_S1_109) main_v19
  let main_v30 : FVec F S1 .f32 := subf main_v28 main_v29
  let main_v31 : FVec F S111 .f32 := concatenate S111 0 [⟨S1, main_v22⟩, ⟨S109, main_v27⟩, ⟨S1, main_v30⟩] concatenates_S1_S109_S1_S111_d0
  let main_cst_7 : FVec F S_ .f32 := constant S_ .f32 0x00000000#32
  let main_v32 : FVec F S111 .f32 := broadcastInDim S111 ![] bcast_S_S111 main_cst_7
  let main_v33 : IVec S111 1 := cmpf .une main_v31 main_v32
  let main_c_8 : IVec S_ 1 := constantI S_ 1 1#1
  let main_v34 : IVec S_ 1 := (fun x v => Host.reduce IntOp.andi x v reducesTo_S111_S_d0 h_S_) main_v33 main_c_8
  let main_v35 : IVec S_ 1 := andi main_v18 main_v34
  main_v35

def fn {F : FTy → Type} [FloatOps F] (main_arg0 : FVec F S65536x4x112 .f32) (main_arg1 : FVec F S65536x84 .f32) (main_arg2 : FVec F S65536x84 .f32) (main_arg3 : FVec F S112 .f32) : IVec S_ 1 :=
  let main_v0 : FVec F S65536x4x112 .f32 := Host.absf main_arg0
  let main_cst : FVec F S_ .f32 := constant S_ .f32 0x7F800000#32
  let main_v1 : FVec F S65536x4x112 .f32 := broadcastInDim S65536x4x112 ![] bcast_S_S65536x4x112 main_cst
  let main_v2 : IVec S65536x4x112 1 := cmpf .olt main_v0 main_v1
  let main_c : IVec S_ 1 := constantI S_ 1 1#1
  let main_v3 : IVec S_ 1 := (fun x v => Host.reduce IntOp.andi x v reducesTo_S65536x4x112_S_d0_1_2 h_S_) main_v2 main_c
  let main_v4 : FVec F S65536x84 .f32 := Host.absf main_arg1
  let main_cst_0 : FVec F S_ .f32 := constant S_ .f32 0x7F800000#32
  let main_v5 : FVec F S65536x84 .f32 := broadcastInDim S65536x84 ![] bcast_S_S65536x84 main_cst_0
  let main_v6 : IVec S65536x84 1 := cmpf .olt main_v4 main_v5
  let main_c_1 : IVec S_ 1 := constantI S_ 1 1#1
  let main_v7 : IVec S_ 1 := (fun x v => Host.reduce IntOp.andi x v reducesTo_S65536x84_S_d0_1 h_S_) main_v6 main_c_1
  let main_v8 : IVec S_ 1 := andi main_v3 main_v7
  let main_v9 : FVec F S65536x84 .f32 := Host.absf main_arg2
  let main_cst_2 : FVec F S_ .f32 := constant S_ .f32 0x7F800000#32
  let main_v10 : FVec F S65536x84 .f32 := broadcastInDim S65536x84 ![] bcast_S_S65536x84 main_cst_2
  let main_v11 : IVec S65536x84 1 := cmpf .olt main_v9 main_v10
  let main_c_3 : IVec S_ 1 := constantI S_ 1 1#1
  let main_v12 : IVec S_ 1 := (fun x v => Host.reduce IntOp.andi x v reducesTo_S65536x84_S_d0_1 h_S_) main_v11 main_c_3
  let main_v13 : IVec S_ 1 := andi main_v8 main_v12
  let main_v14 : FVec F S112 .f32 := Host.absf main_arg3
  let main_cst_4 : FVec F S_ .f32 := constant S_ .f32 0x7F800000#32
  let main_v15 : FVec F S112 .f32 := broadcastInDim S112 ![] bcast_S_S112 main_cst_4
  let main_v16 : IVec S112 1 := cmpf .olt main_v14 main_v15
  fn_part1 (F := F) main_arg3 main_v13 main_v16
-- ==== Kernel.lean ====
abbrev S65536x4x112 : Shape := ⟨3, ![65536, 4, 112]⟩
abbrev S65536x84 : Shape := ⟨2, ![65536, 84]⟩
abbrev S112 : Shape := ⟨1, ![112]⟩
abbrev S65536x448 : Shape := ⟨2, ![65536, 448]⟩
abbrev S111 : Shape := ⟨1, ![111]⟩
abbrev S1 : Shape := ⟨1, ![1]⟩
abbrev S109 : Shape := ⟨1, ![109]⟩
abbrev S_ : Shape := ⟨0, ![]⟩
abbrev S65536 : Shape := ⟨1, ![65536]⟩
abbrev S2048x448 : Shape := ⟨2, ![2048, 448]⟩
abbrev S2048x84 : Shape := ⟨2, ![2048, 84]⟩
abbrev S2048 : Shape := ⟨1, ![2048]⟩
abbrev S2048x111 : Shape := ⟨2, ![2048, 111]⟩
abbrev S2048x1 : Shape := ⟨2, ![2048, 1]⟩
abbrev S2048x109 : Shape := ⟨2, ![2048, 109]⟩
abbrev S1x111 : Shape := ⟨2, ![1, 111]⟩

abbrev nBuf : Space → Nat
  | .hbm => 77
  | .vmem => 13
  | .smem => 0
  | _ => 0

abbrev bufTy : (tb : Table) → Fin (tcTables nBuf tb) → BufTy
  | .hbm, ⟨0, _⟩ => ⟨S65536x4x112, .f32⟩
  | .hbm, ⟨1, _⟩ => ⟨S65536x84, .f32⟩
  | .hbm, ⟨2, _⟩ => ⟨S65536x84, .f32⟩
  | .hbm, ⟨3, _⟩ => ⟨S112, .f32⟩
  | .hbm, ⟨4, _⟩ => ⟨S65536x448, .f32⟩
  | .hbm, ⟨5, _⟩ => ⟨S111, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S109, .f32⟩
  | .hbm, ⟨10, _⟩ => ⟨S109, .f32⟩
  | .hbm, ⟨11, _⟩ => ⟨S109, .f32⟩
  | .hbm, ⟨12, _⟩ => ⟨S_, .f32⟩
  | .hbm, ⟨13, _⟩ => ⟨S109, .f32⟩
  | .hbm, ⟨14, _⟩ => ⟨S109, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S111, .f32⟩
  | .hbm, ⟨19, _⟩ => ⟨S_, .f32⟩
  | .hbm, ⟨20, _⟩ => ⟨S111, .f32⟩
  | .hbm, ⟨21, _⟩ => ⟨S111, .f32⟩
  | .hbm, ⟨22, _⟩ => ⟨S65536, .f32⟩
  | .hbm, ⟨23, _⟩ => ⟨S65536, .f32⟩
  | .hbm, ⟨24, _⟩ => ⟨S65536, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .i1⟩
  | .hbm, ⟨33, _⟩ => ⟨S65536, .f32⟩
  | .hbm, ⟨34, _⟩ => ⟨S_, .f32⟩
  | .hbm, ⟨35, _⟩ => ⟨S65536, .f32⟩
  | .hbm, ⟨36, _⟩ => ⟨S65536, .f32⟩
  | .hbm, ⟨37, _⟩ => ⟨S65536, .f32⟩
  | .hbm, ⟨38, _⟩ => ⟨S_, .f32⟩
  | .hbm, ⟨39, _⟩ => ⟨S65536, .f32⟩
  | .hbm, ⟨40, _⟩ => ⟨S65536, .f32⟩
  | .hbm, ⟨41, _⟩ => ⟨S65536, .f32⟩
  | .hbm, ⟨42, _⟩ => ⟨S_, .f32⟩
  | .hbm, ⟨43, _⟩ => ⟨S65536, .f32⟩
  | .hbm, ⟨44, _⟩ => ⟨S65536, .f32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S65536, .f32⟩
  | .hbm, ⟨50, _⟩ => ⟨S65536, .f32⟩
  | .hbm, ⟨51, _⟩ => ⟨S65536, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .f32⟩
  | .hbm, ⟨56, _⟩ => ⟨S65536, .f32⟩
  | .hbm, ⟨57, _⟩ => ⟨S65536, .f32⟩
  | .hbm, ⟨58, _⟩ => ⟨S_, .f32⟩
  | .hbm, ⟨59, _⟩ => ⟨S_, .f32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i1⟩
  | .hbm, ⟨66, _⟩ => ⟨S_, .i32⟩
  | .hbm, ⟨67, _⟩ => ⟨S_, .i1⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S2048x448, .f32⟩
  | .local _ .vmem, ⟨1, _⟩ => ⟨S2048x448, .f32⟩
  | .local _ .vmem, ⟨2, _⟩ => ⟨S2048x84, .f32⟩
  | .local _ .vmem, ⟨3, _⟩ => ⟨S2048x84, .f32⟩
  | .local _ .vmem, ⟨4, _⟩ => ⟨S2048x84, .f32⟩
  | .local _ .vmem, ⟨5, _⟩ => ⟨S2048x84, .f32⟩
  | .local _ .vmem, ⟨6, _⟩ => ⟨S111, .f32⟩
  | .local _ .vmem, ⟨7, _⟩ => ⟨S2048, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S2048, .f32⟩
  | .local _ .vmem, ⟨12, _⟩ => ⟨S2048, .f32⟩
  | _, _ => ⟨S65536x4x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_v37 : Ref sig .tc := ⟨.hbm, 53, rfl⟩
abbrev main_cst_8 : Ref sig .tc := ⟨.hbm, 54, rfl⟩
abbrev main_call0_v0 : Ref sig .tc := ⟨.hbm, 55, rfl⟩
abbrev main_call0_v1 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_c_12 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_cst_15 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x84 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x84 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S111 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S65536x4x112_S65536x448 : S65536x4x112.ShapeCasts S65536x448
  slices_S112_S111_0 : S112.Slices ![0] S111
  slices_S111_S1_1 : S111.Slices ![1] S1
  slices_S111_S1_0 : S111.Slices ![0] S1
  slices_S111_S109_2 : S111.Slices ![2] S109
  slices_S111_S109_0 : S111.Slices ![0] S109
  bcast_S_S109 : S_.BroadcastsInDim S109 (![] : Fin 0 → Fin S109.rank)
  slices_S111_S1_110 : S111.Slices ![110] S1
  slices_S111_S1_109 : S111.Slices ![109] S1
  concatenates_S1_S109_S1_S111_d0 : Shape.Concatenates [S1, S109, S1] S111 0
  bcast_S_S111 : S_.BroadcastsInDim S111 (![] : Fin 0 → Fin S111.rank)
  inb_S2048x448_S2048x111_0_0 : ∀ a, (![0, 0] : Fin 2 → Nat) a + S2048x111.size a ≤ S2048x448.size a
  h_S2048x111 : 0 < S2048x111.numel
  shapeCasts_S2048x111_S2048x111 : S2048x111.ShapeCasts S2048x111
  inb_S2048x448_S2048x111_0_336 : ∀ a, (![0, 336] : Fin 2 → Nat) a + S2048x111.size a ≤ S2048x448.size a
  slices_S2048x111_o0_1_S2048x1 : S2048x111.Slices ![0, 1] S2048x1
  slices_S2048x111_o0_0_S2048x1 : S2048x111.Slices ![0, 0] S2048x1
  slices_S2048x111_o0_2_S2048x109 : S2048x111.Slices ![0, 2] S2048x109
  slices_S2048x111_o0_0_S2048x109 : S2048x111.Slices ![0, 0] S2048x109
  slices_S2048x111_o0_110_S2048x1 : S2048x111.Slices ![0, 110] S2048x1
  slices_S2048x111_o0_109_S2048x1 : S2048x111.Slices ![0, 109] S2048x1
  concatenates_S2048x1_S2048x109_S2048x1_S2048x111_d1 : Shape.Concatenates [S2048x1, S2048x109, S2048x1] S2048x111 1
  inb_S111_S111_0 : ∀ a, (![0] : Fin 1 → Nat) a + S111.size a ≤ S111.size a
  h_S111 : 0 < S111.numel
  shapeCasts_S111_S111 : S111.ShapeCasts S111
  shapeCasts_S111_S1x111 : S111.ShapeCasts S1x111
  broadcasts_S1x111_S2048x111 : S1x111.Broadcasts S2048x111
  reduces_S2048x111_S2048 : S2048x111.Reduces [1] S2048
  inb_S2048_S2048_0 : ∀ a, (![0] : Fin 1 → Nat) a + S2048.size a ≤ S2048.size a
  h_S2048 : 0 < S2048.numel
  inb_S2048x84_S2048x84_0_0 : ∀ a, (![0, 0] : Fin 2 → Nat) a + S2048x84.size a ≤ S2048x84.size a
  h_S2048x84 : 0 < S2048x84.numel
  slices_S2048x84_o0_3_S2048x1 : S2048x84.Slices ![0, 3] S2048x1
  shapeCasts_S2048x1_S2048 : S2048x1.ShapeCasts S2048
  slices_S2048x84_o0_7_S2048x1 : S2048x84.Slices ![0, 7] S2048x1
  slices_S2048x84_o0_11_S2048x1 : S2048x84.Slices ![0, 11] S2048x1
  reduces_S2048x84_S2048 : S2048x84.Reduces [1] S2048
  reducesTo_S65536_S_d0 : S65536.ReducesTo [0] S_
  h_S_ : 0 < S_.numel
  bcast_S_S65536 : S_.BroadcastsInDim S65536 (![] : Fin 0 → Fin S65536.rank)
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x448.size a ≤ S65536x448.size a
  hwx0_0 : ∀ i : grid0.Coords, EltTy.bits .f32 = 32 ∨ (Rect.block (s := S65536x448) S2048x448.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x84.size a ≤ S65536x84.size a
  hwx0_1 : ∀ i : grid0.Coords, EltTy.bits .f32 = 32 ∨ (Rect.block (s := S65536x84) S2048x84.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x84.size a ≤ S65536x84.size a
  hwx0_2 : ∀ i : grid0.Coords, EltTy.bits .f32 = 32 ∨ (Rect.block (s := S65536x84) S2048x84.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S111.size a ≤ S111.size a
  hwx0_3 : ∀ i : grid0.Coords, EltTy.bits .f32 = 32 ∨ (Rect.block (s := S111) S111.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S65536.size a
  hwx0_4 : ∀ i : grid0.Coords, EltTy.bits .f32 = 32 ∨ (Rect.block (s := S65536) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S65536.size a
  hwx0_5 : ∀ i : grid0.Coords, EltTy.bits .f32 = 32 ∨ (Rect.block (s := S65536) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S65536.size a
  hwx0_6 : ∀ i : grid0.Coords, EltTy.bits .f32 = 32 ∨ (Rect.block (s := S65536) S2048.size (cc0_transform_6 i) (hinb0_6 i)).WholeWords (EltTy.packing .f32)

variable [Facts₀]

abbrev win0_0 : Pipeline.Window sig grid0 :=
  Pipeline.Window.ofSpec (Memref.whole main_v0) S2048x448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x84.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x84.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S111.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_2) S2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x4x112 : Shape := ⟨3, ![65536, 4, 112]⟩
abbrev S65536x84 : Shape := ⟨2, ![65536, 84]⟩
abbrev S112 : Shape := ⟨1, ![112]⟩
abbrev S3 : Shape := ⟨1, ![3]⟩
abbrev S_ : Shape := ⟨0, ![]⟩
abbrev S111 : Shape := ⟨1, ![111]⟩
abbrev S65536x1x111 : Shape := ⟨3, ![65536, 1, 111]⟩
abbrev S65536x111 : Shape := ⟨2, ![65536, 111]⟩
abbrev S65536x1 : Shape := ⟨2, ![65536, 1]⟩
abbrev S65536x109 : Shape := ⟨2, ![65536, 109]⟩
abbrev S1 : Shape := ⟨1, ![1]⟩
abbrev S109 : Shape := ⟨1, ![109]⟩
abbrev S1x111 : Shape := ⟨2, ![1, 111]⟩
abbrev S65536 : Shape := ⟨1, ![65536]⟩
abbrev S65536x21x4 : Shape := ⟨3, ![65536, 21, 4]⟩
abbrev S3x1 : Shape := ⟨2, ![3, 1]⟩
abbrev S3x2 : Shape := ⟨2, ![3, 2]⟩
abbrev S65536x3 : Shape := ⟨2, ![65536, 3]⟩

abbrev nBuf : Space → Nat
  | .hbm => 136
  | .vmem => 0
  | .smem => 0
  | _ => 0

abbrev hbmTy0_0 (i : Nat) : BufTy := match i % 128 with
  | 0 => ⟨S65536x4x112, .f32⟩
  | 1 => ⟨S65536x84, .f32⟩
  | 2 => ⟨S65536x84, .f32⟩
  | 3 => ⟨S112, .f32⟩
  | 4 => ⟨S3, .i32⟩
  | 5 => ⟨S3, .i1⟩
  | 6 => ⟨S65536x84, .f32⟩
  | 7 => ⟨S65536x84, .f32⟩
  | 8 => ⟨S_, .f32⟩
  | 9 => ⟨S_, .f32⟩
  | 10 => ⟨S_, .f32⟩
  | 11 => ⟨S_, .f32⟩
  | 12 => ⟨S111, .f32⟩
  | 13 => ⟨S65536x1x111, .f32⟩
  | 14 => ⟨S65536x111, .f32⟩
  | 15 => ⟨S65536x1x111, .f32⟩
  | 16 => ⟨S65536x111, .f32⟩
  | 17 => ⟨S65536x1, .f32⟩
  | 18 => ⟨S65536x1, .f32⟩
  | 19 => ⟨S65536x1, .f32⟩
  | 20 => ⟨S65536x109, .f32⟩
  | 21 => ⟨S65536x109, .f32⟩
  | 22 => ⟨S65536x109, .f32⟩
  | 23 => ⟨S_, .f32⟩
  | 24 => ⟨S65536x109, .f32⟩
  | 25 => ⟨S65536x109, .f32⟩
  | 26 => ⟨S65536x1, .f32⟩
  | 27 => ⟨S65536x1, .f32⟩
  | 28 => ⟨S65536x1, .f32⟩
  | 29 => ⟨S65536x111, .f32⟩
  | 30 => ⟨S1, .f32⟩
  | 31 => ⟨S1, .f32⟩
  | 32 => ⟨S1, .f32⟩
  | 33 => ⟨S109, .f32⟩
  | 34 => ⟨S109, .f32⟩
  | 35 => ⟨S109, .f32⟩
  | 36 => ⟨S_, .f32⟩
  | 37 => ⟨S109, .f32⟩
  | 38 => ⟨S109, .f32⟩
  | 39 => ⟨S1, .f32⟩
  | 40 => ⟨S1, .f32⟩
  | 41 => ⟨S1, .f32⟩
  | 42 => ⟨S111, .f32⟩
  | 43 => ⟨S1x111, .f32⟩
  | 44 => ⟨S65536x111, .f32⟩
  | 45 => ⟨S65536x111, .f32⟩
  | 46 => ⟨S_, .f32⟩
  | 47 => ⟨S65536, .f32⟩
  | 48 => ⟨S_, .f32⟩
  | 49 => ⟨S65536, .f32⟩
  | 50 => ⟨S65536x111, .f32⟩
  | 51 => ⟨S_, .f32⟩
  | 52 => ⟨S65536, .f32⟩
  | 53 => ⟨S65536x111, .f32⟩
  | 54 => ⟨S_, .f32⟩
  | 55 => ⟨S65536, .f32⟩
  | 56 => ⟨S_, .f32⟩
  | 57 => ⟨S65536, .f32⟩
  | 58 => ⟨S65536, .f32⟩
  | 59 => ⟨S65536, .f32⟩
  | 60 => ⟨S65536, .f32⟩
  | 61 => ⟨S_, .f32⟩
  | 62 => ⟨S65536, .f32⟩
  | 63 => ⟨S65536, .f32⟩
  | 64 => ⟨S65536, .f32⟩
  | 65 => ⟨S65536, .f32⟩
  | 66 => ⟨S65536, .f32⟩
  | 67 => ⟨S65536, .f32⟩
  | 68 => ⟨S_, .f32⟩
  | 69 => ⟨S65536, .f32⟩
  | 70 => ⟨S65536, .f32⟩
  | 71 => ⟨S65536x21x4, .f32⟩
  | 72 => ⟨S_, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S3x1, .i32⟩
  | 80 => ⟨S3x1, .i32⟩
  | 81 => ⟨S3x2, .i32⟩
  | 82 => ⟨S65536x3, .f32⟩
  | 83 => ⟨S_, .f32⟩
  | 84 => ⟨S65536, .f32⟩
  | 85 => ⟨S_, .f32⟩
  | 86 => ⟨S65536, .f32⟩
  | 87 => ⟨S65536, .f32⟩
  | 88 => ⟨S65536, .f32⟩
  | 89 => ⟨S_, .f32⟩
  | 90 => ⟨S65536, .f32⟩
  | 91 => ⟨S65536, .i1⟩
  | 92 => ⟨S65536, .f32⟩
  | 93 => ⟨S_, .f32⟩
  | 94 => ⟨S65536, .f32⟩
  | 95 => ⟨S65536, .f32⟩
  | 96 => ⟨S65536, .f32⟩
  | 97 => ⟨S_, .f32⟩
  | 98 => ⟨S65536, .f32⟩
  | 99 => ⟨S65536, .f32⟩
  | 100 => ⟨S65536, .f32⟩
  | 101 => ⟨S_, .f32⟩
  | 102 => ⟨S65536, .f32⟩
  | 103 => ⟨S65536, .f32⟩
  | 104 => ⟨S65536, .f32⟩
  | 105 => ⟨S_, .f32⟩
  | 106 => ⟨S65536, .f32⟩
  | 107 => ⟨S65536, .f32⟩
  | 108 => ⟨S65536, .f32⟩
  | 109 => ⟨S65536, .f32⟩
  | 110 => ⟨S65536, .i32⟩
  | 111 => ⟨S_, .i32⟩
  | 112 => ⟨S_, .i32⟩
  | 113 => ⟨S_, .f32⟩
  | 114 => ⟨S_, .f32⟩
  | 115 => ⟨S65536, .f32⟩
  | 116 => ⟨S65536, .f32⟩
  | 117 => ⟨S_, .f32⟩
  | 118 => ⟨S_, .f32⟩
  | 119 => ⟨S_, .i32⟩
  | 120 => ⟨S_, .i32⟩
  | 121 => ⟨S_, .f32⟩
  | 122 => ⟨S_, .f32⟩
  | 123 => ⟨S_, .f32⟩
  | 124 => ⟨S_, .i1⟩
  | 125 => ⟨S_, .i32⟩
  | 126 => ⟨S_, .i1⟩
  | 127 => ⟨S_, .i1⟩
  | _ => ⟨S65536x4x112, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S65536x4x112, .f32⟩

abbrev hbmTy (i : Nat) : BufTy := match i / 128 with
  | 0 => hbmTy0_0 i
  | 1 => hbmTy0_1 i
  | _ => ⟨S65536x4x112, .f32⟩

abbrev bufTy : (tb : Table) → Fin (tcTables nBuf tb) → BufTy
  | .hbm, ⟨i, _⟩ => hbmTy i
  | _, _ => ⟨S65536x4x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_20 : Ref sig .tc := ⟨.hbm, 111, rfl⟩
abbrev main_v85 : Ref sig .tc := ⟨.hbm, 112, rfl⟩
abbrev main_cst_21 : Ref sig .tc := ⟨.hbm, 113, rfl⟩
abbrev main_call0_v0 : Ref sig .tc := ⟨.hbm, 114, rfl⟩
abbrev main_call0_v1 : Ref sig .tc := ⟨.hbm, 115, rfl⟩
abbrev main_v86 : Ref sig .tc := ⟨.hbm, 116, rfl⟩
abbrev main_cst_22 : Ref sig .tc := ⟨.hbm, 117, rfl⟩
abbrev main_v87 : Ref sig .tc := ⟨.hbm, 118, rfl⟩
abbrev main_c_23 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_24 : Ref sig .tc := ⟨.hbm, 123, rfl⟩
abbrev main_v91 : Ref sig .tc := ⟨.hbm, 124, rfl⟩
abbrev main_c_25 : Ref sig .tc := ⟨.hbm, 125, rfl⟩
abbrev main_v92 : Ref sig .tc := ⟨.hbm, 126, rfl⟩
abbrev main_v93 : Ref sig .tc := ⟨.hbm, 127, rfl⟩
abbrev main_cst_26 : Ref sig .tc := ⟨.hbm, 128, rfl⟩
abbrev main_v94 : Ref sig .tc := ⟨.hbm, 129, rfl⟩
abbrev main_cst_27 : Ref sig .tc := ⟨.hbm, 130, rfl⟩
abbrev main_v95 : Ref sig .tc := ⟨.hbm, 131, rfl⟩
abbrev main_cst_28 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  reducesTo_S65536x84_S_d0_1 : S65536x84.ReducesTo [0, 1] S_
  h_S_ : 0 < S_.numel
  slices_S112_S111_0 : S112.Slices ![0] S111
  slices_S65536x4x112_S65536x1x111_0_0_0 : S65536x4x112.Slices ![0, 0, 0] S65536x1x111
  shapeCasts_S65536x1x111_S65536x111 : S65536x1x111.ShapeCasts S65536x111
  slices_S65536x4x112_S65536x1x111_0_3_0 : S65536x4x112.Slices ![0, 3, 0] S65536x1x111
  slices_S65536x111_S65536x1_0_1 : S65536x111.Slices ![0, 1] S65536x1
  slices_S65536x111_S65536x1_0_0 : S65536x111.Slices ![0, 0] S65536x1
  slices_S65536x111_S65536x109_0_2 : S65536x111.Slices ![0, 2] S65536x109
  slices_S65536x111_S65536x109_0_0 : S65536x111.Slices ![0, 0] S65536x109
  bcast_S_S65536x109 : S_.BroadcastsInDim S65536x109 (![] : Fin 0 → Fin S65536x109.rank)
  slices_S65536x111_S65536x1_0_110 : S65536x111.Slices ![0, 110] S65536x1
  slices_S65536x111_S65536x1_0_109 : S65536x111.Slices ![0, 109] S65536x1
  concatenates_S65536x1_S65536x109_S65536x1_S65536x111_d1 : Shape.Concatenates [S65536x1, S65536x109, S65536x1] S65536x111 1
  slices_S111_S1_1 : S111.Slices ![1] S1
  slices_S111_S1_0 : S111.Slices ![0] S1
  slices_S111_S109_2 : S111.Slices ![2] S109
  slices_S111_S109_0 : S111.Slices ![0] S109
  bcast_S_S109 : S_.BroadcastsInDim S109 (![] : Fin 0 → Fin S109.rank)
  slices_S111_S1_110 : S111.Slices ![110] S1
  slices_S111_S1_109 : S111.Slices ![109] S1
  concatenates_S1_S109_S1_S111_d0 : Shape.Concatenates [S1, S109, S1] S111 0
  bcast_S111_S1x111_1 : S111.BroadcastsInDim S1x111 (![1] : Fin 1 → Fin S1x111.rank)
  bcast_S1x111_S65536x111_0_1 : S1x111.BroadcastsInDim S65536x111 (![0, 1] : Fin 2 → Fin S65536x111.rank)
  reducesTo_S65536x111_S65536_d1 : S65536x111.ReducesTo [1] S65536
  bcast_S_S65536 : S_.BroadcastsInDim S65536 (![] : Fin 0 → Fin S65536.rank)
  shapeCasts_S65536x84_S65536x21x4 : S65536x84.ShapeCasts S65536x21x4
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  reducesTo_S65536x3_S65536_d1 : S65536x3.ReducesTo [1] S65536
  natLt_1_32 : 1 < 32
  reducesTo_S65536_S_d0 : S65536.ReducesTo [0] S_
  gather_S65536x21x4_S3x2_S65536x3_0_12_n_n_12_1_6553611_wf : GatherDims.WF S65536x21x4 S3x2 S65536x3 [0] [1, 2] [] [1, 2] [] 1 ![65536, 1, 1]

variable [Facts₀]

def gather_S65536x21x4_S3x2_S65536x3_0_12_n_n_12_1_6553611 : GatherDims S65536x21x4 S3x2 S65536x3 where
  offsetDims := [0]
  collapsedSliceDims := [1, 2]
  operandBatchingDims := []
  startIndicesBatchingDims := []
  startIndexMap := [1, 2]
  indexVectorDim := 1
  sliceSizes := ![65536, 1, 1]
  wf := gather_S65536x21x4_S3x2_S65536x3_0_12_n_n_12_1_6553611_wf

class Facts : Prop extends Facts₀ where

variable [Facts]
-- ==== Proof.Spec.lean ====
/-
  The mathematics both programs compute, stated once over the extended reals.

  Per spectrum (one row of the batch) the weak-field estimate fits Stokes V against the wavelength
  derivative of Stokes I by least squares: with D the derivative (the gradient of the I row — one-sided
  differences at the two ends, halved central differences between — over the gradient of the wavelength
  axis), the slope is (n Σ D V − Σ D Σ V) / (n Σ D² − (Σ D)²), n = 111, and the field estimate is minus
  the slope over a constant.  The kernel multiplies the I gradient by the precomputed reciprocal of the
  wavelength gradient, the reference divides by the wavelength gradient; where that divisor has no zero
  entry the two are one number on every extended real (`gradient_mul_recip`), and so are the estimates
  (`wfaK_eq_wfaR`).  The other two row quantities — the mean of three entries of the predicted
  atmosphere, and the row sum of |predicted − target| — are written the same way by both programs.
-/
import Idealize.ShloMosaic.PureOps
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev S_ : Shape := ⟨0, ![]⟩
abbrev S1 : Shape := ⟨1, ![1]⟩
abbrev S109 : Shape := ⟨1, ![109]⟩
abbrev S111 : Shape := ⟨1, ![111]⟩
abbrev S112 : Shape := ⟨1, ![112]⟩

theorem slices_S112_S111_0 : S112.Slices ![0] S111 := by decide
theorem slices_S111_S1_1 : S111.Slices ![1] S1 := by decide
theorem slices_S111_S1_0 : S111.Slices ![0] S1 := by decide
theorem slices_S111_S109_2 : S111.Slices ![2] S109 := by decide
theorem slices_S111_S109_0 : S111.Slices ![0] S109 := by decide
theorem bcast_S_S109 : S_.BroadcastsInDim S109 (![] : Fin 0 → Fin S109.rank) := by decide
theorem slices_S111_S1_110 : S111.Slices ![110] S1 := by decide
theorem slices_S111_S1_109 : S111.Slices ![109] S1 := by decide
theorem concatenates_S1_S109_S1_S111_d0 : Shape.Concatenates [S1, S109, S1] S111 0 := by decide

section Vector
variable {F : FTy → Type} [FloatOps F]

/-- The first 111 wavelengths. -/
def wl111 (w : FVec F S112 .f32) : FVec F S111 .f32 := extractStridedSlice S111 ![0] w slices_S112_S111_0

/-- The gradient of the first 111 wavelengths, as all three programs (and the precondition) build it: the
    difference of the first two, the halved differences two apart, the difference of the last two,
    laid end to end. -/
def dwl (w : FVec F S112 .f32) : FVec F S111 .f32 :=
  concatenate S111 0
    [⟨S1, subf (extractStridedSlice S1 ![1] (wl111 w) slices_S111_S1_1) (extractStridedSlice S1 ![0] (wl111 w) slices_S111_S1_0)⟩,
     ⟨S109, mulf (subf (extractStridedSlice S109 ![2] (wl111 w) slices_S111_S109_2) (extractStridedSlice S109 ![0] (wl111 w) slices_S111_S109_0))
        (broadcastInDim S109 ![] bcast_S_S109 (constant S_ .f32 0x3F000000#32))⟩,
     ⟨S1, subf (extractStridedSlice S1 ![110] (wl111 w) slices_S111_S1_110) (extractStridedSlice S1 ![109] (wl111 w) slices_S111_S1_109)⟩]
    concatenates_S1_S109_S1_S111_d0

end Vector

/-! ## One row, on the extended reals -/

/-- The literals of the two programs, as the words they print. -/
abbrev half : EReal := Ideal.ofBits .f32 0x3F000000#32
abbrev n111 : EReal := Ideal.ofBits .f32 0x42DE0000#32
abbrev den : EReal := Ideal.ofBits .f32 0x37E944AF#32
abbrev one : EReal := Ideal.ofBits .f32 0x3F800000#32
abbrev three : EReal := Ideal.ofBits .f32 0x40400000#32
abbrev cnt : EReal := Ideal.ofBits .f32 0x4AA80000#32

theorem one_eq : one = 1 := by
  show Ideal.ofBits .f32 0x3F800000#32 = 1
  simp [Ideal.ofBits, Ideal.ieee, -EReal.coe_mul]; norm_num

/-- The gradient of a row of 111 samples along its axis: `x 1 − x 0` at the first place, `x 110 − x 109` at the
    last, and `(x (j+1) − x (j−1)) · ½` between. -/
def gradRow (x : Fin 111 → EReal) (j : Fin 111) : EReal :=
  if _h0 : j.val < 1 then x ⟨1, by omega⟩ - x ⟨0, by omega⟩
  else if h1 : j.val < 110 then (x ⟨j.val + 1, by omega⟩ - x ⟨j.val - 1, by omega⟩) * half
  else x ⟨110, by omega⟩ - x ⟨109, by omega⟩

/-- The least-squares slope of `V` against `D` over the 111 samples, in closed form. -/
def slope (D V : Fin 111 → EReal) : EReal :=
  Ideal.div (n111 * (∑ k, D k * V k) - (∑ k, D k) * (∑ k, V k)) (n111 * (∑ k, D k * D k) - (∑ k, D k) * (∑ k, D k))

/-- The kernel's field estimate of one row: the I gradient TIMES the reciprocal `1 / d` of the wavelength gradient. -/
def wfaK (I V d : Fin 111 → EReal) : EReal :=
  Ideal.div (0 - slope (fun j => gradRow I j * Ideal.div one (d j)) V) den

/-- The reference's: the I gradient OVER the wavelength gradient. -/
def wfaR (I V d : Fin 111 → EReal) : EReal :=
  Ideal.div (-(slope (fun j => Ideal.div (gradRow I j) (d j)) V)) den

/-- Off zero a quotient is the product with the reciprocal, for every extended real in the numerator. -/
theorem gradient_mul_recip (x y : EReal) (hy : y ≠ 0) : x * Ideal.div one y = Ideal.div x y := by
  unfold Ideal.div
  rw [if_neg hy, if_neg hy, one_eq, one_mul]

theorem wfaK_eq_wfaR (I V d : Fin 111 → EReal) (hd : ∀ j, d j ≠ 0) : wfaK I V d = wfaR I V d := by
  unfold wfaK wfaR
  have h : (fun j => gradRow I j * Ideal.div one (d j)) = fun j => Ideal.div (gradRow I j) (d j) :=
    funext fun j => gradient_mul_recip _ _ (hd j)
  rw [h, zero_sub]

/-- The absolute value both programs take: the larger of `x` and `−x`. -/
def eabs (x : EReal) : EReal := max x (-x)

/-- The predicted field of one row: the mean of entries 3, 7 and 11 of its 84 atmosphere parameters. -/
def pb (p : Fin 84 → EReal) : EReal := Ideal.div (p 3 + p 7 + p 11) three

/-- One row's sum of absolute differences between predicted and target parameters. -/
def rowabs (p q : Fin 84 → EReal) : EReal := ∑ k : Fin 84, eabs (p k - q k)

/-- The mean absolute error over all rows and parameters. -/
def base (P Q : Fin 65536 → Fin 84 → EReal) : EReal := Ideal.div (∑ r : Fin 65536, rowabs (P r) (Q r)) cnt

/-! ## The rows of the argument arrays -/

abbrev S65536x4x112 : Shape := ⟨3, ![65536, 4, 112]⟩
abbrev S65536x84 : Shape := ⟨2, ![65536, 84]⟩
abbrev S65536 : Shape := ⟨1, ![65536]⟩

/-- Row `r`'s Stokes I samples 0 … 110. -/
def rowI (a0 : S65536x4x112.Idx → EReal) (r : Fin 65536) : Fin 111 → EReal := fun k => a0 (ix3 r (0 : Fin 4) (⟨k.val, by omega⟩ : Fin 112))
/-- Row `r`'s Stokes V samples 0 … 110. -/
def rowV (a0 : S65536x4x112.Idx → EReal) (r : Fin 65536) : Fin 111 → EReal := fun k => a0 (ix3 r (3 : Fin 4) (⟨k.val, by omega⟩ : Fin 112))
/-- Row `r` of an atmosphere array. -/
def row84 (a : S65536x84.Idx → EReal) (r : Fin 65536) : Fin 84 → EReal := fun k => a (ix2 r k)
/-- The wavelength gradient's entries. -/
def dvec (a3 : FVec Ideal S112 .f32) : Fin 111 → EReal := fun j => dwl (F := Ideal) a3 (ix1 j)

/-- The three arrays the last host lines of both programs start from, as whole-array functions of the arguments: the
    field estimate per row (kernel's and reference's spelling), the predicted field per row, the mean absolute error. -/
def WK (a0 : S65536x4x112.Idx → EReal) (a3 : FVec Ideal S112 .f32) : FVec Ideal S65536 .f32 := fun i => wfaK (rowI a0 (i 0)) (rowV a0 (i 0)) (dvec a3)
def WR (a0 : S65536x4x112.Idx → EReal) (a3 : FVec Ideal S112 .f32) : FVec Ideal S65536 .f32 := fun i => wfaR (rowI a0 (i 0)) (rowV a0 (i 0)) (dvec a3)
def PB (a1 : S65536x84.Idx → EReal) : FVec Ideal S65536 .f32 := fun i => pb (row84 a1 (i 0))
def BASE (a1 a2 : S65536x84.Idx → EReal) : FVec Ideal S_ .f32 := fun _ => base (row84 a1) (row84 a2)

theorem WK_eq_WR (a0 : S65536x4x112.Idx → EReal) (a3 : FVec Ideal S112 .f32) (hd : ∀ j, dvec a3 j ≠ 0) : WK a0 a3 = WR a0 a3 :=
  funext fun _ => wfaK_eq_wfaR _ _ _ hd

end Cert.Spec

end
-- ==== Proof.Tail.lean ====
/-
  The last host lines, shared by both programs: from the per-row field estimate `wfa`, the per-row predicted field
  `pb` and the mean absolute error `base` they form the mask |wfa| < 100, the masked mean of
  |log10(|pb| + ε) − log10(|wfa| + ε)| (log10 as the natural logarithm times a literal), the count of the mask, and
  select the two losses on (base < threshold) ∧ (count > 0).  Both programs print the same operations here, so the
  certificate carries them as ONE function of (wfa, pb, base) and never opens it.
-/
import Idealize.ShloMosaic.PureOps
import Idealize.ShloMosaic.PureOps.Ideal

noncomputable section

namespace Cert.Tail

open Idealize.ShloMosaic

abbrev S_ : Shape := ⟨0, ![]⟩
abbrev S65536 : Shape := ⟨1, ![65536]⟩

theorem bcast_S_S65536 : S_.BroadcastsInDim S65536 (![] : Fin 0 → Fin S65536.rank) := by decide
theorem reducesTo_S65536_S_d0 : S65536.ReducesTo [0] S_ := by decide
theorem h_S_ : 0 < S_.numel := by decide
theorem natLt_1_32 : 1 < 32 := by decide

variable {F : FTy → Type} [FloatOps F]

/-- A scalar literal spread over the rows. -/
def splat (b : BitVec 32) : FVec F S65536 .f32 := broadcastInDim S65536 ![] bcast_S_S65536 (constant S_ .f32 b)

/-- The rows whose field estimate is below 100 in absolute value. -/
def mask (wfa : FVec F S65536 .f32) := cmpf .olt (Host.absf wfa) (splat (F := F) 0x42C80000#32)

/-- log10(|x| + ε), the logarithm spelt as the natural one times a literal. -/
def logabs (x : FVec F S65536 .f32) : FVec F S65536 .f32 :=
  mulf (Host.log (addf (Host.absf x) (splat 0x2EDBE6FF#32))) (splat 0x3EDE5BD9#32)

/-- The per-row discrepancy of the two fields on the logarithmic scale. -/
def diff (wfa pb : FVec F S65536 .f32) : FVec F S65536 .f32 := Host.absf (subf (logabs pb) (logabs wfa))

/-- How many rows the mask keeps. -/
def count (wfa : FVec F S65536 .f32) :=
  (fun x v => Host.reduce IntOp.addi x v reducesTo_S65536_S_d0 h_S_) (extui 32 (mask wfa) natLt_1_32) (constantI S_ 32 0#32)

/-- The masked mean of the discrepancy (the count taken at least one). -/
def masked (wfa pb : FVec F S65536 .f32) : FVec F S_ .f32 :=
  Host.divf
    ((fun x v => Host.reduceAdd x v reducesTo_S65536_S_d0 h_S_)
      (select (mask wfa) (diff wfa pb) (broadcastInDim S65536 ![] bcast_S_S65536 (id (constant S_ .f32 0x00000000#32))))
      (constant S_ .f32 0x00000000#32))
    (sitofp .f32 (maxsi (count wfa) (constantI S_ 32 1#32)))

/-- Whether the field term applies: the base error under its threshold and some row kept. -/
def applies (wfa : FVec F S65536 .f32) (base : FVec F S_ .f32) :=
  andi (cmpf .olt base (constant S_ .f32 0x39D1B717#32)) (cmpi .sgt (count wfa) (constantI S_ 32 0#32))

/-- The field loss. -/
def wfaLoss (wfa pb : FVec F S65536 .f32) (base : FVec F S_ .f32) : FVec F S_ .f32 :=
  select (applies wfa base) (masked wfa pb) (constant S_ .f32 0x00000000#32)

/-- The total loss. -/
def total (wfa pb : FVec F S65536 .f32) (base : FVec F S_ .f32) : FVec F S_ .f32 :=
  select (applies wfa base)
    (addf (mulf (constant S_ .f32 0x3F000000#32) base) (mulf (constant S_ .f32 0x3F000000#32) (masked wfa pb))) base

end Cert.Tail

end
-- ==== Proof.PreDecode.lean ====
/-
  What the precondition says of the wavelength axis.  The precondition is a conjunction of five `jnp.all`s; the last
  one is over the 111 entries of the wavelength gradient (the difference of the first two wavelengths, the halved
  differences two apart, the difference of the last two) compared with zero by "not equal".  Read back at an entry: no
  entry of that gradient is zero — the divisor of the reference's quotient, and the argument of the kernel's reciprocal.
-/
import proofs.«179079_j52828097741444_2_alg».proof.Pre_finite_inputs
import proofs.«179079_j52828097741444_2_alg».proof.Proof.Gen.Pre_finite_inputs
import proofs.«179079_j52828097741444_2_alg».proof.Proof.Spec
import Idealize.ShloMosaic.Lib.ReduceAll
import Idealize.ShloMosaic.Lib.IdealHost
import Idealize.ShloMosaic.PureOps.Ideal.Laws

noncomputable section

namespace Cert.PreDecode

open Idealize.ShloMosaic Idealize.ShloMosaic.ValueIdx Cert.Pre_finite_inputs

/-- The scalar shape has one index. -/
instance : Subsingleton Cert.Pre_finite_inputs.S_.Idx := ⟨fun a b => funext fun d => d.elim0⟩

/-- Under the precondition every entry of the wavelength gradient is different from zero. -/
theorem dwl_ne_zero (a0 : FVec Ideal S65536x4x112 .f32) (a1 a2 : FVec Ideal S65536x84 .f32) (a3 : FVec Ideal S112 .f32)
    (h : Cert.Pre_finite_inputs.fn (F := Ideal) a0 a1 a2 a3 = fun _ => 1#1) (j : Fin 111) : Cert.Spec.dvec a3 j ≠ 0 := by
  have h0 := congrFun h ValueIdx.ix0
  dsimp only [Cert.Pre_finite_inputs.fn, Cert.Pre_finite_inputs.fn_part1] at h0
  -- the last conjunct: the reduce by `and` of the comparison is 1, so the comparison is 1 at entry j
  have h1 := (IntOp.andi_eq_one.mp h0).2
  have h2 := Host.reduce_andi_all _ _ _ _ _ h1 (ix1 j)
  have h3 : cmpf .une (Cert.Spec.dwl (F := Ideal) a3) (broadcastInDim S111 ![] Facts.bcast_S_S111 (constant S_ .f32 0x00000000#32)) (ix1 j) = 1#1 := h2
  rw [cmpf_apply, broadcastInDim_scalar_apply, constant_apply, Ideal.ofBits_zero_f32] at h3
  intro hz
  unfold Cert.Spec.dvec at hz
  rw [hz] at h3
  revert h3
  change ¬ Ideal.cmp .une (0 : EReal) 0 = 1#1
  simp [Ideal.cmp]

end Cert.PreDecode

end
-- ==== Proof.KFrameBitsDefs.lean ====
/-
  The kernel program's one region and the data its frame proof speaks of.  @main is eighteen host lines, one region
  over a grid of 32 points with seven windows (the flattened spectra, the two atmosphere arrays and the reciprocal
  wavelength gradient in; three length-65536 vectors out, each in blocks of 2048 rows), and fifty-two host lines.
  Stated here: the buffers' contents when the region is entered (the launch contents after the first host lines), a
  window's block at a grid point, the five rectangles the body loads and stores through, what the body leaves in
  each output window's buffer (its one whole-block store), and per core the record of what every window's buffer
  holds after the body at every point — an input its block, an output the stored value of the input blocks.
-/
import proofs.«179079_j52828097741444_2_alg».proof.Proof.Gen.Kernel.Launch
import proofs.«179079_j52828097741444_2_alg».proof.Proof.Gen.Kernel.Skeleton
import proofs.«179079_j52828097741444_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The region's surroundings: contents at entry, the host lines after it -/

/-- The host lines after the region, as the six stretches the program's chain lists. -/
abbrev tailOps : List (List (HloOp τ sig (Elt F))) := [hostOps1, hostOps1_1, hostOps1_2, hostOps1_3, hostOps1_4, hostOps1_5]

/-- Core `c`'s TensorCore buffer contents when the region is entered: the launch memory after the host lines before
    the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles (all of unit stride) -/

/-- Columns 0 … 110 of a 2048×448 block. -/
abbrev rI : Rect S2048x448 := Rect.unit (s := S2048x448) ![0, 0] S2048x111.size inb_S2048x448_S2048x111_0_0
/-- Columns 336 … 446 of a 2048×448 block. -/
abbrev rV : Rect S2048x448 := Rect.unit (s := S2048x448) ![0, 336] S2048x111.size inb_S2048x448_S2048x111_0_336
/-- A whole 2048×84 block. -/
abbrev rA : Rect S2048x84 := Rect.unit (s := S2048x84) ![0, 0] S2048x84.size inb_S2048x84_S2048x84_0_0
/-- The whole 111-vector. -/
abbrev rW : Rect S111 := Rect.unit (s := S111) ![0] S111.size inb_S111_S111_0
/-- A whole 2048-vector. -/
abbrev rO : Rect S2048 := Rect.unit (s := S2048) ![0] S2048.size inb_S2048_S2048_0

/-! ## What the body leaves in each output window's staging buffer -/

/-- Window 4: one whole-block store of the first payload, a function of the two column ranges of window 0's block and
    of window 3's vector. -/
def out0_4 (x0 : Vec F S2048x448 .f32) (x3 : Vec F S111 .f32) : Vec F S2048 .f32 :=
  View.canon [⟨rO, k0_pay3 (View.ld x0 rI) (View.ld x0 rV) (View.ld x3 rW)⟩]
/-- Window 5: one whole-block store, a function of window 1's block. -/
def out0_5 (x1 : Vec F S2048x84 .f32) : Vec F S2048 .f32 :=
  View.canon [⟨rO, k0_pay1 (View.ld x1 rA)⟩]
/-- Window 6: one whole-block store, a function of window 1's and window 2's blocks. -/
def out0_6 (x1 x2 : Vec F S2048x84 .f32) : Vec F S2048 .f32 :=
  View.canon [⟨rO, k0_pay2 (View.ld x1 rA) (View.ld x2 rA)⟩]

/-! ## The pipeline's proof data -/

/-- On core `c`: the arrays as the region finds them; after the body at point `t` each input's buffer still at its
    block and each output's at the canon of its store over the input blocks; the invariant is the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 3 t)
    | ⟨5, _⟩ => out0_5 (iblk m c 1 t)
    | ⟨6, _⟩ => out0_6 (iblk m c 1 t) (iblk m c 2 t)
  Φ _ := Pipeline.ΦA spec0 c
  q _ := fullShare
  owed _ := 0

/-- The proof data's arrays are the region-entry contents (the structure projected, the fold over the host prefix
    never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 3 t) := by dsimp only [dats]
theorem after0_5 (c : Dev nD) (t : Fin cfg0.N) : (dats m 0 c).after 5 t = out0_5 (iblk m c 1 t) := by dsimp only [dats]
theorem after0_6 (c : Dev nD) (t : Fin cfg0.N) : (dats m 0 c).after 6 t = out0_6 (iblk m c 1 t) (iblk m c 2 t) := by dsimp only [dats]

end Cert.Kernel.Hand

end
-- ==== Proof.KFrameBitsHost.lean ====
/-
  The host lines around the region.  @main is the first host lines, the region, the later host lines; the first
  lines allocate nothing and touch TensorCore buffers only, and the later ones, besides, touch only the region's
  arrays and the buffers that bypass it and write none of the region's arrays.  No host line writes an argument
  array, so each argument is found by the region, and left at the end, as launched.  From a run of the region that
  ends with the arrays at what the record computes, the frame claim's four equations follow.
-/
import proofs.«179079_j52828097741444_2_alg».proof.Proof.KFrameBitsDefs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the host lines before the region, the region, then the six stretches after it: it reduces to the region
    continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)

/-- And none writes an array of the pipeline: each writes only its own result buffer, which is no window's array. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, hostOps1_3, hostOps1_4, hostOps1_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
    simp only [tailOps, hostOps1, hostOps1_1, hostOps1_2, hostOps1_3, hostOps1_4, hostOps1_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The frame claim's post from the frame run's -/

/-- From a run to the library's frame post, for any proof data whose arrays are the region-entry contents: the two
    argument arrays that are windows (inputs, never written back) by the post's first clause, the two that are not by its
    second, each then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c)⟩) h

end Cert.Kernel.Hand

end
-- ==== Proof.KFrameBitsBody.lean ====
/-
  The body's triple.  Called on whole staging buffers — the four inputs' holding any contents, the three outputs'
  holding anything — the body loads two column ranges of the spectra block, the two atmosphere blocks and the
  reciprocal-gradient vector, loads each output buffer once without using the value, and stores one whole 2048-vector
  into each output buffer.  It ends with the inputs' buffers as they were and each output's at its stored value: a
  single store through the whole rectangle covers the buffer, so the buffer reads back that value.
-/
import proofs.«179079_j52828097741444_2_alg».proof.Proof.KFrameBitsDefs

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The output stores cover their buffers -/

/-- One whole-vector store tiles a 2048-vector, so it covers it. -/
theorem coverO (p0 : Vec F S2048 .f32) (y : S2048.Idx) :
    ∃ pc ∈ ([⟨rO, p0⟩] : List (View.Piece (Elt F) S2048 .f32)), y ∈ pc.1.set :=
  View.cover_of_tiled [⟨rO, p0⟩] S2048.size (by rfl) y

/-! ## The body's triple -/

set_option maxHeartbeats 1000000 in
/-- The kernel body on whole staging memrefs — the four inputs' at read contents `x0 … x3`, the three outputs' at
    anything — runs to the continuation holding the inputs' as they were and each output's at the canon of its one
    whole-block store over the inputs. The body also loads each output buffer before storing into it; the value
    loaded is used nowhere. -/
theorem sound_kernel (c : Dev nD) (E : Set ℕ) (i : grid0.Coords) (arg1 : Memref sig .tc .vmem S2048x448 .f32) (harg1 : arg1.IsWhole) (arg2 : Memref sig .tc .vmem S2048x84 .f32) (harg2 : arg2.IsWhole) (arg3 : Memref sig .tc .vmem S2048x84 .f32) (harg3 : arg3.IsWhole) (arg4 : Memref sig .tc .vmem S111 .f32) (harg4 : arg4.IsWhole) (arg5 : Memref sig .tc .vmem S2048 .f32) (harg5 : arg5.IsWhole) (arg6 : Memref sig .tc .vmem S2048 .f32) (harg6 : arg6.IsWhole) (arg7 : Memref sig .tc .vmem S2048 .f32) (harg7 : arg7.IsWhole)
    (x0 : Vec F S2048x448 .f32) (x1 x2 : Vec F S2048x84 .f32) (x3 : Vec F S111 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x3) ∗ owns (c : Thread nD τ) arg6 fullShare (out0_5 x1)
            ∗ owns (c : Thread nD τ) arg7 fullShare (out0_6 x1 x2)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

end Cert.Kernel.Hand

end
-- ==== Proof.KFrameBits.lean ====
/-
  The frame run.  At every grid point each input window's current buffer holds its block (fetched there, or still
  in place where the index map has not moved), so the body's triple applies and returns the buffers as the record
  says; the region's invariant passes through unread.  The launch theorem for one region between host lines then
  gives: every weakly fair execution of @main terminates, faults nowhere, each array of the region ends at what the
  record computes and every other buffer at what the later host lines leave — hence the four arguments as launched.
-/
import proofs.«179079_j52828097741444_2_alg».proof.Proof.KFrameBitsDefs
import proofs.«179079_j52828097741444_2_alg».proof.Proof.KFrameBitsHost
import proofs.«179079_j52828097741444_2_alg».proof.Proof.KFrameBitsBody

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Each input window's buffer before the body -/

/-- Input window 0's current staging buffer holds its block at every point, fetched there or not (unfetched, its
    block index has not moved); the window is uncut and never idle. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input window 1's current staging buffer holds its block at every point, fetched there or not (unfetched, its
    block index has not moved); the window is uncut and never idle. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input window 2's current staging buffer holds its block at every point, fetched there or not (unfetched, its
    block index has not moved); the window is uncut and never idle. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3's current staging buffer holds its block at every point, fetched there or not (unfetched, its
    block index has not moved); the window is uncut and never idle. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

/-- What the body is called with at point `t` (the library's obligation, its windows spelt one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every weakly fair execution terminates without a fault and the four argument arrays end as launched, at
    any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  frame_of m ρ (dats m) (A_eq m) (run_main m ρ)

end Cert.Kernel.Hand

end
-- ==== Proof.KFrameDefs.lean ====
/-
  The kernel program's one region and the data its frame proof speaks of.  @main is eighteen host lines, one region
  over a grid of 32 points with seven windows (the flattened spectra, the two atmosphere arrays and the reciprocal
  wavelength gradient in; three length-65536 vectors out, each in blocks of 2048 rows), and fifty-two host lines.
  Stated here: the buffers' contents when the region is entered (the launch contents after the first host lines), a
  window's block at a grid point, the five rectangles the body loads and stores through, what the body leaves in
  each output window's buffer (its one whole-block store), and per core the record of what every window's buffer
  holds after the body at every point — an input its block, an output the stored value of the input blocks.
-/
import proofs.«179079_j52828097741444_2_alg».proof.Proof.Gen.KernelIdeal.Launch
import proofs.«179079_j52828097741444_2_alg».proof.Proof.Gen.KernelIdeal.Skeleton
import proofs.«179079_j52828097741444_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The region's surroundings: contents at entry, the host lines after it -/

/-- The host lines after the region, as the six stretches the program's chain lists. -/
abbrev tailOps : List (List (HloOp τ sig (Elt F))) := [hostOps1, hostOps1_1, hostOps1_2, hostOps1_3, hostOps1_4, hostOps1_5]

/-- Core `c`'s TensorCore buffer contents when the region is entered: the launch memory after the host lines before
    the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles (all of unit stride) -/

/-- Columns 0 … 110 of a 2048×448 block. -/
abbrev rI : Rect S2048x448 := Rect.unit (s := S2048x448) ![0, 0] S2048x111.size inb_S2048x448_S2048x111_0_0
/-- Columns 336 … 446 of a 2048×448 block. -/
abbrev rV : Rect S2048x448 := Rect.unit (s := S2048x448) ![0, 336] S2048x111.size inb_S2048x448_S2048x111_0_336
/-- A whole 2048×84 block. -/
abbrev rA : Rect S2048x84 := Rect.unit (s := S2048x84) ![0, 0] S2048x84.size inb_S2048x84_S2048x84_0_0
/-- The whole 111-vector. -/
abbrev rW : Rect S111 := Rect.unit (s := S111) ![0] S111.size inb_S111_S111_0
/-- A whole 2048-vector. -/
abbrev rO : Rect S2048 := Rect.unit (s := S2048) ![0] S2048.size inb_S2048_S2048_0

/-! ## What the body leaves in each output window's staging buffer -/

/-- Window 4: one whole-block store of the first payload, a function of the two column ranges of window 0's block and
    of window 3's vector. -/
def out0_4 (x0 : Vec F S2048x448 .f32) (x3 : Vec F S111 .f32) : Vec F S2048 .f32 :=
  View.canon [⟨rO, k0_pay3 (View.ld x0 rI) (View.ld x0 rV) (View.ld x3 rW)⟩]
/-- Window 5: one whole-block store, a function of window 1's block. -/
def out0_5 (x1 : Vec F S2048x84 .f32) : Vec F S2048 .f32 :=
  View.canon [⟨rO, k0_pay1 (View.ld x1 rA)⟩]
/-- Window 6: one whole-block store, a function of window 1's and window 2's blocks. -/
def out0_6 (x1 x2 : Vec F S2048x84 .f32) : Vec F S2048 .f32 :=
  View.canon [⟨rO, k0_pay2 (View.ld x1 rA) (View.ld x2 rA)⟩]

/-! ## The pipeline's proof data -/

/-- On core `c`: the arrays as the region finds them; after the body at point `t` each input's buffer still at its
    block and each output's at the canon of its store over the input blocks; the invariant is the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 3 t)
    | ⟨5, _⟩ => out0_5 (iblk m c 1 t)
    | ⟨6, _⟩ => out0_6 (iblk m c 1 t) (iblk m c 2 t)
  Φ _ := Pipeline.ΦA spec0 c
  q _ := fullShare
  owed _ := 0

/-- The proof data's arrays are the region-entry contents (the structure projected, the fold over the host prefix
    never opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 3 t) := by dsimp only [dats]
theorem after0_5 (c : Dev nD) (t : Fin cfg0.N) : (dats m 0 c).after 5 t = out0_5 (iblk m c 1 t) := by dsimp only [dats]
theorem after0_6 (c : Dev nD) (t : Fin cfg0.N) : (dats m 0 c).after 6 t = out0_6 (iblk m c 1 t) (iblk m c 2 t) := by dsimp only [dats]

end Cert.KernelIdeal.Hand

end
-- ==== Proof.KFrameHost.lean ====
/-
  The host lines around the region.  @main is the first host lines, the region, the later host lines; the first
  lines allocate nothing and touch TensorCore buffers only, and the later ones, besides, touch only the region's
  arrays and the buffers that bypass it and write none of the region's arrays.  No host line writes an argument
  array, so each argument is found by the region, and left at the end, as launched.  From a run of the region that
  ends with the arrays at what the record computes, the frame claim's four equations follow.
-/
import proofs.«179079_j52828097741444_2_alg».proof.Proof.KFrameDefs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the host lines before the region, the region, then the six stretches after it: it reduces to the region
    continued by those stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The lines after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; exact StableHlo.devRef_ne_of_ne (by revert w; decide)

/-- And none writes an array of the pipeline: each writes only its own result buffer, which is no window's array. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
    simp only [tailOps, hostOps1, hostOps1_1, hostOps1_2, hostOps1_3, hostOps1_4, hostOps1_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
    simp only [tailOps, hostOps1, hostOps1_1, hostOps1_2, hostOps1_3, hostOps1_4, hostOps1_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The frame claim's post from the frame run's -/

/-- From a run to the library's frame post, for any proof data whose arrays are the region-entry contents: the two
    argument arrays that are windows (inputs, never written back) by the post's first clause, the two that are not by its
    second, each then as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (W_main_arg0 m dats c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c)⟩) h

end Cert.KernelIdeal.Hand

end
-- ==== Proof.KFrameBody.lean ====
/-
  The body's triple.  Called on whole staging buffers — the four inputs' holding any contents, the three outputs'
  holding anything — the body loads two column ranges of the spectra block, the two atmosphere blocks and the
  reciprocal-gradient vector, loads each output buffer once without using the value, and stores one whole 2048-vector
  into each output buffer.  It ends with the inputs' buffers as they were and each output's at its stored value: a
  single store through the whole rectangle covers the buffer, so the buffer reads back that value.
-/
import proofs.«179079_j52828097741444_2_alg».proof.Proof.KFrameDefs

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The output stores cover their buffers -/

/-- One whole-vector store tiles a 2048-vector, so it covers it. -/
theorem coverO (p0 : Vec F S2048 .f32) (y : S2048.Idx) :
    ∃ pc ∈ ([⟨rO, p0⟩] : List (View.Piece (Elt F) S2048 .f32)), y ∈ pc.1.set :=
  View.cover_of_tiled [⟨rO, p0⟩] S2048.size (by rfl) y

/-! ## The body's triple -/

set_option maxHeartbeats 1000000 in
/-- The kernel body on whole staging memrefs — the four inputs' at read contents `x0 … x3`, the three outputs' at
    anything — runs to the continuation holding the inputs' as they were and each output's at the canon of its one
    whole-block store over the inputs. The body also loads each output buffer before storing into it; the value
    loaded is used nowhere. -/
theorem sound_kernel (c : Dev nD) (E : Set ℕ) (i : grid0.Coords) (arg1 : Memref sig .tc .vmem S2048x448 .f32) (harg1 : arg1.IsWhole) (arg2 : Memref sig .tc .vmem S2048x84 .f32) (harg2 : arg2.IsWhole) (arg3 : Memref sig .tc .vmem S2048x84 .f32) (harg3 : arg3.IsWhole) (arg4 : Memref sig .tc .vmem S111 .f32) (harg4 : arg4.IsWhole) (arg5 : Memref sig .tc .vmem S2048 .f32) (harg5 : arg5.IsWhole) (arg6 : Memref sig .tc .vmem S2048 .f32) (harg6 : arg6.IsWhole) (arg7 : Memref sig .tc .vmem S2048 .f32) (harg7 : arg7.IsWhole)
    (x0 : Vec F S2048x448 .f32) (x1 x2 : Vec F S2048x84 .f32) (x3 : Vec F S111 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x3) ∗ owns (c : Thread nD τ) arg6 fullShare (out0_5 x1)
            ∗ owns (c : Thread nD τ) arg7 fullShare (out0_6 x1 x2)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

end Cert.KernelIdeal.Hand

end
-- ==== Proof.KFrame.lean ====
/-
  The frame run.  At every grid point each input window's current buffer holds its block (fetched there, or still
  in place where the index map has not moved), so the body's triple applies and returns the buffers as the record
  says; the region's invariant passes through unread.  The launch theorem for one region between host lines then
  gives: every weakly fair execution of @main terminates, faults nowhere, each array of the region ends at what the
  record computes and every other buffer at what the later host lines leave — hence the four arguments as launched.
-/
import proofs.«179079_j52828097741444_2_alg».proof.Proof.KFrameDefs
import proofs.«179079_j52828097741444_2_alg».proof.Proof.KFrameHost
import proofs.«179079_j52828097741444_2_alg».proof.Proof.KFrameBody

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## Each input window's buffer before the body -/

/-- Input window 0's current staging buffer holds its block at every point, fetched there or not (unfetched, its
    block index has not moved); the window is uncut and never idle. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input window 1's current staging buffer holds its block at every point, fetched there or not (unfetched, its
    block index has not moved); the window is uncut and never idle. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input window 2's current staging buffer holds its block at every point, fetched there or not (unfetched, its
    block index has not moved); the window is uncut and never idle. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Input window 3's current staging buffer holds its block at every point, fetched there or not (unfetched, its
    block index has not moved); the window is uncut and never idle. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

/-- What the body is called with at point `t` (the library's obligation, its windows spelt one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: every weakly fair execution terminates without a fault and the four argument arrays end as launched, at
    any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  frame_of m ρ (dats m) (A_eq m) (run_main m ρ)

end Cert.KernelIdeal.Hand

end
-- ==== Proof.KTail.lean ====
/-
  The fifty-two host lines after the region.  They read the three vectors the region wrote: the first four sum the
  row sums of |predicted − target| and divide by the number of entries — the mean absolute error —, the rest are the
  shared last lines (`Cert.Tail`) applied to the field estimate, the predicted field and that mean.  The host's sum
  over the 65536 rows of a vector of row sums, from the zero word, over the literal, is the specification's mean.
-/
import proofs.«179079_j52828097741444_2_alg».proof.Proof.KFrameDefs
import proofs.«179079_j52828097741444_2_alg».proof.Proof.Tail
import proofs.«179079_j52828097741444_2_alg».proof.Proof.Spec
import Idealize.ShloMosaic.Lib.IdealHost

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## The host lines after the region, read at the three results

The 52 operations after the region are folded over ANY contents `W` of the device's buffers; what they leave in the
three result buffers is the shared tail function (module `Tail`) of the three output arrays found in `W`, and the mean
absolute error line is its own small function of the third array. -/

/-- The mean absolute error line: the sum of the third output array from a zero word, over the literal count. -/
abbrev baseOf (A6 : FVec Ideal S65536 .f32) : FVec Ideal S_ .f32 :=
  Host.divf (F := Ideal) ((fun x v => Host.reduceAdd x v reducesTo_S65536_S_d0 h_S_) A6 (constant (F := Ideal) S_ .f32 0x00000000#32)) (constant (F := Ideal) S_ .f32 0x4AA80000#32)

section Fold
variable (W : Valuation τ sig (Elt Ideal)) (A4 A5 A6 : FVec Ideal S65536 .f32)
  (h4 : W (Proc.devRef .tc main_v16_0) = A4) (h5 : W (Proc.devRef .tc main_v16_1) = A5) (h6 : W (Proc.devRef .tc main_v16_2) = A6)
include h6

set_option maxHeartbeats 1000000 in
/-- The mean absolute error buffer after the lines. -/
theorem tailW_v18 : StableHlo.after (List.flatten (tailOps (F := Ideal))) W (Proc.devRef .tc main_v18) = baseOf A6 := by
  subst h6
  simp only [tailOps, hostOps1, hostOps1_1, hostOps1_2, hostOps1_3, hostOps1_4, hostOps1_5, List.flatten_cons, List.flatten_nil, List.append_nil, List.cons_append, List.nil_append]
  after_results_simp

include h4 h5

set_option maxHeartbeats 1000000 in
/-- The total loss buffer after the lines. -/
theorem tailW_v50 : StableHlo.after (List.flatten (tailOps (F := Ideal))) W (Proc.devRef .tc main_v50)
    = Cert.Tail.total A4 A5 (baseOf A6) := by
  subst h4; subst h5; subst h6
  simp only [tailOps, hostOps1, hostOps1_1, hostOps1_2, hostOps1_3, hostOps1_4, hostOps1_5, List.flatten_cons, List.flatten_nil, List.append_nil, List.cons_append, List.nil_append]
  after_results_simp
  rfl

set_option maxHeartbeats 1000000 in
/-- The field loss buffer after the lines. -/
theorem tailW_v46 : StableHlo.after (List.flatten (tailOps (F := Ideal))) W (Proc.devRef .tc main_v46)
    = Cert.Tail.wfaLoss A4 A5 (baseOf A6) := by
  subst h4; subst h5; subst h6
  simp only [tailOps, hostOps1, hostOps1_1, hostOps1_2, hostOps1_3, hostOps1_4, hostOps1_5, List.flatten_cons, List.flatten_nil, List.append_nil, List.cons_append, List.nil_append]
  after_results_simp
  rfl

end Fold

/-! ## The same at the region's exit: the three output arrays as the region leaves them -/

section Exit
variable (m : (ℓ : Loc nD τ sig) → Buf (Elt Ideal) ℓ) (c : Dev nD)

/-- The total loss. -/
theorem tail_v50 : Pipeline.afterTail₀ cfgs (dats m) 0 (V0 m) tailOps c main_v50 = Cert.Tail.total ((dats m 0 c).arrAt 4 cfg0.N) ((dats m 0 c).arrAt 5 cfg0.N) (Host.divf (F := Ideal) ((fun x v => Host.reduceAdd x v reducesTo_S65536_S_d0 h_S_) ((dats m 0 c).arrAt 6 cfg0.N) (constant (F := Ideal) S_ .f32 0x00000000#32)) (constant (F := Ideal) S_ .f32 0x4AA80000#32)) := by
  unfold Pipeline.afterTail₀
  exact tailW_v50 _ _ _ _ (Pipeline.withArrays_arr spec0 launch0.win.arr_inj c _ _ 4) (Pipeline.withArrays_arr spec0 launch0.win.arr_inj c _ _ 5)
    (Pipeline.withArrays_arr spec0 launch0.win.arr_inj c _ _ 6)

/-- The mean absolute error. -/
theorem tail_v18 : Pipeline.afterTail₀ cfgs (dats m) 0 (V0 m) tailOps c main_v18 = (Host.divf (F := Ideal) ((fun x v => Host.reduceAdd x v reducesTo_S65536_S_d0 h_S_) ((dats m 0 c).arrAt 6 cfg0.N) (constant (F := Ideal) S_ .f32 0x00000000#32)) (constant (F := Ideal) S_ .f32 0x4AA80000#32)) := by
  unfold Pipeline.afterTail₀
  exact tailW_v18 _ _ (Pipeline.withArrays_arr spec0 launch0.win.arr_inj c _ _ 6)

/-- The field loss. -/
theorem tail_v46 : Pipeline.afterTail₀ cfgs (dats m) 0 (V0 m) tailOps c main_v46 = Cert.Tail.wfaLoss ((dats m 0 c).arrAt 4 cfg0.N) ((dats m 0 c).arrAt 5 cfg0.N) (Host.divf (F := Ideal) ((fun x v => Host.reduceAdd x v reducesTo_S65536_S_d0 h_S_) ((dats m 0 c).arrAt 6 cfg0.N) (constant (F := Ideal) S_ .f32 0x00000000#32)) (constant (F := Ideal) S_ .f32 0x4AA80000#32)) := by
  unfold Pipeline.afterTail₀
  exact tailW_v46 _ _ _ _ (Pipeline.withArrays_arr spec0 launch0.win.arr_inj c _ _ 4) (Pipeline.withArrays_arr spec0 launch0.win.arr_inj c _ _ 5)
    (Pipeline.withArrays_arr spec0 launch0.win.arr_inj c _ _ 6)

end Exit

/-! ## The mean absolute error line on the row sums -/

/-- A rank-1 index set is its one coordinate's range … -/
def idxEquiv1 {n : Nat} : (⟨1, ![n]⟩ : Shape).Idx ≃ Fin n where
  toFun i := i 0
  invFun r := ValueIdx.ix1 r
  left_inv i := (ValueIdx.eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ r : Fin n, f (ValueIdx.ix1 r) := by
  rw [← Equiv.sum_comp (idxEquiv1 (n := n)).symm f]
  rfl

/-- When the third output array is the row sums of absolute differences, the line is the mean absolute error: the host
    reduction to a scalar is the zero word plus the sum over every row, and the quotient is taken at the one element. -/
theorem base_of_rowabs (a1 a2 : Cert.Spec.S65536x84.Idx → EReal) :
    Host.divf (F := Ideal) ((fun x v => Host.reduceAdd x v reducesTo_S65536_S_d0 h_S_)
        (fun i => Cert.Spec.rowabs (Cert.Spec.row84 a1 (i 0)) (Cert.Spec.row84 a2 (i 0))) (constant (F := Ideal) S_ .f32 0x00000000#32))
      (constant (F := Ideal) S_ .f32 0x4AA80000#32) = Cert.Spec.BASE a1 a2 := by
  funext j
  show Ideal.div (Ideal.hostReduceAdd reducesTo_S65536_S_d0 (fun i : S65536.Idx => Cert.Spec.rowabs (Cert.Spec.row84 a1 (i 0)) (Cert.Spec.row84 a2 (i 0)))
      (Ideal.ofBits .f32 0x00000000#32) j) (Ideal.ofBits .f32 0x4AA80000#32) = Cert.Spec.base (Cert.Spec.row84 a1) (Cert.Spec.row84 a2)
  rw [Ideal.hostReduceAdd_total _ (fun b => b.elim0), Ideal.ofBits_zero_f32, zero_add, sum_idx1]
  rfl

end Cert.KernelIdeal.Hand

end
-- ==== Proof.KHost.lean ====
/-
  What the region finds in its input arrays, as functions of the arguments.  Eighteen host lines run before it: one
  flattens the spectra [65536, 4, 112] to [65536, 448] (so a row's Stokes I samples 0 … 110 sit in columns 0 … 110 and
  its Stokes V samples in columns 336 … 446, 336 = 3 · 112), the others build the gradient of the first 111
  wavelengths and take its reciprocal entry by entry.  The two atmosphere arrays are arguments no host line writes.
-/
import proofs.«179079_j52828097741444_2_alg».proof.Proof.KFrameDefs
import proofs.«179079_j52828097741444_2_alg».proof.Proof.KFrameHost
import proofs.«179079_j52828097741444_2_alg».proof.Proof.Spec
import proofs.«179079_j52828097741444_2_alg».proof.Proof.Tail
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)

variable (m : (ℓ : Loc nD τ sig) → Buf (Elt Ideal) ℓ)

/-! ## The host lines before the region -/

/-- Window 3's array as the region finds it: the reciprocal, entry by entry, of the wavelength gradient. -/
theorem V_main_v15 (c : Dev nD) :
    (V m c main_v15 : S111.Idx → EReal) = Host.divf (F := Ideal) (broadcastInDim S111 ![] bcast_S_S111 (constant (F := Ideal) S_ .f32 0x3F800000#32))
      (Cert.Spec.dwl (F := Ideal) (m ((c.tc : Thread nD τ).loc main_arg3))) := by
  dsimp only [V, V0]
  simp only [hostOps0, List.flatten_cons, List.flatten_nil, List.append_nil, List.cons_append, List.nil_append]
  after_results
  rfl

/-- At entry `j` it is one over the gradient's entry `j`. -/
theorem V_main_v15_apply (c : Dev nD) (j : Fin 111) :
    (V m c main_v15 : S111.Idx → EReal) (ix1 j) = Ideal.div Cert.Spec.one (Cert.Spec.dvec (m ((c.tc : Thread nD τ).loc main_arg3)) j) := by
  rw [V_main_v15]; rfl

/-- Window 0's array as the region finds it: the first argument with its two trailing axes flattened. -/
theorem V_main_v0 (c : Dev nD) :
    (V m c main_v0 : S65536x448.Idx → EReal) = shapeCast S65536x448 (m ((c.tc : Thread nD τ).loc main_arg0) : S65536x4x112.Idx → EReal) shapeCasts_S65536x4x112_S65536x448 := by
  dsimp only [V, V0]
  simp only [hostOps0, List.flatten_cons, List.flatten_nil, List.append_nil, List.cons_append, List.nil_append]
  after_results
  rfl

/-- Columns 0 … 110 of row `r` of the flattened array are the row's Stokes I samples. -/
theorem V_main_v0_I (c : Dev nD) (r : Fin 65536) (k : Fin 111) :
    (V m c main_v0 : S65536x448.Idx → EReal) (ix2 r (⟨k.val, by omega⟩ : Fin 448))
      = (m ((c.tc : Thread nD τ).loc main_arg0) : S65536x4x112.Idx → EReal) (ix3 r (0 : Fin 4) (⟨k.val, by omega⟩ : Fin 112)) := by
  rw [V_main_v0]
  refine shapeCast_apply (s := S65536x4x112) (t := S65536x448) _ _ _ _ ?_
  show (S65536x4x112.rowMajor _).val = (S65536x448.rowMajor _).val
  rw [Shape.rowMajor_val_three, Shape.rowMajor_val_two]
  show (r.val * 4 + 0) * 112 + k.val = r.val * 448 + k.val
  omega

/-- Columns 336 … 446 are its Stokes V samples (336 = 3 · 112). -/
theorem V_main_v0_V (c : Dev nD) (r : Fin 65536) (k : Fin 111) :
    (V m c main_v0 : S65536x448.Idx → EReal) (ix2 r (⟨336 + k.val, by omega⟩ : Fin 448))
      = (m ((c.tc : Thread nD τ).loc main_arg0) : S65536x4x112.Idx → EReal) (ix3 r (3 : Fin 4) (⟨k.val, by omega⟩ : Fin 112)) := by
  rw [V_main_v0]
  refine shapeCast_apply (s := S65536x4x112) (t := S65536x448) _ _ _ _ ?_
  show (S65536x4x112.rowMajor _).val = (S65536x448.rowMajor _).val
  rw [Shape.rowMajor_val_three, Shape.rowMajor_val_two]
  show (r.val * 4 + 3) * 112 + k.val = r.val * 448 + (336 + k.val)
  omega

end Cert.KernelIdeal.Hand

end
-- ==== Proof.KPay.lean ====
/-
  The three values the kernel's body stores for a block of 2048 rows, read at one row.

  Each is a chain of vector operations on the block's rows; at the extended reals every operation reads through an
  index, so at row `y` the chain is a function of that row alone:
  * the mean of entries 3, 7 and 11 of the row's 84 predicted atmosphere parameters (`pay1_apply`);
  * the sum over the row of |predicted − target| (`pay2_apply`);
  * the field estimate: the row's Stokes I samples are differenced along the wavelength axis (one-sided at the two
    ends, halved central differences between), multiplied by the reciprocal wavelength gradient, and Stokes V is
    fitted against the result by least squares — four sums over the 111 samples and the closed form of the slope —,
    the estimate being minus the slope over a constant (`pay3_apply`).
  The layout operations (slices, the concatenation of the three difference pieces, the reshapes and the repetition of
  the reciprocal vector over the rows) only move entries: each is read at an index once, in a lemma of its own.
-/
import proofs.«179079_j52828097741444_2_alg».proof.Proof.Gen.KernelIdeal.Skeleton
import proofs.«179079_j52828097741444_2_alg».proof.Proof.Spec
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen
open scoped BigOperators

/-! ## The predicted field of a row -/

/-- A one-column slice of a [2048, 84] vector, flattened to [2048], reads the column's entry of the row. -/
theorem column84 (x : Vec Ideal S2048x84 .f32) (c : Nat) (hc : c < 84) (hs : S2048x84.Slices ![0, c] S2048x1)
    (hcast : S2048x1.ShapeCasts S2048) (y : Fin 2048) :
    shapeCast S2048 (extractStridedSlice S2048x1 ![0, c] x hs) hcast (ix1 y) = x (ix2 y (⟨c, hc⟩ : Fin 84)) := by
  refine (shapeCast_apply _ hcast (ix1 y) (ix2 y (0 : Fin 1)) ?_).trans ?_
  · rw [Shape.rowMajor_val_two, Shape.rowMajor_val_one]
    show y.val * 1 + 0 = y.val
    omega
  · refine extractStridedSlice_apply _ x hs (ix2 y (0 : Fin 1)) (ix2 y (⟨c, hc⟩ : Fin 84)) fun a => ?_
    match a with
    | ⟨0, _⟩ => show y.val = 0 + y.val; omega
    | ⟨1, _⟩ => show c = c + 0; omega

theorem pay1_apply (x1 : Vec Ideal S2048x84 .f32) (y : Fin 2048) :
    k0_pay1 (F := Ideal) x1 (ix1 y) = Cert.Spec.pb (fun k : Fin 84 => x1 (ix2 y k)) := by
  unfold k0_pay1
  simp only [divf_apply, addf_apply, broadcast_apply]
  rw [column84 x1 3 (by omega), column84 x1 7 (by omega), column84 x1 11 (by omega)]
  rfl

/-! ## The row's sum of absolute differences -/

/-- The index a lane sum inserts coordinate `k` into, for the row `y`, is `(y, k)`. -/
theorem lift84 (y : Fin 2048) (k : Fin 84) : reduces_S2048x84_S2048.lift (ix1 y) k = ix2 y k := by
  funext a; match a with | ⟨0, _⟩ => rfl | ⟨1, _⟩ => rfl

theorem pay2_apply (x1 x2 : Vec Ideal S2048x84 .f32) (y : Fin 2048) :
    k0_pay2 (F := Ideal) x1 x2 (ix1 y) = Cert.Spec.rowabs (fun k : Fin 84 => x1 (ix2 y k)) (fun k => x2 (ix2 y k)) := by
  unfold k0_pay2
  refine (Ideal.multiReduction_add_single _ 0x00000000#32 reduces_S2048x84_S2048 _ _ (ix1 y)).trans ?_
  unfold Cert.Spec.rowabs Cert.Spec.eabs
  show ∑ k : Fin 84, _ = _
  refine Finset.sum_congr rfl fun k _ => ?_
  rw [lift84]
  rfl

/-! ## The field estimate of a row

The gradient along the lanes, the repeated reciprocals and the least-squares fit are named separately, so that each is
read at an index by itself. -/

/-- The gradient of every row of a [2048, 111] vector along its lanes, as the kernel lays it out: the
    difference of the first two lanes, the halved differences two lanes apart, the difference of the last
    two lanes, side by side. -/
def gradVec (v1 : FVec Ideal S2048x111 .f32) : FVec Ideal S2048x111 .f32 :=
  concatenate S2048x111 1
    [⟨S2048x1, subf (extractStridedSlice S2048x1 ![0, 1] v1 slices_S2048x111_o0_1_S2048x1)
        (extractStridedSlice S2048x1 ![0, 0] v1 slices_S2048x111_o0_0_S2048x1)⟩,
     ⟨S2048x109, mulf (subf (extractStridedSlice S2048x109 ![0, 2] v1 slices_S2048x111_o0_2_S2048x109)
        (extractStridedSlice S2048x109 ![0, 0] v1 slices_S2048x111_o0_0_S2048x109))
        (broadcast S2048x109 (Scalar.ofBits .f32 0x3F000000#32))⟩,
     ⟨S2048x1, subf (extractStridedSlice S2048x1 ![0, 110] v1 slices_S2048x111_o0_110_S2048x1)
        (extractStridedSlice S2048x1 ![0, 109] v1 slices_S2048x111_o0_109_S2048x1)⟩]
    concatenates_S2048x1_S2048x109_S2048x1_S2048x111_d1

/-- A slice of width `w` starting at lane `c` reads lane `c + q` of the row. -/
theorem slice111 (v1 : FVec Ideal S2048x111 .f32) (w c : Nat) (hs : S2048x111.Slices ![0, c] (⟨2, ![2048, w]⟩ : Shape))
    (y : Fin 2048) (q : Fin w) (p : Fin 111) (hp : p.val = c + q.val) :
    extractStridedSlice (⟨2, ![2048, w]⟩ : Shape) ![0, c] v1 hs (ix2 y q) = v1 (ix2 y p) := by
  refine extractStridedSlice_apply _ v1 hs (ix2 y q) (ix2 y p) fun a => ?_
  match a with
  | ⟨0, _⟩ => show y.val = 0 + y.val; omega
  | ⟨1, _⟩ => show p.val = c + q.val; exact hp

/-- Three pieces of widths 1, 109, 1 laid side by side along the lanes, read at `(y, j)`: the piece whose span
    holds lane `j`, at `j` less the widths before it. -/
theorem concat3_apply {α : Type} (p0 p2 : S2048x1.Idx → α) (p1 : S2048x109.Idx → α)
    (hc : Shape.Concatenates [S2048x1, S2048x109, S2048x1] S2048x111 1) (y : Fin 2048) (j : Fin 111) :
    concatenate S2048x111 1 [⟨S2048x1, p0⟩, ⟨S2048x109, p1⟩, ⟨S2048x1, p2⟩] hc (ix2 y j)
      = if _h0 : j.val < 1 then p0 (ix2 y (0 : Fin 1))
        else if h1 : j.val < 110 then p1 (ix2 y (⟨j.val - 1, by omega⟩ : Fin 109))
        else p2 (ix2 y (0 : Fin 1)) := by
  by_cases h0 : j.val < 1
  · rw [dif_pos h0]
    refine concatenate_apply_piece (1 : Fin S2048x111.rank) [⟨S2048x1, p0⟩, ⟨S2048x109, p1⟩, ⟨S2048x1, p2⟩] hc (ix2 y j)
      0 (by show (0 : Nat) < 3; omega) S2048x1 p0 rfl rfl 0 rfl (ix2 y (0 : Fin 1)) (fun b hb => ?_) ?_
    · match b with
      | ⟨0, _⟩ => rfl
      | ⟨1, _⟩ => exact absurd rfl hb
    · show 0 + 0 = j.val; omega
  · rw [dif_neg h0]
    by_cases h1 : j.val < 110
    · rw [dif_pos h1]
      refine concatenate_apply_piece (1 : Fin S2048x111.rank) [⟨S2048x1, p0⟩, ⟨S2048x109, p1⟩, ⟨S2048x1, p2⟩] hc (ix2 y j)
        1 (by show (1 : Nat) < 3; omega) S2048x109 p1 rfl rfl 1 rfl (ix2 y (⟨j.val - 1, by omega⟩ : Fin 109)) (fun b hb => ?_) ?_
      · match b with
        | ⟨0, _⟩ => rfl
        | ⟨1, _⟩ => exact absurd rfl hb
      · show 1 + (j.val - 1) = j.val; omega
    · rw [dif_neg h1]
      refine concatenate_apply_piece (1 : Fin S2048x111.rank) [⟨S2048x1, p0⟩, ⟨S2048x109, p1⟩, ⟨S2048x1, p2⟩] hc (ix2 y j)
        2 (by show (2 : Nat) < 3; omega) S2048x1 p2 rfl rfl 110 rfl (ix2 y (0 : Fin 1)) (fun b hb => ?_) ?_
      · match b with
        | ⟨0, _⟩ => rfl
        | ⟨1, _⟩ => exact absurd rfl hb
      · show 110 + 0 = j.val; omega

theorem gradVec_apply (v1 : FVec Ideal S2048x111 .f32) (y : Fin 2048) (j : Fin 111) :
    gradVec v1 (ix2 y j) = Cert.Spec.gradRow (fun k : Fin 111 => v1 (ix2 y k)) j := by
  unfold gradVec Cert.Spec.gradRow
  rw [concat3_apply]
  by_cases h0 : j.val < 1
  · rw [dif_pos h0, dif_pos h0, subf_apply, slice111 v1 1 1 _ y 0 ⟨1, by omega⟩ rfl, slice111 v1 1 0 _ y 0 ⟨0, by omega⟩ rfl]
  · rw [dif_neg h0, dif_neg h0]
    by_cases h1 : j.val < 110
    · rw [dif_pos h1, dif_pos h1, mulf_apply, subf_apply, broadcast_apply,
          slice111 v1 109 2 _ y ⟨j.val - 1, by omega⟩ ⟨j.val + 1, by omega⟩ (by show j.val + 1 = 2 + (j.val - 1); omega),
          slice111 v1 109 0 _ y ⟨j.val - 1, by omega⟩ ⟨j.val - 1, by omega⟩ (by show j.val - 1 = 0 + (j.val - 1); omega)]
      rfl
    · rw [dif_neg h1, dif_neg h1, subf_apply, slice111 v1 1 110 _ y 0 ⟨110, by omega⟩ rfl, slice111 v1 1 109 _ y 0 ⟨109, by omega⟩ rfl]

/-- The reciprocal wavelength gradient, a [111] vector, repeated on every one of the 2048 rows. -/
def recipRows (x16 : Vec Ideal S111 .f32) : FVec Ideal S2048x111 .f32 :=
  broadcastTo S2048x111 (shapeCast S1x111 (shapeCast S111 x16 shapeCasts_S111_S111) shapeCasts_S111_S1x111)
    broadcasts_S1x111_S2048x111

/-- The sum of every row of a [2048, 111] vector over its 111 lanes. -/
def rowSum (v : FVec Ideal S2048x111 .f32) : FVec Ideal S2048 .f32 :=
  multiReduction .add [1] S2048 v 0x00000000#32 reduces_S2048x111_S2048 (.inl rfl) rfl

/-- The least-squares fit of every row of `v3` against the same row of `v20`, minus the slope over the
    constant: four lane sums per row and the closed form of the slope. -/
def fit (v20 v3 : FVec Ideal S2048x111 .f32) : FVec Ideal S2048 .f32 :=
  have v21 : FVec Ideal S2048 .f32 := rowSum v20
  have v22 : FVec Ideal S2048 .f32 := rowSum v3
  have v24 : FVec Ideal S2048 .f32 := rowSum (mulf v20 v20)
  have v26 : FVec Ideal S2048 .f32 := rowSum (mulf v20 v3)
  have v28 : FVec Ideal S2048 .f32 := mulf (broadcast S2048 (Scalar.ofBits .f32 0x42DE0000#32)) v26
  have v29 : FVec Ideal S2048 .f32 := mulf v21 v22
  have v30 : FVec Ideal S2048 .f32 := subf v28 v29
  have v32 : FVec Ideal S2048 .f32 := mulf (broadcast S2048 (Scalar.ofBits .f32 0x42DE0000#32)) v24
  have v33 : FVec Ideal S2048 .f32 := mulf v21 v21
  have v34 : FVec Ideal S2048 .f32 := subf v32 v33
  have v35 : FVec Ideal S2048 .f32 := divf v30 v34
  have v37 : FVec Ideal S2048 .f32 := subf (broadcast S2048 (Scalar.ofBits .f32 0x00000000#32)) v35
  divf v37 (broadcast S2048 (Scalar.ofBits .f32 0x37E944AF#32))

theorem recipRows_apply (x16 : Vec Ideal S111 .f32) (y : Fin 2048) (j : Fin 111) :
    recipRows x16 (ix2 y j) = x16 (ix1 j) := by
  unfold recipRows
  rw [shapeCast_self]
  refine (broadcastTo_apply _ broadcasts_S1x111_S2048x111 (ix2 y j) (ix2 (0 : Fin 1) j) fun a => ?_).trans ?_
  · match a with
    | ⟨0, _⟩ => rfl
    | ⟨1, _⟩ => rfl
  · refine shapeCast_apply x16 shapeCasts_S111_S1x111 (ix2 (0 : Fin 1) j) (ix1 j) ?_
    rw [Shape.rowMajor_val_two, Shape.rowMajor_val_one]
    show j.val = 0 * 111 + j.val
    omega

/-- The index a lane sum inserts lane `k` into, for the row `y`, is `(y, k)`. -/
theorem lift111 (y : Fin 2048) (k : Fin 111) : reduces_S2048x111_S2048.lift (ix1 y) k = ix2 y k := by
  funext a; match a with | ⟨0, _⟩ => rfl | ⟨1, _⟩ => rfl

/-- A lane sum of a [2048, 111] vector at row `y` is the sum of the row's 111 entries. -/
theorem rowSum_apply (v : FVec Ideal S2048x111 .f32) (y : Fin 2048) :
    rowSum v (ix1 y) = ∑ k : Fin 111, v (ix2 y k) := by
  unfold rowSum
  refine (Ideal.multiReduction_add_single v 0x00000000#32 reduces_S2048x111_S2048 _ _ (ix1 y)).trans ?_
  show ∑ k : Fin 111, _ = _
  exact Finset.sum_congr rfl fun k _ => by rw [lift111]

set_option maxHeartbeats 50000 in
theorem fit_apply (v20 v3 : FVec Ideal S2048x111 .f32) (y : Fin 2048) :
    fit v20 v3 (ix1 y) = Ideal.div (0 - Cert.Spec.slope (fun k : Fin 111 => v20 (ix2 y k)) (fun k => v3 (ix2 y k))) Cert.Spec.den := by
  unfold fit Cert.Spec.slope
  simp only [divf_apply, subf_apply, mulf_apply, broadcast_apply, rowSum_apply]
  rw [show (Scalar.ofBits .f32 0x00000000#32 : Ideal .f32) = 0 from Ideal.ofBits_zero_f32]
  rfl

/-- The kernel's third payload is the fit of the V rows against the I rows' gradient times the repeated
    reciprocals: the same operations, grouped. -/
theorem pay3_eq (xI xV : Vec Ideal S2048x111 .f32) (x16 : Vec Ideal S111 .f32) :
    k0_pay3 (F := Ideal) xI xV x16
      = fit (mulf (gradVec (shapeCast S2048x111 xI shapeCasts_S2048x111_S2048x111)) (recipRows x16))
          (shapeCast S2048x111 xV shapeCasts_S2048x111_S2048x111) := rfl

theorem pay3_apply (xI xV : Vec Ideal S2048x111 .f32) (x16 : Vec Ideal S111 .f32) (d : Fin 111 → EReal)
    (hx : ∀ j : Fin 111, x16 (ix1 j) = Ideal.div Cert.Spec.one (d j)) (y : Fin 2048) :
    k0_pay3 (F := Ideal) xI xV x16 (ix1 y)
      = Cert.Spec.wfaK (fun k : Fin 111 => xI (ix2 y k)) (fun k => xV (ix2 y k)) d := by
  rw [pay3_eq, shapeCast_self, shapeCast_self, fit_apply]
  unfold Cert.Spec.wfaK
  have hD : (fun k : Fin 111 => mulf (gradVec xI) (recipRows x16) (ix2 y k))
      = fun j => Cert.Spec.gradRow (fun k : Fin 111 => xI (ix2 y k)) j * Ideal.div Cert.Spec.one (d j) :=
    funext fun k => by rw [mulf_apply, gradVec_apply, recipRows_apply, hx]
  rw [hD]

end Cert.KernelIdeal.PayValue

end
-- ==== Proof.KArrays.lean ====
/-
  From blocks to arrays.  The region walks 32 grid points; at point t each row-blocked window holds rows
  2048 t … 2048 t + 2047 of its array, and the gradient's window holds the whole reciprocal-gradient vector.  What the
  body stores in an output window's buffer at row y is a function of row y of the input blocks alone: the field
  estimate of that row's Stokes I and V samples, the mean of three of its predicted parameters, the row sum of
  |predicted − target|.  So point t writes back block t of ONE function of the argument arrays, the 32 blocks cover
  the 65536 rows (row r lies in the block of point r / 2048), and each result array ends holding that function.
-/
import proofs.«179079_j52828097741444_2_alg».proof.Proof.KFrameDefs
import proofs.«179079_j52828097741444_2_alg».proof.Proof.KFrameHost
import proofs.«179079_j52828097741444_2_alg».proof.Proof.KHost
import proofs.«179079_j52828097741444_2_alg».proof.Proof.KPay
import proofs.«179079_j52828097741444_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)

variable (m : (ℓ : Loc nD τ sig) → Buf (Elt Ideal) ℓ)

theorem arr_offs1 : (![0] : Fin 1 → Nat) = fun _ => 0 := funext fun a => by fin_cases a; rfl
theorem arr_offs2 : (![0, 0] : Fin 2 → Nat) = fun _ => 0 := funext fun a => by fin_cases a <;> rfl

/-! ## What the body leaves at a row of a block, over any blocks -/

/-- The first column range of a 2048×448 block at (row, k) is the block at (row, k). -/
theorem ld_rI (x0 : Vec Ideal S2048x448 .f32) (y : Fin 2048) (k : Fin 111) :
    (View.ld x0 rI : S2048x111.Idx → EReal) (ix2 y k) = x0 (ix2 y (⟨k.val, by omega⟩ : Fin 448)) := by
  refine congrArg x0 (funext fun a => Fin.ext ?_)
  match a with
  | ⟨0, _⟩ => show 0 + 1 * y.val = y.val; omega
  | ⟨1, _⟩ => show 0 + 1 * k.val = k.val; omega

/-- The second column range at (row, k) is the block at (row, 336 + k). -/
theorem ld_rV (x0 : Vec Ideal S2048x448 .f32) (y : Fin 2048) (k : Fin 111) :
    (View.ld x0 rV : S2048x111.Idx → EReal) (ix2 y k) = x0 (ix2 y (⟨336 + k.val, by omega⟩ : Fin 448)) := by
  refine congrArg x0 (funext fun a => Fin.ext ?_)
  match a with
  | ⟨0, _⟩ => show 0 + 1 * y.val = y.val; omega
  | ⟨1, _⟩ => show 336 + 1 * k.val = 336 + k.val; omega

/-- Window 4's staging buffer after the body, at row `y`: the field estimate of that row of window 0's block, with the
    reciprocal gradient read from window 3's vector. -/
theorem out4_apply (x0 : Vec Ideal S2048x448 .f32) (x3 : Vec Ideal S111 .f32) (d : Fin 111 → EReal)
    (hx : ∀ j : Fin 111, x3 (ix1 j) = Ideal.div Cert.Spec.one (d j)) (y : Fin 2048) :
    out0_4 x0 x3 (ix1 y) = Cert.Spec.wfaK (fun k : Fin 111 => x0 (ix2 y (⟨k.val, by omega⟩ : Fin 448)))
      (fun k : Fin 111 => x0 (ix2 y (⟨336 + k.val, by omega⟩ : Fin 448))) d := by
  unfold out0_4
  rw [View.canon_unit_zero arr_offs1]
  refine (Cert.KernelIdeal.PayValue.pay3_apply _ _ _ d (fun j => ?_) y).trans ?_
  · rw [View.ld_unit_zero (S := S111) arr_offs1]; exact hx j
  · exact congrArg₂ (fun a b => Cert.Spec.wfaK a b d) (funext fun k => ld_rI x0 y k) (funext fun k => ld_rV x0 y k)

/-- Window 5's, at row `y`: the predicted field of that row of window 1's block. -/
theorem out5_apply (x1 : Vec Ideal S2048x84 .f32) (y : Fin 2048) :
    out0_5 x1 (ix1 y) = Cert.Spec.pb (fun k : Fin 84 => x1 (ix2 y k)) := by
  unfold out0_5
  rw [View.canon_unit_zero arr_offs1, View.ld_unit_zero (S := S2048x84) arr_offs2]
  exact Cert.KernelIdeal.PayValue.pay1_apply x1 y

/-- Window 6's, at row `y`: the row sum of absolute differences of windows 1's and 2's blocks. -/
theorem out6_apply (x1 x2 : Vec Ideal S2048x84 .f32) (y : Fin 2048) :
    out0_6 x1 x2 (ix1 y) = Cert.Spec.rowabs (fun k : Fin 84 => x1 (ix2 y k)) (fun k => x2 (ix2 y k)) := by
  unfold out0_6
  rw [View.canon_unit_zero arr_offs1, View.ld_unit_zero (S := S2048x84) arr_offs2, View.ld_unit_zero (S := S2048x84) arr_offs2]
  exact Cert.KernelIdeal.PayValue.pay2_apply x1 x2 y

/-! ## The blocks the region reads and writes -/

/-- The printed index maps over the 32 grid points: the row-blocked windows are at block `t`, the gradient's window at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0
    ∧ win0_4.index t (0 : Fin 1) = t.val ∧ win0_5.index t (0 : Fin 1) = t.val ∧ win0_6.index t (0 : Fin 1) = t.val :=
  (by decide +kernel : ∀ t : Fin grid0.N, _)

/-- Row `y` of window 0's block at point `t` is row `2048 t + y` of the flattened spectra. -/
theorem iblk0_apply (c : Dev nD) (t : Fin cfg0.N) (y : Fin 2048) (col : Fin 448) (r : Fin 65536) (hr : r.val = 2048 * t.val + y.val) :
    (iblk m c 0 t : Vec Ideal S2048x448 .f32) (ix2 y col) = (V m c main_v0 : S65536x448.Idx → EReal) (ix2 r col) := by
  obtain ⟨e0, e1, -⟩ := idx_facts t
  unfold iblk
  rw [View.read_apply]
  refine congrArg (V m c main_v0 : S65536x448.Idx → EReal) (funext fun a => Fin.ext ?_)
  match a with
  | ⟨0, _⟩ => show win0_0.index t (0 : Fin 2) * 2048 + 1 * y.val = r.val; rw [e0, hr]; omega
  | ⟨1, _⟩ => show win0_0.index t (1 : Fin 2) * 448 + 1 * col.val = col.val; rw [e1]; omega

/-- Row `y` of window 1's block at point `t` is row `2048 t + y` of the predicted atmosphere. -/
theorem iblk1_apply (c : Dev nD) (t : Fin cfg0.N) (y : Fin 2048) (col : Fin 84) (r : Fin 65536) (hr : r.val = 2048 * t.val + y.val) :
    (iblk m c 1 t : Vec Ideal S2048x84 .f32) (ix2 y col) = (m ((c.tc : Thread nD τ).loc main_arg1) : S65536x84.Idx → EReal) (ix2 r col) := by
  obtain ⟨-, -, e0, e1, -⟩ := idx_facts t
  unfold iblk
  rw [View.read_apply]
  refine (congrArg (V m c main_arg1 : S65536x84.Idx → EReal) (funext fun a => Fin.ext ?_)).trans (congrFun (V_main_arg1 m c) (ix2 r col))
  match a with
  | ⟨0, _⟩ => show win0_1.index t (0 : Fin 2) * 2048 + 1 * y.val = r.val; rw [e0, hr]; omega
  | ⟨1, _⟩ => show win0_1.index t (1 : Fin 2) * 84 + 1 * col.val = col.val; rw [e1]; omega

/-- Row `y` of window 2's block at point `t` is row `2048 t + y` of the target atmosphere. -/
theorem iblk2_apply (c : Dev nD) (t : Fin cfg0.N) (y : Fin 2048) (col : Fin 84) (r : Fin 65536) (hr : r.val = 2048 * t.val + y.val) :
    (iblk m c 2 t : Vec Ideal S2048x84 .f32) (ix2 y col) = (m ((c.tc : Thread nD τ).loc main_arg2) : S65536x84.Idx → EReal) (ix2 r col) := by
  obtain ⟨-, -, -, -, e0, e1, -⟩ := idx_facts t
  unfold iblk
  rw [View.read_apply]
  refine (congrArg (V m c main_arg2 : S65536x84.Idx → EReal) (funext fun a => Fin.ext ?_)).trans (congrFun (V_main_arg2 m c) (ix2 r col))
  match a with
  | ⟨0, _⟩ => show win0_2.index t (0 : Fin 2) * 2048 + 1 * y.val = r.val; rw [e0, hr]; omega
  | ⟨1, _⟩ => show win0_2.index t (1 : Fin 2) * 84 + 1 * col.val = col.val; rw [e1]; omega

/-- Window 3's block is the whole reciprocal-gradient vector at every point. -/
theorem iblk3_apply (c : Dev nD) (t : Fin cfg0.N) (j : Fin 111) :
    (iblk m c 3 t : Vec Ideal S111 .f32) (ix1 j) = Ideal.div Cert.Spec.one (Cert.Spec.dvec (m ((c.tc : Thread nD τ).loc main_arg3)) j) := by
  obtain ⟨-, -, -, -, -, -, e0, -⟩ := idx_facts t
  unfold iblk
  rw [View.read_apply]
  refine (congrArg (V m c main_v15 : S111.Idx → EReal) (funext fun a => Fin.ext ?_)).trans (V_main_v15_apply m c j)
  match a with
  | ⟨0, _⟩ => show win0_3.index t (0 : Fin 1) * 111 + 1 * j.val = j.val; rw [e0]; omega

/-- A 2048-vector is block `t` of a 65536-vector, read through window 4, when its row `y` is the long vector's row `2048 t + y`. -/
theorem blk4_of_rows (t : Fin cfg0.N) (X : S2048.Idx → EReal) (G : S65536.Idx → EReal)
    (h : ∀ (y : Fin 2048) (r : Fin 65536), r.val = 2048 * t.val + y.val → X (ix1 y) = G (ix1 r)) :
    (cfg0.win 4).cut (grid0.coords t) X = ((cfg0.win 4).blk t).view.read (Elt Ideal) G := by
  obtain ⟨-, -, -, -, -, -, -, e4, e5, e6⟩ := idx_facts t
  have hN : cfg0.N = 32 := N_0
  have ht : t.val < cfg0.N := t.isLt
  funext j
  have hj : (j 0).val < 2048 := (j 0).isLt
  show X _ = G _
  refine (congrArg X ?_).trans ((h ⟨(j 0).val, hj⟩ ⟨2048 * t.val + (j 0).val, by omega⟩ rfl).trans (congrArg G ?_))
  · funext a; match a with | ⟨0, _⟩ => rfl
  · funext a; apply Fin.ext
    match a with
    | ⟨0, _⟩ => show 2048 * t.val + (j 0).val = win0_4.index t (0 : Fin 1) * 2048 + 1 * (j 0).val; rw [e4]; omega

/-- Every row of the long vector lies in the block of the point `row / 2048`. -/
theorem cover4 (i : S65536.Idx) : ∃ t : Fin cfg0.N, (cfg0.win 4).flush t = true ∧ i ∈ ((cfg0.win 4).blk t).view.set := by
  have hN : cfg0.N = 32 := N_0
  have hi : (i 0).val < 65536 := (i 0).isLt
  obtain ⟨t, htv⟩ : ∃ t : Fin cfg0.N, t.val = (i 0).val / 2048 := ⟨⟨(i 0).val / 2048, by omega⟩, rfl⟩
  obtain ⟨-, -, -, -, -, -, -, e4, e5, e6⟩ := idx_facts t
  refine ⟨t, flush0_4 t, ?_⟩
  show i ∈ ((View.whole main_v16_0).slice (win0_4.rect t)).set
  rw [View.set_slice_whole, Rect.mem_set_unit]
  intro a
  match a with
  | ⟨0, _⟩ =>
    show win0_4.index t (0 : Fin 1) * 2048 ≤ (i 0).val ∧ (i 0).val < win0_4.index t (0 : Fin 1) * 2048 + 2048
    rw [e4, htv]
    omega

/-- A 2048-vector is block `t` of a 65536-vector, read through window 5, when its row `y` is the long vector's row `2048 t + y`. -/
theorem blk5_of_rows (t : Fin cfg0.N) (X : S2048.Idx → EReal) (G : S65536.Idx → EReal)
    (h : ∀ (y : Fin 2048) (r : Fin 65536), r.val = 2048 * t.val + y.val → X (ix1 y) = G (ix1 r)) :
    (cfg0.win 5).cut (grid0.coords t) X = ((cfg0.win 5).blk t).view.read (Elt Ideal) G := by
  obtain ⟨-, -, -, -, -, -, -, e4, e5, e6⟩ := idx_facts t
  have hN : cfg0.N = 32 := N_0
  have ht : t.val < cfg0.N := t.isLt
  funext j
  have hj : (j 0).val < 2048 := (j 0).isLt
  show X _ = G _
  refine (congrArg X ?_).trans ((h ⟨(j 0).val, hj⟩ ⟨2048 * t.val + (j 0).val, by omega⟩ rfl).trans (congrArg G ?_))
  · funext a; match a with | ⟨0, _⟩ => rfl
  · funext a; apply Fin.ext
    match a with
    | ⟨0, _⟩ => show 2048 * t.val + (j 0).val = win0_5.index t (0 : Fin 1) * 2048 + 1 * (j 0).val; rw [e5]; omega

/-- Every row of the long vector lies in the block of the point `row / 2048`. -/
theorem cover5 (i : S65536.Idx) : ∃ t : Fin cfg0.N, (cfg0.win 5).flush t = true ∧ i ∈ ((cfg0.win 5).blk t).view.set := by
  have hN : cfg0.N = 32 := N_0
  have hi : (i 0).val < 65536 := (i 0).isLt
  obtain ⟨t, htv⟩ : ∃ t : Fin cfg0.N, t.val = (i 0).val / 2048 := ⟨⟨(i 0).val / 2048, by omega⟩, rfl⟩
  obtain ⟨-, -, -, -, -, -, -, e4, e5, e6⟩ := idx_facts t
  refine ⟨t, flush0_5 t, ?_⟩
  show i ∈ ((View.whole main_v16_1).slice (win0_5.rect t)).set
  rw [View.set_slice_whole, Rect.mem_set_unit]
  intro a
  match a with
  | ⟨0, _⟩ =>
    show win0_5.index t (0 : Fin 1) * 2048 ≤ (i 0).val ∧ (i 0).val < win0_5.index t (0 : Fin 1) * 2048 + 2048
    rw [e5, htv]
    omega

/-- A 2048-vector is block `t` of a 65536-vector, read through window 6, when its row `y` is the long vector's row `2048 t + y`. -/
theorem blk6_of_rows (t : Fin cfg0.N) (X : S2048.Idx → EReal) (G : S65536.Idx → EReal)
    (h : ∀ (y : Fin 2048) (r : Fin 65536), r.val = 2048 * t.val + y.val → X (ix1 y) = G (ix1 r)) :
    (cfg0.win 6).cut (grid0.coords t) X = ((cfg0.win 6).blk t).view.read (Elt Ideal) G := by
  obtain ⟨-, -, -, -, -, -, -, e4, e5, e6⟩ := idx_facts t
  have hN : cfg0.N = 32 := N_0
  have ht : t.val < cfg0.N := t.isLt
  funext j
  have hj : (j 0).val < 2048 := (j 0).isLt
  show X _ = G _
  refine (congrArg X ?_).trans ((h ⟨(j 0).val, hj⟩ ⟨2048 * t.val + (j 0).val, by omega⟩ rfl).trans (congrArg G ?_))
  · funext a; match a with | ⟨0, _⟩ => rfl
  · funext a; apply Fin.ext
    match a with
    | ⟨0, _⟩ => show 2048 * t.val + (j 0).val = win0_6.index t (0 : Fin 1) * 2048 + 1 * (j 0).val; rw [e6]; omega

/-- Every row of the long vector lies in the block of the point `row / 2048`. -/
theorem cover6 (i : S65536.Idx) : ∃ t : Fin cfg0.N, (cfg0.win 6).flush t = true ∧ i ∈ ((cfg0.win 6).blk t).view.set := by
  have hN : cfg0.N = 32 := N_0
  have hi : (i 0).val < 65536 := (i 0).isLt
  obtain ⟨t, htv⟩ : ∃ t : Fin cfg0.N, t.val = (i 0).val / 2048 := ⟨⟨(i 0).val / 2048, by omega⟩, rfl⟩
  obtain ⟨-, -, -, -, -, -, -, e4, e5, e6⟩ := idx_facts t
  refine ⟨t, flush0_6 t, ?_⟩
  show i ∈ ((View.whole main_v16_2).slice (win0_6.rect t)).set
  rw [View.set_slice_whole, Rect.mem_set_unit]
  intro a
  match a with
  | ⟨0, _⟩ =>
    show win0_6.index t (0 : Fin 1) * 2048 ≤ (i 0).val ∧ (i 0).val < win0_6.index t (0 : Fin 1) * 2048 + 2048
    rw [e6, htv]
    omega

/-! ## What each point writes back, and the arrays after the region -/

/-- Point `t` writes back block `t` of the per-row field estimates. -/
theorem flushed4_eq (c : Dev nD) (t : Fin cfg0.N) :
    (dats m 0 c).flushed 4 t = ((cfg0.win 4).blk t).view.read (Elt Ideal)
      (Cert.Spec.WK (m ((c.tc : Thread nD τ).loc main_arg0)) (m ((c.tc : Thread nD τ).loc main_arg3))) := by
  show (cfg0.win 4).cut (grid0.coords t) ((dats m 0 c).after 4 t) = _
  rw [after0_4]
  refine blk4_of_rows t _ _ fun y r hr => ?_
  refine (out4_apply (iblk m c 0 t) (iblk m c 3 t) (Cert.Spec.dvec (m ((c.tc : Thread nD τ).loc main_arg3))) (fun j => iblk3_apply m c t j) y).trans ?_
  show Cert.Spec.wfaK _ _ _ = Cert.Spec.wfaK (Cert.Spec.rowI (m ((c.tc : Thread nD τ).loc main_arg0)) r) (Cert.Spec.rowV (m ((c.tc : Thread nD τ).loc main_arg0)) r) _
  exact congrArg₂ (fun a b => Cert.Spec.wfaK a b (Cert.Spec.dvec (m ((c.tc : Thread nD τ).loc main_arg3))))
    (funext fun k => (iblk0_apply m c t y _ r hr).trans (V_main_v0_I m c r k))
    (funext fun k => (iblk0_apply m c t y _ r hr).trans (V_main_v0_V m c r k))

/-- Point `t` writes back block `t` of the per-row predicted fields. -/
theorem flushed5_eq (c : Dev nD) (t : Fin cfg0.N) :
    (dats m 0 c).flushed 5 t = ((cfg0.win 5).blk t).view.read (Elt Ideal) (Cert.Spec.PB (m ((c.tc : Thread nD τ).loc main_arg1))) := by
  show (cfg0.win 5).cut (grid0.coords t) ((dats m 0 c).after 5 t) = _
  rw [after0_5]
  refine blk5_of_rows t _ _ fun y r hr => ?_
  refine (out5_apply (iblk m c 1 t) y).trans ?_
  show Cert.Spec.pb _ = Cert.Spec.pb (Cert.Spec.row84 (m ((c.tc : Thread nD τ).loc main_arg1)) r)
  exact congrArg Cert.Spec.pb (funext fun k => iblk1_apply m c t y k r hr)

/-- Point `t` writes back block `t` of the per-row sums of absolute differences. -/
theorem flushed6_eq (c : Dev nD) (t : Fin cfg0.N) :
    (dats m 0 c).flushed 6 t = ((cfg0.win 6).blk t).view.read (Elt Ideal)
      (fun i : S65536.Idx => Cert.Spec.rowabs (Cert.Spec.row84 (m ((c.tc : Thread nD τ).loc main_arg1)) (i 0)) (Cert.Spec.row84 (m ((c.tc : Thread nD τ).loc main_arg2)) (i 0))) := by
  show (cfg0.win 6).cut (grid0.coords t) ((dats m 0 c).after 6 t) = _
  rw [after0_6]
  refine blk6_of_rows t _ _ fun y r hr => ?_
  refine (out6_apply (iblk m c 1 t) (iblk m c 2 t) y).trans ?_
  show Cert.Spec.rowabs _ _ = Cert.Spec.rowabs (Cert.Spec.row84 (m ((c.tc : Thread nD τ).loc main_arg1)) r) (Cert.Spec.row84 (m ((c.tc : Thread nD τ).loc main_arg2)) r)
  exact congrArg₂ Cert.Spec.rowabs (funext fun k => iblk1_apply m c t y k r hr) (funext fun k => iblk2_apply m c t y k r hr)

/-- After the region the first result array holds every row's field estimate, -/
theorem arrAt4_eq (c : Dev nD) : (dats m 0 c).arrAt 4 cfg0.N
    = Cert.Spec.WK (m ((c.tc : Thread nD τ).loc main_arg0)) (m ((c.tc : Thread nD τ).loc main_arg3)) :=
  (dats m 0 c).arrAt_eq_of_cover 4 _ (fun t _ => flushed4_eq m c t) cover4

/-- the second every row's predicted field, -/
theorem arrAt5_eq (c : Dev nD) : (dats m 0 c).arrAt 5 cfg0.N = Cert.Spec.PB (m ((c.tc : Thread nD τ).loc main_arg1)) :=
  (dats m 0 c).arrAt_eq_of_cover 5 _ (fun t _ => flushed5_eq m c t) cover5

/-- the third every row's sum of absolute differences between predicted and target parameters. -/
theorem arrAt6_eq (c : Dev nD) : (dats m 0 c).arrAt 6 cfg0.N
    = fun i => Cert.Spec.rowabs (Cert.Spec.row84 (m ((c.tc : Thread nD τ).loc main_arg1)) (i 0)) (Cert.Spec.row84 (m ((c.tc : Thread nD τ).loc main_arg2)) (i 0)) :=
  (dats m 0 c).arrAt_eq_of_cover 6 _ (fun t _ => flushed6_eq m c t) cover6

end Cert.KernelIdeal.Hand

end
-- ==== Proof.KValue.lean ====
/-
  The kernel program's run with its results named.  The region leaves each result vector at one function of the
  argument arrays (row by row: the field estimate, the predicted field, the row sum of absolute differences), the
  later host lines are the shared last lines on them, and the arguments end as launched: the kernel's half of the
  equality claim, its three results the shared functions of the arguments' rows.
-/
import proofs.«179079_j52828097741444_2_alg».proof.Proof.KFrame
import proofs.«179079_j52828097741444_2_alg».proof.Proof.KTail
import proofs.«179079_j52828097741444_2_alg».proof.Proof.KArrays

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The kernel program's value run, on the extended reals -/

variable (m : (ℓ : Loc nD τ sig) → Buf (Elt Ideal) ℓ) (ρ : Dev nD → PrngReg)

/-- From what the three output arrays hold at the region's exit (as whole-array functions of the arguments) to the run's
    results: every weakly fair execution terminates without a fault, the three results are the shared tail function of
    the per-row field estimate, the per-row predicted field and the mean absolute error, and the arguments end as
    launched. The results are buffers the lines after the region write, read by the frame run's second clause; the
    arguments as in the frame. -/
theorem value_run_of
    (h4 : ∀ c : Dev nD, (dats m 0 c).arrAt 4 cfg0.N = Cert.Spec.WK (m ((c.tc : Thread nD τ).loc main_arg0)) (m ((c.tc : Thread nD τ).loc main_arg3)))
    (h5 : ∀ c : Dev nD, (dats m 0 c).arrAt 5 cfg0.N = Cert.Spec.PB (m ((c.tc : Thread nD τ).loc main_arg1)))
    (h6 : ∀ c : Dev nD, (dats m 0 c).arrAt 6 cfg0.N = (fun i => Cert.Spec.rowabs (Cert.Spec.row84 (m ((c.tc : Thread nD τ).loc main_arg1)) (i 0)) (Cert.Spec.row84 (m ((c.tc : Thread nD τ).loc main_arg2)) (i 0)))) :
    θ_run (defs (F := Ideal)) (onTc (τ := τ) (main (F := Ideal))) ⟨m, fun _ => 0, ρ⟩ (fun r => ∀ c : Dev nD,
        r.2.mem ((c.tc : Thread nD τ).loc main_v50) = Cert.Tail.total (Cert.Spec.WK (m ((c.tc : Thread nD τ).loc main_arg0)) (m ((c.tc : Thread nD τ).loc main_arg3))) (Cert.Spec.PB (m ((c.tc : Thread nD τ).loc main_arg1))) (Cert.Spec.BASE (m ((c.tc : Thread nD τ).loc main_arg1)) (m ((c.tc : Thread nD τ).loc main_arg2)))
      ∧ r.2.mem ((c.tc : Thread nD τ).loc main_v18) = Cert.Spec.BASE (m ((c.tc : Thread nD τ).loc main_arg1)) (m ((c.tc : Thread nD τ).loc main_arg2))
      ∧ r.2.mem ((c.tc : Thread nD τ).loc main_v46) = Cert.Tail.wfaLoss (Cert.Spec.WK (m ((c.tc : Thread nD τ).loc main_arg0)) (m ((c.tc : Thread nD τ).loc main_arg3))) (Cert.Spec.PB (m ((c.tc : Thread nD τ).loc main_arg1))) (Cert.Spec.BASE (m ((c.tc : Thread nD τ).loc main_arg1)) (m ((c.tc : Thread nD τ).loc main_arg2)))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨
      ((h c).2 main_v50 (Pipeline.mem_restRefs_of main_v50 (by decide) (by decide))).trans
        ((tail_v50 m c).trans (by rw [h4 c, h5 c, h6 c]; exact congrArg (Cert.Tail.total _ _) (base_of_rowabs _ _))),
      ((h c).2 main_v18 (Pipeline.mem_restRefs_of main_v18 (by decide) (by decide))).trans
        ((tail_v18 m c).trans (by rw [h6 c]; exact base_of_rowabs _ _)),
      ((h c).2 main_v46 (Pipeline.mem_restRefs_of main_v46 (by decide) (by decide))).trans
        ((tail_v46 m c).trans (by rw [h4 c, h5 c, h6 c]; exact congrArg (Cert.Tail.wfaLoss _ _) (base_of_rowabs _ _))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩) (run_main m ρ)

/-- The kernel program's value run. -/
theorem value_run : θ_run (defs (F := Ideal)) (onTc (τ := τ) (main (F := Ideal))) ⟨m, fun _ => 0, ρ⟩ (fun r => ∀ c : Dev nD,
        r.2.mem ((c.tc : Thread nD τ).loc main_v50) = Cert.Tail.total (Cert.Spec.WK (m ((c.tc : Thread nD τ).loc main_arg0)) (m ((c.tc : Thread nD τ).loc main_arg3))) (Cert.Spec.PB (m ((c.tc : Thread nD τ).loc main_arg1))) (Cert.Spec.BASE (m ((c.tc : Thread nD τ).loc main_arg1)) (m ((c.tc : Thread nD τ).loc main_arg2)))
      ∧ r.2.mem ((c.tc : Thread nD τ).loc main_v18) = Cert.Spec.BASE (m ((c.tc : Thread nD τ).loc main_arg1)) (m ((c.tc : Thread nD τ).loc main_arg2))
      ∧ r.2.mem ((c.tc : Thread nD τ).loc main_v46) = Cert.Tail.wfaLoss (Cert.Spec.WK (m ((c.tc : Thread nD τ).loc main_arg0)) (m ((c.tc : Thread nD τ).loc main_arg3))) (Cert.Spec.PB (m ((c.tc : Thread nD τ).loc main_arg1))) (Cert.Spec.BASE (m ((c.tc : Thread nD τ).loc main_arg1)) (m ((c.tc : Thread nD τ).loc main_arg2)))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  value_run_of m ρ (fun c => arrAt4_eq m c) (fun c => arrAt5_eq m c) (fun c => arrAt6_eq m c)

end Cert.KernelIdeal.Hand

end
-- ==== Proof.RefOps.lean ====
/-
  The reference program's @main as a list of its host operations, window by window, with the three calls of
  its two outlined functions replaced by the callee's operations over the call's buffers: `main c = seq ops`.
  Also the side facts the run of a straight line asks: no buffer or semaphore is scoped, every operation touches
  TensorCore references only, and every operation determines its result.
-/
import proofs.«179079_j52828097741444_2_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- The first window's 60 operations, in order. -/
abbrev ops0 : List (HloOp τ sig (Elt F)) :=
  [ StableHlo.nullary main_c (fun i => lit0 (S3.rowMajor i)),
    StableHlo.nullary main_c_0 (constantI S3 1 0#1),
    StableHlo.binary main_arg1 main_arg2 main_v0 (subf : (⟨S65536x84, .f32⟩ : BufTy).Contents (Elt F) → (⟨S65536x84, .f32⟩ : BufTy).Contents (Elt F) → (⟨S65536x84, .f32⟩ : BufTy).Contents (Elt F)),
    StableHlo.unary main_v0 main_v1 (Host.absf : (⟨S65536x84, .f32⟩ : BufTy).Contents (Elt F) → (⟨S65536x84, .f32⟩ : BufTy).Contents (Elt F)),
    StableHlo.nullary main_cst (constant S_ .f32 0x00000000#32),
    StableHlo.binary main_v1 main_cst main_v2 ((fun x v => Host.reduceAdd x v reducesTo_S65536x84_S_d0_1 h_S_) : (⟨S65536x84, .f32⟩ : BufTy).Contents (Elt F) → (⟨S_, .f32⟩ : BufTy).Contents (Elt F) → (⟨S_, .f32⟩ : BufTy).Contents (Elt F)),
    StableHlo.nullary main_cst_1 (constant S_ .f32 0x4AA80000#32),
    StableHlo.binary main_v2 main_cst_1 main_v3 (Host.divf : (⟨S_, .f32⟩ : BufTy).Contents (Elt F) → (⟨S_, .f32⟩ : BufTy).Contents (Elt F) → (⟨S_, .f32⟩ : BufTy).Contents (Elt F)),
    StableHlo.unary main_arg3 main_v4 ((extractStridedSlice S111 ![0] · slices_S112_S111_0) : (⟨S112, .f32⟩ : BufTy).Contents (Elt F) → (⟨S111, .f32⟩ : BufTy).Contents (Elt F)),
    StableHlo.unary main_arg0 main_v5 ((extractStridedSlice S65536x1x111 ![0, 0, 0] · slices_S65536x4x112_S65536x1x111_0_0_0) : (⟨S65536x4x112, .f32⟩ : BufTy).Contents (Elt F) → (⟨S65536x1x111, .f32⟩ : BufTy).Contents (Elt F)),
    StableHlo.reshape main_v5 main_v6 rfl shapeCasts_S65536x1x111_S65536x111,
    StableHlo.unary main_arg0 main_v7 ((extractStridedSlice S65536x1x111 ![0, 3, 0] · slices_S65536x4x112_S65536x1x111_0_3_0) : (⟨S65536x4x112, .f32⟩ : BufTy).Contents (Elt F) → (⟨S65536x1x111, .f32⟩ : BufTy).Contents (Elt F)),
    StableHlo.reshape main_v7 main_v8 rfl shapeCasts_S65536x1x111_S65536x111,
    StableHlo.unary main_v6 main_v9 ((extractStridedSlice S65536x1 ![0, 1] · slices_S65536x111_S65536x1_0_1) : (⟨S65536x111, .f32⟩ : BufTy).Contents (Elt F) → (⟨S65536x1, .f32⟩ : BufTy).Contents (Elt F)),
    StableHlo.unary main_v6 main_v10 ((extractStridedSlice S65536x1 ![0, 0] · slices_S65536x111_S65536x1_0_0) : (⟨S65536x111, .f32⟩ : BufTy).Contents (Elt F) → (⟨S65536x1, .f32⟩ : BufTy).Contents (Elt F)),
    StableHlo.binary main_v9 main_v10 main_v11 (subf : (⟨S65536x1, .f32⟩ : BufTy).Contents (Elt F) → (⟨S65536x1, .f32⟩ : BufTy).Contents (Elt F) → (⟨S65536x1, .f32⟩ : BufTy).Contents (Elt F)),
    StableHlo.unary main_v6 main_v12 ((extractStridedSlice S65536x109 ![0, 2] · slices_S65536x111_S65536x109_0_2) : (⟨S65536x111, .f32⟩ : BufTy).Contents (Elt F) → (⟨S65536x109, .f32⟩ : BufTy).Contents (Elt F)),
    StableHlo.unary main_v6 main_v13 ((extractStridedSlice S65536x109 ![0, 0] · slices_S65536x111_S65536x109_0_0) : (⟨S65536x111, .f32⟩ : BufTy).Contents (Elt F) → (⟨S65536x109, .f32⟩ : BufTy).Contents (Elt F)),
    StableHlo.binary main_v12 main_v13 main_v14 (subf : (⟨S65536x109, .f32⟩ : BufTy).Contents (Elt F) → (⟨S65536x109, .f32⟩ : BufTy).Contents (Elt F) → (⟨S65536x109, .f32⟩ : BufTy).Contents (Elt F)),
    StableHlo.nullary main_cst_2 (constant S_ .f32 0x3F000000#32),
    StableHlo.unary main_cst_2 main_v15 (broadcastInDim S65536x109 ![] bcast_S_S65536x109 : (⟨S_, .f32⟩ : BufTy).Contents (Elt F) → (⟨S65536x109, .f32⟩ : BufTy).Contents (Elt F)),
    StableHlo.binary main_v14 main_v15 main_v16 (mulf : (⟨S65536x109, .f32⟩ : BufTy).Contents (Elt F) → (⟨S65536x109, .f32⟩ : BufTy).Contents (Elt F) → (⟨S65536x109, .f32⟩ : BufTy).Contents (Elt F)),
    StableHlo.unary main_v6 main_v17 ((extractStridedSlice S65536x1 ![0, 110] · slices_S65536x111_S65536x1_0_110) : (⟨S65536x111, .f32⟩ : BufTy).Contents (Elt F) → (⟨S65536x1, .f32⟩ : BufTy).Contents (Elt F)),
    StableHlo.unary main_v6 main_v18 ((extractStridedSlice S65536x1 ![0, 109] · slices_S65536x111_S65536x1_0_109) : (⟨S65536x111, .f32⟩ : BufTy).Contents (Elt F) → (⟨S65536x1, .f32⟩ : BufTy).Contents (Elt F)),
    StableHlo.binary main_v17 main_v18 main_v19 (subf : (⟨S65536x1, .f32⟩ : BufTy).Contents (Elt F) → (⟨S65536x1, .f32⟩ : BufTy).Contents (Elt F) → (⟨S65536x1, .f32⟩ : BufTy).Contents (Elt F)),
    StableHlo.nary ![main_v11, main_v16, main_v19] main_v20 (fun u => concatenate S65536x111 1 [⟨S65536x1, u 0⟩, ⟨S65536x109, u 1⟩, ⟨S65536x1, u 2⟩] concatenates_S65536x1_S65536x109_S65536x1_S65536x111_d1),
    StableHlo.unary main_v4 main_v21 ((extractStridedSlice S1 ![1] · slices_S111_S1_1) : (⟨S111, .f32⟩ : BufTy).Contents (Elt F) → (⟨S1, .f32⟩ : BufTy).Contents (Elt F)),
    StableHlo.unary main_v4 main_v22 ((extractStridedSlice S1 ![0] · slices_S111_S1_0) : (⟨S111, .f32⟩ : BufTy).Contents (Elt F) → (⟨S1, .f32⟩ : BufTy).Contents (Elt F)),
    StableHlo.binary main_v21 main_v22 main_v23 (subf : (⟨S1, .f32⟩ : BufTy).Contents (Elt F) → (⟨S1, .f32⟩ : BufTy).Contents (Elt F) → (⟨S1, .f32⟩ : BufTy).Contents (Elt F)),
    StableHlo.unary main_v4 main_v24 ((extractStridedSlice S109 ![2] · slices_S111_S109_2) : (⟨S111, .f32⟩ : BufTy).Contents (Elt F) → (⟨S109, .f32⟩ : BufTy).Contents (Elt F)),
    StableHlo.unary main_v4 main_v25 ((extractStridedSlice S109 ![0] · slices_S111_S109_0) : (⟨S111, .f32⟩ : BufTy).Contents (Elt F) → (⟨S109, .f32⟩ : BufTy).Contents (Elt F)),
    StableHlo.binary main_v24 main_v25 main_v26 (subf : (⟨S109, .f32⟩ : BufTy).Contents (Elt F) → (⟨S109, .f32⟩ : BufTy).Contents (Elt F) → (⟨S109, .f32⟩ : BufTy).Contents (Elt F)),
    StableHlo.nullary main_cst_3 (constant S_ .f32 0x3F000000#32),
    StableHlo.unary main_cst_3 main_v27 (broadcastInDim S109 ![] bcast_S_S109 : (⟨S_, .f32⟩ : BufTy).Contents (Elt F) → (⟨S109, .f32⟩ : BufTy).Contents (Elt F)),
    StableHlo.binary main_v26 main_v27 main_v28 (mulf : (⟨S109, .f32⟩ : BufTy).Contents (Elt F) → (⟨S109, .f32⟩ : BufTy).Contents (Elt F) → (⟨S109, .f32⟩ : BufTy).Contents (Elt F)),
    StableHlo.unary main_v4 main_v29 ((extractStridedSlice S1 ![110] · slices_S111_S1_110) : (⟨S111, .f32⟩ : BufTy).Contents (Elt F) → (⟨S1, .f32⟩ : BufTy).Contents (Elt F)),
    StableHlo.unary main_v4 main_v30 ((extractStridedSlice S1 ![109] · slices_S111_S1_109) : (⟨S111, .f32⟩ : BufTy).Contents (Elt F) → (⟨S1, .f32⟩ : BufTy).Contents (Elt F)),
    StableHlo.binary main_v29 main_v30 main_v31 (subf : (⟨S1, .f32⟩ : BufTy).Contents (Elt F) → (⟨S1, .f32⟩ : BufTy).Contents (Elt F) → (⟨S1, .f32⟩ : BufTy).Contents (Elt F)),
    StableHlo.nary ![main_v23, main_v28, main_v31] main_v32 (fun u => concatenate S111 0 [⟨S1, u 0⟩, ⟨S109, u 1⟩, ⟨S1, u 2⟩] concatenates_S1_S109_S1_S111_d0),
    StableHlo.unary main_v32 main_v33 (broadcastInDim S1x111 ![1] bcast_S111_S1x111_1 : (⟨S111, .f32⟩ : BufTy).Contents (Elt F) → (⟨S1x111, .f32⟩ : BufTy).Contents (Elt F)),
    StableHlo.unary main_v33 main_v34 (broadcastInDim S65536x111 ![0, 1] bcast_S1x111_S65536x111_0_1 : (⟨S1x111, .f32⟩ : BufTy).Contents (Elt F) → (⟨S65536x111, .f32⟩ : BufTy).Contents (Elt F)),
    StableHlo.binary main_v20 main_v34 main_v35 (Host.divf : (⟨S65536x111, .f32⟩ : BufTy).Contents (Elt F) → (⟨S65536x111, .f32⟩ : BufTy).Contents (Elt F) → (⟨S65536x111, .f32⟩ : BufTy).Contents (Elt F)),
    StableHlo.nullary main_cst_4 (constant S_ .f32 0x00000000#32),
    StableHlo.binary main_v35 main_cst_4 main_v36 ((fun x v => Host.reduceAdd x v reducesTo_S65536x111_S65536_d1 h_S_) : (⟨S65536x111, .f32⟩ : BufTy).Contents (Elt F) → (⟨S_, .f32⟩ : BufTy).Contents (Elt F) → (⟨S65536, .f32⟩ : BufTy).Contents (Elt F)),
    StableHlo.nullary main_cst_5 (constant S_ .f32 0x00000000#32),
    StableHlo.binary main_v8 main_cst_5 main_v37 ((fun x v => Host.reduceAdd x v reducesTo_S65536x111_S65536_d1 h_S_) : (⟨S65536x111, .f32⟩ : BufTy).Contents (Elt F) → (⟨S_, .f32⟩ : BufTy).Contents (Elt F) → (⟨S65536, .f32⟩ : BufTy).Contents (Elt F)),
    StableHlo.binary main_v35 main_v35 main_v38 (mulf : (⟨S65536x111, .f32⟩ : BufTy).Contents (Elt F) → (⟨S65536x111, .f32⟩ : BufTy).Contents (Elt F) → (⟨S65536x111, .f32⟩ : BufTy).Contents (Elt F)),
    StableHlo.nullary main_cst_6 (constant S_ .f32 0x00000000#32),
    StableHlo.binary main_v38 main_cst_6 main_v39 ((fun x v => Host.reduceAdd x v reducesTo_S65536x111_S65536_d1 h_S_) : (⟨S65536x111, .f32⟩ : BufTy).Contents (Elt F) → (⟨S_, .f32⟩ : BufTy).Contents (Elt F) → (⟨S65536, .f32⟩ : BufTy).Contents (Elt F)),
    StableHlo.binary main_v35 main_v8 main_v40 (mulf : (⟨S65536x111, .f32⟩ : BufTy).Contents (Elt F) → (⟨S65536x111, .f32⟩ : BufTy).Contents (Elt F) → (⟨S65536x111, .f32⟩ : BufTy).Contents (Elt F)),
    StableHlo.nullary main_cst_7 (constant S_ .f32 0x00000000#32),
    StableHlo.binary main_v40 main_cst_7 main_v41 ((fun x v => Host.reduceAdd x v reducesTo_S65536x111_S65536_d1 h_S_) : (⟨S65536x111, .f32⟩ : BufTy).Contents (Elt F) → (⟨S_, .f32⟩ : BufTy).Contents (Elt F) → (⟨S65536, .f32⟩ : BufTy).Contents (Elt F)),
    StableHlo.nullary main_cst_8 (constant S_ .f32 0x42DE0000#32),
    StableHlo.unary main_cst_8 main_v42 (broadcastInDim S65536 ![] bcast_S_S65536 : (⟨S_, .f32⟩ : BufTy).Contents (Elt F) → (⟨S65536, .f32⟩ : BufTy).Contents (Elt F)),
    StableHlo.binary main_v42 main_v41 main_v43 (mulf : (⟨S65536, .f32⟩ : BufTy).Contents (Elt F) → (⟨S65536, .f32⟩ : BufTy).Contents (Elt F) → (⟨S65536, .f32⟩ : BufTy).Contents (Elt F)),
    StableHlo.binary main_v36 main_v37 main_v44 (mulf : (⟨S65536, .f32⟩ : BufTy).Contents (Elt F) → (⟨S65536, .f32⟩ : BufTy).Contents (Elt F) → (⟨S65536, .f32⟩ : BufTy).Contents (Elt F)),
    StableHlo.binary main_v43 main_v44 main_v45 (subf : (⟨S65536, .f32⟩ : BufTy).Contents (Elt F) → (⟨S65536, .f32⟩ : BufTy).Contents (Elt F) → (⟨S65536, .f32⟩ : BufTy).Contents (Elt F)),
    StableHlo.nullary main_cst_9 (constant S_ .f32 0x42DE0000#32),
    StableHlo.unary main_cst_9 main_v46 (broadcastInDim S65536 ![] bcast_S_S65536 : (⟨S_, .f32⟩ : BufTy).Contents (Elt F) → (⟨S65536, .f32⟩ : BufTy).Contents (Elt F)),
    StableHlo.binary main_v46 main_v39 main_v47 (mulf : (⟨S65536, .f32⟩ : BufTy).Contents (Elt F) → (⟨S65536, .f32⟩ : BufTy).Contents (Elt F) → (⟨S65536, .f32⟩ : BufTy).Contents (Elt F)) ]

/-- The second window's operations, in order: 59 of @main's own and, in the place of the call of `_where`, its three (the scalar converted to its own type, its broadcast, the select) over the call's buffers. -/
abbrev ops1 : List (HloOp τ sig (Elt F)) :=
  [ StableHlo.binary main_v36 main_v36 main_v48 (mulf : (⟨S65536, .f32⟩ : BufTy).Contents (Elt F) → (⟨S65536, .f32⟩ : BufTy).Contents (Elt F) → (⟨S65536, .f32⟩ : BufTy).Contents (Elt F)),
    StableHlo.binary main_v47 main_v48 main_v49 (subf : (⟨S65536, .f32⟩ : BufTy).Contents (Elt F) → (⟨S65536, .f32⟩ : BufTy).Contents (Elt F) → (⟨S65536, .f32⟩ : BufTy).Contents (Elt F)),
    StableHlo.binary main_v45 main_v49 main_v50 (Host.divf : (⟨S65536, .f32⟩ : BufTy).Contents (Elt F) → (⟨S65536, .f32⟩ : BufTy).Contents (Elt F) → (⟨S65536, .f32⟩ : BufTy).Contents (Elt F)),
    StableHlo.unary main_v50 main_v51 (Host.negf : (⟨S65536, .f32⟩ : BufTy).Contents (Elt F) → (⟨S65536, .f32⟩ : BufTy).Contents (Elt F)),
    StableHlo.nullary main_cst_10 (constant S_ .f32 0x37E944AF#32),
    StableHlo.unary main_cst_10 main_v52 (broadcastInDim S65536 ![] bcast_S_S65536 : (⟨S_, .f32⟩ : BufTy).Contents (Elt F) → (⟨S65536, .f32⟩ : BufTy).Contents (Elt F)),
    StableHlo.binary main_v51 main_v52 main_v53 (Host.divf : (⟨S65536, .f32⟩ : BufTy).Contents (Elt F) → (⟨S65536, .f32⟩ : BufTy).Contents (Elt F) → (⟨S65536, .f32⟩ : BufTy).Contents (Elt F)),
    StableHlo.reshape main_arg1 main_v54 rfl shapeCasts_S65536x84_S65536x21x4,
    StableHlo.nullary main_c_11 (constantI S_ 32 21#32),
    StableHlo.unary main_c_11 main_v55 (broadcastInDim S3 ![] bcast_S_S3 : (⟨S_, .i32⟩ : BufTy).Contents (Elt F) → (⟨S3, .i32⟩ : BufTy).Contents (Elt F)),
    StableHlo.binary main_c main_v55 main_v56 (addi : (⟨S3, .i32⟩ : BufTy).Contents (Elt F) → (⟨S3, .i32⟩ : BufTy).Contents (Elt F) → (⟨S3, .i32⟩ : BufTy).Contents (Elt F)),
    StableHlo.ternary main_c_0 main_v56 main_c main_v57 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.nullary main_c_12 (constantI S_ 32 3#32),
    StableHlo.unary main_c_12 main_v58 (broadcastInDim S3 ![] bcast_S_S3 : (⟨S_, .i32⟩ : BufTy).Contents (Elt F) → (⟨S3, .i32⟩ : BufTy).Contents (Elt F)),
    StableHlo.unary main_v58 main_v59 (id : (⟨S3, .i32⟩ : BufTy).Contents (Elt F) → (⟨S3, .i32⟩ : BufTy).Contents (Elt F)),
    StableHlo.unary main_v57 main_v60 (broadcastInDim S3x1 ![0] bcast_S3_S3x1_0 : (⟨S3, .i32⟩ : BufTy).Contents (Elt F) → (⟨S3x1, .i32⟩ : BufTy).Contents (Elt F)),
    StableHlo.unary main_v59 main_v61 (broadcastInDim S3x1 ![0] bcast_S3_S3x1_0 : (⟨S3, .i32⟩ : BufTy).Contents (Elt F) → (⟨S3x1, .i32⟩ : BufTy).Contents (Elt F)),
    StableHlo.binary main_v60 main_v61 main_v62 ((fun a b => concatenate S3x2 1 [⟨S3x1, a⟩, ⟨S3x1, b⟩] concatenates_S3x1_S3x1_S3x2_d1) : (⟨S3x1, .i32⟩ : BufTy).Contents (Elt F) → (⟨S3x1, .i32⟩ : BufTy).Contents (Elt F) → (⟨S3x2, .i32⟩ : BufTy).Contents (Elt F)),
    StableHlo.binary main_v54 main_v62 main_v63 ((fun x i => Host.gather gather_S65536x21x4_S3x2_S65536x3_0_12_n_n_12_1_6553611 x i) : (⟨S65536x21x4, .f32⟩ : BufTy).Contents (Elt F) → (⟨S3x2, .i32⟩ : BufTy).Contents (Elt F) → (⟨S65536x3, .f32⟩ : BufTy).Contents (Elt F)),
    StableHlo.nullary main_cst_13 (constant S_ .f32 0x00000000#32),
    StableHlo.binary main_v63 main_cst_13 main_v64 ((fun x v => Host.reduceAdd x v reducesTo_S65536x3_S65536_d1 h_S_) : (⟨S65536x3, .f32⟩ : BufTy).Contents (Elt F) → (⟨S_, .f32⟩ : BufTy).Contents (Elt F) → (⟨S65536, .f32⟩ : BufTy).Contents (Elt F)),
    StableHlo.nullary main_cst_14 (constant S_ .f32 0x40400000#32),
    StableHlo.unary main_cst_14 main_v65 (broadcastInDim S65536 ![] bcast_S_S65536 : (⟨S_, .f32⟩ : BufTy).Contents (Elt F) → (⟨S65536, .f32⟩ : BufTy).Contents (Elt F)),
    StableHlo.binary main_v64 main_v65 main_v66 (Host.divf : (⟨S65536, .f32⟩ : BufTy).Contents (Elt F) → (⟨S65536, .f32⟩ : BufTy).Contents (Elt F) → (⟨S65536, .f32⟩ : BufTy).Contents (Elt F)),
    StableHlo.unary main_v53 main_v67 (Host.absf : (⟨S65536, .f32⟩ : BufTy).Contents (Elt F) → (⟨S65536, .f32⟩ : BufTy).Contents (Elt F)),
    StableHlo.nullary main_cst_15 (constant S_ .f32 0x42C80000#32),
    StableHlo.unary main_cst_15 main_v68 (broadcastInDim S65536 ![] bcast_S_S65536 : (⟨S_, .f32⟩ : BufTy).Contents (Elt F) → (⟨S65536, .f32⟩ : BufTy).Contents (Elt F)),
    StableHlo.binary main_v67 main_v68 main_v69 (cmpf .olt : (⟨S65536, .f32⟩ : BufTy).Contents (Elt F) → (⟨S65536, .f32⟩ : BufTy).Contents (Elt F) → (⟨S65536, .i1⟩ : BufTy).Contents (Elt F)),
    StableHlo.unary main_v66 main_v70 (Host.absf : (⟨S65536, .f32⟩ : BufTy).Contents (Elt F) → (⟨S65536, .f32⟩ : BufTy).Contents (Elt F)),
    StableHlo.nullary main_cst_16 (constant S_ .f32 0x2EDBE6FF#32),
    StableHlo.unary main_cst_16 main_v71 (broadcastInDim S65536 ![] bcast_S_S65536 : (⟨S_, .f32⟩ : BufTy).Contents (Elt F) → (⟨S65536, .f32⟩ : BufTy).Contents (Elt F)),
    StableHlo.binary main_v70 main_v71 main_v72 (addf : (⟨S65536, .f32⟩ : BufTy).Contents (Elt F) → (⟨S65536, .f32⟩ : BufTy).Contents (Elt F) → (⟨S65536, .f32⟩ : BufTy).Contents (Elt F)),
    StableHlo.unary main_v72 main_v73 (Host.log : (⟨S65536, .f32⟩ : BufTy).Contents (Elt F) → (⟨S65536, .f32⟩ : BufTy).Contents (Elt F)),
    StableHlo.nullary main_cst_17 (constant S_ .f32 0x3EDE5BD9#32),
    StableHlo.unary main_cst_17 main_v74 (broadcastInDim S65536 ![] bcast_S_S65536 : (⟨S_, .f32⟩ : BufTy).Contents (Elt F) → (⟨S65536, .f32⟩ : BufTy).Contents (Elt F)),
    StableHlo.binary main_v73 main_v74 main_v75 (mulf : (⟨S65536, .f32⟩ : BufTy).Contents (Elt F) → (⟨S65536, .f32⟩ : BufTy).Contents (Elt F) → (⟨S65536, .f32⟩ : BufTy).Contents (Elt F)),
    StableHlo.unary main_v53 main_v76 (Host.absf : (⟨S65536, .f32⟩ : BufTy).Contents (Elt F) → (⟨S65536, .f32⟩ : BufTy).Contents (Elt F)),
    StableHlo.nullary main_cst_18 (constant S_ .f32 0x2EDBE6FF#32),
    StableHlo.unary main_cst_18 main_v77 (broadcastInDim S65536 ![] bcast_S_S65536 : (⟨S_, .f32⟩ : BufTy).Contents (Elt F) → (⟨S65536, .f32⟩ : BufTy).Contents (Elt F)),
    StableHlo.binary main_v76 main_v77 main_v78 (addf : (⟨S65536, .f32⟩ : BufTy).Contents (Elt F) → (⟨S65536, .f32⟩ : BufTy).Contents (Elt F) → (⟨S65536, .f32⟩ : BufTy).Contents (Elt F)),
    StableHlo.unary main_v78 main_v79 (Host.log : (⟨S65536, .f32⟩ : BufTy).Contents (Elt F) → (⟨S65536, .f32⟩ : BufTy).Contents (Elt F)),
    StableHlo.nullary main_cst_19 (constant S_ .f32 0x3EDE5BD9#32),
    StableHlo.unary main_cst_19 main_v80 (broadcastInDim S65536 ![] bcast_S_S65536 : (⟨S_, .f32⟩ : BufTy).Contents (Elt F) → (⟨S65536, .f32⟩ : BufTy).Contents (Elt F)),
    StableHlo.binary main_v79 main_v80 main_v81 (mulf : (⟨S65536, .f32⟩ : BufTy).Contents (Elt F) → (⟨S65536, .f32⟩ : BufTy).Contents (Elt F) → (⟨S65536, .f32⟩ : BufTy).Contents (Elt F)),
    StableHlo.binary main_v75 main_v81 main_v82 (subf : (⟨S65536, .f32⟩ : BufTy).Contents (Elt F) → (⟨S65536, .f32⟩ : BufTy).Contents (Elt F) → (⟨S65536, .f32⟩ : BufTy).Contents (Elt F)),
    StableHlo.unary main_v82 main_v83 (Host.absf : (⟨S65536, .f32⟩ : BufTy).Contents (Elt F) → (⟨S65536, .f32⟩ : BufTy).Contents (Elt F)),
    StableHlo.unary main_v69 main_v84 ((extui 32 · natLt_1_32) : (⟨S65536, .i1⟩ : BufTy).Contents (Elt F) → (⟨S65536, .i32⟩ : BufTy).Contents (Elt F)),
    StableHlo.nullary main_c_20 (constantI S_ 32 0#32),
    StableHlo.binary main_v84 main_c_20 main_v85 ((fun x v => Host.reduce IntOp.addi x v reducesTo_S65536_S_d0 h_S_) : (⟨S65536, .i32⟩ : BufTy).Contents (Elt F) → (⟨S_, .i32⟩ : BufTy).Contents (Elt F) → (⟨S_, .i32⟩ : BufTy).Contents (Elt F)),
    StableHlo.nullary main_cst_21 (constant S_ .f32 0x00000000#32),
    StableHlo.TRef.unary (.of main_cst_21) main_call0.v0 id,
    StableHlo.TRef.unary main_call0.v0 main_call0.v1 (broadcastInDim S65536 ![] bcast_S_S65536),
    StableHlo.TRef.ternary (.of main_v69) (.of main_v83) main_call0.v1 main_call0.v2 select,
    StableHlo.nullary main_cst_22 (constant S_ .f32 0x00000000#32),
    StableHlo.binary main_v86 main_cst_22 main_v87 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    StableHlo.nullary main_c_23 (constantI S_ 32 1#32),
    StableHlo.binary main_v85 main_c_23 main_v88 (maxsi : (⟨S_, .i32⟩ : BufTy).Contents (Elt F) → (⟨S_, .i32⟩ : BufTy).Contents (Elt F) → (⟨S_, .i32⟩ : BufTy).Contents (Elt F)),
    StableHlo.unary main_v88 main_v89 (sitofp .f32 : (⟨S_, .i32⟩ : BufTy).Contents (Elt F) → (⟨S_, .f32⟩ : BufTy).Contents (Elt F)),
    StableHlo.binary main_v87 main_v89 main_v90 (Host.divf : (⟨S_, .f32⟩ : BufTy).Contents (Elt F) → (⟨S_, .f32⟩ : BufTy).Contents (Elt F) → (⟨S_, .f32⟩ : BufTy).Contents (Elt F)),
    StableHlo.nullary main_cst_24 (constant S_ .f32 0x39D1B717#32),
    StableHlo.binary main_v3 main_cst_24 main_v91 (cmpf .olt : (⟨S_, .f32⟩ : BufTy).Contents (Elt F) → (⟨S_, .f32⟩ : BufTy).Contents (Elt F) → (⟨S_, .i1⟩ : BufTy).Contents (Elt F)),
    StableHlo.nullary main_c_25 (constantI S_ 32 0#32) ]

/-- The third window's operations, in order: each call of `_where_0` is its one select, written into the result's buffer. -/
abbrev ops2 : List (HloOp τ sig (Elt F)) :=
  [ StableHlo.binary main_v85 main_c_25 main_v92 (cmpi .sgt : (⟨S_, .i32⟩ : BufTy).Contents (Elt F) → (⟨S_, .i32⟩ : BufTy).Contents (Elt F) → (⟨S_, .i1⟩ : BufTy).Contents (Elt F)),
    StableHlo.binary main_v91 main_v92 main_v93 (andi : (⟨S_, .i1⟩ : BufTy).Contents (Elt F) → (⟨S_, .i1⟩ : BufTy).Contents (Elt F) → (⟨S_, .i1⟩ : BufTy).Contents (Elt F)),
    StableHlo.nullary main_cst_26 (constant S_ .f32 0x00000000#32),
    StableHlo.TRef.ternary (.of main_v93) (.of main_v90) (.of main_cst_26) main_call1.v0 select,
    StableHlo.nullary main_cst_27 (constant S_ .f32 0x3F000000#32),
    StableHlo.binary main_cst_27 main_v3 main_v95 (mulf : (⟨S_, .f32⟩ : BufTy).Contents (Elt F) → (⟨S_, .f32⟩ : BufTy).Contents (Elt F) → (⟨S_, .f32⟩ : BufTy).Contents (Elt F)),
    StableHlo.nullary main_cst_28 (constant S_ .f32 0x3F000000#32),
    StableHlo.binary main_cst_28 main_v90 main_v96 (mulf : (⟨S_, .f32⟩ : BufTy).Contents (Elt F) → (⟨S_, .f32⟩ : BufTy).Contents (Elt F) → (⟨S_, .f32⟩ : BufTy).Contents (Elt F)),
    StableHlo.binary main_v95 main_v96 main_v97 (addf : (⟨S_, .f32⟩ : BufTy).Contents (Elt F) → (⟨S_, .f32⟩ : BufTy).Contents (Elt F) → (⟨S_, .f32⟩ : BufTy).Contents (Elt F)),
    StableHlo.TRef.ternary (.of main_v93) (.of main_v97) (.of main_v3) main_call2.v0 select ]

/-- @main's operations, in order. -/
abbrev ops : List (HloOp τ sig (Elt F)) := ops0 ++ (ops1 ++ ops2)

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl

set_option maxRecDepth 8192 in
/-- @main is the straight line of its operations: each window is its own stretch, and stretches run one after
    the other are their concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., binary_bufs_sub .., unary_bufs_sub .., nullary_bufs_sub .., binary_bufs_sub .., nullary_bufs_sub .., binary_bufs_sub .., unary_bufs_sub .., unary_bufs_sub .., reshape_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nary_bufs_sub .., unary_bufs_sub .., unary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., nullary_bufs_sub .., unary_bufs_sub .., binary_bufs_sub .., binary_bufs_sub .., binary_bufs_sub .., nullary_bufs_sub .., unary_bufs_sub .., binary_bufs_sub ..⟩

set_option maxRecDepth 8192 in
theorem ops1_sub : (ops1 : List (HloOp τ sig (Elt F))).Forall fun op => op.bufs ⊆ tcRefs τ sig :=
  ⟨binary_bufs_sub .., binary_bufs_sub .., binary_bufs_sub .., unary_bufs_sub .., nullary_bufs_sub .., unary_bufs_sub .., binary_bufs_sub .., reshape_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., unary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., unary_bufs_sub .., binary_bufs_sub .., nullary_bufs_sub .., binary_bufs_sub .., nullary_bufs_sub ..⟩

set_option maxRecDepth 8192 in
theorem ops2_sub : (ops2 : List (HloOp τ sig (Elt F))).Forall fun op => op.bufs ⊆ tcRefs τ sig :=
  ⟨binary_bufs_sub .., binary_bufs_sub .., nullary_bufs_sub .., ternary_bufs_sub .., nullary_bufs_sub .., binary_bufs_sub .., nullary_bufs_sub .., binary_bufs_sub .., binary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

/-- Every operation determines its result (none allocates a fresh buffer). -/
theorem ops_fresh : ∀ op ∈ (ops : List (HloOp τ sig (Elt F))), op.fresh = ∅ := by
  intro op h
  simp only [ops, List.mem_append] at h
  rcases h with h | h | h
  exacts [ops0_fresh op h, ops1_fresh op h, ops2_fresh op h]

end Cert.ReferenceIdeal.Hand

end
-- ==== Proof.RefRun.lean ====
/-
  The run of the reference program: every weakly fair execution of @main terminates with each TensorCore buffer
  at the fold of the operations over the launch contents; no operation writes an argument's buffer, so the four
  arguments end as launched.
-/
import proofs.«179079_j52828097741444_2_alg».proof.Proof.RefOps

noncomputable section

namespace Cert.ReferenceIdeal.Hand

open Cert.ReferenceIdeal Idealize.ShloMosaic Idealize.ShloMosaic.TcCoe Idealize.SL.Sem Idealize.ShloMosaic.StableHlo

variable {F : FTy → Type} [FloatOps F]

/-- At the compiled mesh, for any float values, from any memory with zero counters: every weakly fair execution of
    @main on the TensorCores terminates, and every final state has each TensorCore buffer at the operations' fold
    over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ (fun _ => ops_fresh)

/-- Closes `∀ op ∈ l, b ∉ op.writes` for a literal stretch `l` and a reference `b` none of its operations writes:
    each operation writes its one result buffer, and that reference is another (decided over references). -/
local macro "not_written" l:ident : tactic => `(tactic| (
  refine List.forall_iff_forall_mem.mp ?_
  simp only [$l:ident, List.Forall, nullary_writes, unary_writes, binary_writes, ternary_writes, reshape_writes,
    nary_writes, Finset.mem_singleton]
  repeat' apply And.intro
  all_goals exact devRef_ne_of_ne (by decide)))

/-- A reference that no stretch writes keeps its contents through the whole line. -/
theorem after_ops_of_not_written {b : DevRef τ sig}
    (h0 : ∀ op ∈ (ops0 : List (HloOp τ sig (Elt F))), b ∉ op.writes)
    (h1 : ∀ op ∈ (ops1 : List (HloOp τ sig (Elt F))), b ∉ op.writes)
    (h2 : ∀ op ∈ (ops2 : List (HloOp τ sig (Elt F))), b ∉ op.writes) (V : Valuation τ sig (Elt F)) :
    after ops V b = V b :=
  after_of_forall_not_mem ops V fun op h => by
    simp only [ops, List.mem_append] at h
    rcases h with h | h | h
    exacts [h0 op h, h1 op h, h2 op h]

set_option maxRecDepth 8192 in
theorem after_arg0 (V : Valuation τ sig (Elt F)) :
    after ops V (Proc.devRef .tc main_arg0) = V (Proc.devRef .tc main_arg0) :=
  after_ops_of_not_written (by not_written ops0) (by not_written ops1) (by not_written ops2) V
set_option maxRecDepth 8192 in
theorem after_arg1 (V : Valuation τ sig (Elt F)) :
    after ops V (Proc.devRef .tc main_arg1) = V (Proc.devRef .tc main_arg1) :=
  after_ops_of_not_written (by not_written ops0) (by not_written ops1) (by not_written ops2) V
set_option maxRecDepth 8192 in
theorem after_arg2 (V : Valuation τ sig (Elt F)) :
    after ops V (Proc.devRef .tc main_arg2) = V (Proc.devRef .tc main_arg2) :=
  after_ops_of_not_written (by not_written ops0) (by not_written ops1) (by not_written ops2) V
set_option maxRecDepth 8192 in
theorem after_arg3 (V : Valuation τ sig (Elt F)) :
    after ops V (Proc.devRef .tc main_arg3) = V (Proc.devRef .tc main_arg3) :=
  after_ops_of_not_written (by not_written ops0) (by not_written ops1) (by not_written ops2) V

/-- The reference runs (terminates, no fault) and its four argument arrays end unchanged. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_arg0).trans (after_arg0 _), (h c main_arg1).trans (after_arg1 _),
      (h c main_arg2).trans (after_arg2 _), (h c main_arg3).trans (after_arg3 _)⟩)
    (run_after m ρ)

end Cert.ReferenceIdeal.Hand

end
-- ==== Proof.RefTerms.lean ====
/-
  The reference program's three intermediate arrays, and from them its three results, written out as terms over
  the four argument arrays at the ideal instance: each definition below applies, in the program's own order and
  with the program's own side conditions, the operations the program lists between the arguments and the value
  named.  The field estimate per row (`wfaT`), the predicted field per row (`pbT`) and the mean absolute error
  (`baseT`) are what the last lines — the same in both programs, `Cert.Tail` — start from.
-/
import proofs.«179079_j52828097741444_2_alg».proof.ReferenceIdeal
import proofs.«179079_j52828097741444_2_alg».proof.Proof.Gen.ReferenceIdeal
import proofs.«179079_j52828097741444_2_alg».proof.Proof.Spec
import proofs.«179079_j52828097741444_2_alg».proof.Proof.Tail

noncomputable section

namespace Cert.ReferenceIdeal.Hand

open Cert.ReferenceIdeal Idealize.ShloMosaic
open Cert.ReferenceIdeal.Facts₀

/-! ## The mean absolute error (`%0 … %3`) -/

/-- `%1`: the absolute differences of predicted and target parameters. -/
def v1T (a1 a2 : FVec Ideal S65536x84 .f32) : FVec Ideal S65536x84 .f32 := Host.absf (subf a1 a2)

/-- `%3`: their sum over both axes, over the literal count. -/
def baseT (a1 a2 : FVec Ideal S65536x84 .f32) : FVec Ideal S_ .f32 :=
  Host.divf (F := Ideal)
    ((fun x v => Host.reduceAdd (F := Ideal) x v reducesTo_S65536x84_S_d0_1 h_S_) (v1T a1 a2) (constant (F := Ideal) S_ .f32 0x00000000#32))
    (constant (F := Ideal) S_ .f32 0x4AA80000#32)

/-! ## The field estimate (`%4 … %53`) -/

/-- `%6`: the Stokes I samples 0 … 110 of every row, as a matrix. -/
def v6T (a0 : FVec Ideal S65536x4x112 .f32) : FVec Ideal S65536x111 .f32 :=
  shapeCast S65536x111 (extractStridedSlice S65536x1x111 ![0, 0, 0] a0 slices_S65536x4x112_S65536x1x111_0_0_0)
    shapeCasts_S65536x1x111_S65536x111

/-- `%8`: the Stokes V samples 0 … 110 of every row, as a matrix. -/
def v8T (a0 : FVec Ideal S65536x4x112 .f32) : FVec Ideal S65536x111 .f32 :=
  shapeCast S65536x111 (extractStridedSlice S65536x1x111 ![0, 3, 0] a0 slices_S65536x4x112_S65536x1x111_0_3_0)
    shapeCasts_S65536x1x111_S65536x111

/-- `%11`: the one-sided difference at the first sample. -/
def v11T (x : FVec Ideal S65536x111 .f32) : FVec Ideal S65536x1 .f32 :=
  subf (extractStridedSlice S65536x1 ![0, 1] x slices_S65536x111_S65536x1_0_1)
    (extractStridedSlice S65536x1 ![0, 0] x slices_S65536x111_S65536x1_0_0)

/-- `%16`: the halved central differences. -/
def v16T (x : FVec Ideal S65536x111 .f32) : FVec Ideal S65536x109 .f32 :=
  mulf (subf (extractStridedSlice S65536x109 ![0, 2] x slices_S65536x111_S65536x109_0_2)
      (extractStridedSlice S65536x109 ![0, 0] x slices_S65536x111_S65536x109_0_0))
    (broadcastInDim S65536x109 ![] bcast_S_S65536x109 (constant (F := Ideal) S_ .f32 0x3F000000#32))

/-- `%19`: the one-sided difference at the last sample. -/
def v19T (x : FVec Ideal S65536x111 .f32) : FVec Ideal S65536x1 .f32 :=
  subf (extractStridedSlice S65536x1 ![0, 110] x slices_S65536x111_S65536x1_0_110)
    (extractStridedSlice S65536x1 ![0, 109] x slices_S65536x111_S65536x1_0_109)

/-- `%20`: the gradient of every row of a matrix along its second axis, the three pieces laid end to end. -/
def v20T (x : FVec Ideal S65536x111 .f32) : FVec Ideal S65536x111 .f32 :=
  concatenate S65536x111 1 [⟨S65536x1, v11T x⟩, ⟨S65536x109, v16T x⟩, ⟨S65536x1, v19T x⟩]
    concatenates_S65536x1_S65536x109_S65536x1_S65536x111_d1

/-- `%34`: the wavelength gradient, one copy per row. -/
def v34T (a3 : FVec Ideal S112 .f32) : FVec Ideal S65536x111 .f32 :=
  broadcastInDim S65536x111 ![0, 1] bcast_S1x111_S65536x111_0_1
    (broadcastInDim S1x111 ![1] bcast_S111_S1x111_1 (Cert.Spec.dwl (F := Ideal) a3))

/-- `%35`: the derivative of Stokes I with respect to wavelength. -/
def v35T (a0 : FVec Ideal S65536x4x112 .f32) (a3 : FVec Ideal S112 .f32) : FVec Ideal S65536x111 .f32 :=
  Host.divf (F := Ideal) (v20T (v6T a0)) (v34T a3)

/-- A row sum of a matrix of 111 columns, as the program spells each of its four. -/
def rowsum (x : FVec Ideal S65536x111 .f32) : FVec Ideal S65536 .f32 :=
  (fun x v => Host.reduceAdd (F := Ideal) x v reducesTo_S65536x111_S65536_d1 h_S_) x (constant (F := Ideal) S_ .f32 0x00000000#32)

/-- A scalar literal spread over the rows. -/
def splatT (b : BitVec 32) : FVec Ideal S65536 .f32 := broadcastInDim S65536 ![] bcast_S_S65536 (constant (F := Ideal) S_ .f32 b)

/-- `%45`: the numerator of the least-squares slope. -/
def v45T (D V : FVec Ideal S65536x111 .f32) : FVec Ideal S65536 .f32 :=
  subf (mulf (splatT 0x42DE0000#32) (rowsum (mulf D V))) (mulf (rowsum D) (rowsum V))

/-- `%49`: its denominator. -/
def v49T (D : FVec Ideal S65536x111 .f32) : FVec Ideal S65536 .f32 :=
  subf (mulf (splatT 0x42DE0000#32) (rowsum (mulf D D))) (mulf (rowsum D) (rowsum D))

/-- `%50`: the slope. -/
def v50T (D V : FVec Ideal S65536x111 .f32) : FVec Ideal S65536 .f32 := Host.divf (F := Ideal) (v45T D V) (v49T D)

/-- `%53`: minus the slope over the literal. -/
def wfaT (a0 : FVec Ideal S65536x4x112 .f32) (a3 : FVec Ideal S112 .f32) : FVec Ideal S65536 .f32 :=
  Host.divf (F := Ideal) (Host.negf (F := Ideal) (v50T (v35T a0 a3) (v8T a0))) (splatT 0x37E944AF#32)

/-! ## The predicted field (`%54 … %66`) -/

/-- `%c`: the table [0, 1, 2]. -/
def cT : IVec S3 32 := fun i => lit0 (S3.rowMajor i)

/-- `%57`: the table again, through a select whose mask is false everywhere. -/
def v57T : IVec S3 32 :=
  select (constantI S3 1 0#1) (addi cT (broadcastInDim S3 ![] bcast_S_S3 (constantI S_ 32 21#32))) cT

/-- `%62`: the index table — the rows (k, 3). -/
def v62T : IVec S3x2 32 :=
  (fun a b => concatenate S3x2 1 [⟨S3x1, a⟩, ⟨S3x1, b⟩] concatenates_S3x1_S3x1_S3x2_d1)
    (broadcastInDim S3x1 ![0] bcast_S3_S3x1_0 v57T)
    (broadcastInDim S3x1 ![0] bcast_S3_S3x1_0 (id (broadcastInDim S3 ![] bcast_S_S3 (constantI S_ 32 3#32))))

/-- `%63`: per row, the entries (k, 3) of its 21 × 4 parameters, k = 0, 1, 2. -/
def v63T (a1 : FVec Ideal S65536x84 .f32) : FVec Ideal S65536x3 .f32 :=
  (fun x i => Host.gather gather_S65536x21x4_S3x2_S65536x3_0_12_n_n_12_1_6553611 x i)
    (shapeCast S65536x21x4 a1 shapeCasts_S65536x84_S65536x21x4) v62T

/-- `%66`: their mean. -/
def pbT (a1 : FVec Ideal S65536x84 .f32) : FVec Ideal S65536 .f32 :=
  Host.divf (F := Ideal)
    ((fun x v => Host.reduceAdd (F := Ideal) x v reducesTo_S65536x3_S65536_d1 h_S_) (v63T a1) (constant (F := Ideal) S_ .f32 0x00000000#32))
    (splatT 0x40400000#32)

/-! ## The three results -/

/-- The total loss (`%98`). -/
def res98 (a0 : FVec Ideal S65536x4x112 .f32) (a1 a2 : FVec Ideal S65536x84 .f32) (a3 : FVec Ideal S112 .f32) : FVec Ideal S_ .f32 :=
  Cert.Tail.total (wfaT a0 a3) (pbT a1) (baseT a1 a2)

/-- The mean absolute error (`%3`). -/
def res3 (a1 a2 : FVec Ideal S65536x84 .f32) : FVec Ideal S_ .f32 := baseT a1 a2

/-- The field loss (`%94`). -/
def res94 (a0 : FVec Ideal S65536x4x112 .f32) (a1 a2 : FVec Ideal S65536x84 .f32) (a3 : FVec Ideal S112 .f32) : FVec Ideal S_ .f32 :=
  Cert.Tail.wfaLoss (wfaT a0 a3) (pbT a1) (baseT a1 a2)

end Cert.ReferenceIdeal.Hand

end
-- ==== Proof.RefRunValue.lean ====
/-
  The reference's three results as terms of the four argument arrays, at the ideal instance: the fold of the
  operations over the launch contents, read at a result's buffer, is the composed term of the operations between the
  arguments and that value — each operation's result at its own buffer is its function of its operands' contents, at
  any other buffer what was there —, and that composed term is the one written out in RefTerms.lean up to the
  unfolding of its definitions (the casts of the typed references of the two outlined functions are the identity
  at literal references).
-/
import proofs.«179079_j52828097741444_2_alg».proof.Proof.RefRun
import proofs.«179079_j52828097741444_2_alg».proof.Proof.RefTerms

noncomputable section

namespace Cert.ReferenceIdeal.Hand

open Cert.ReferenceIdeal Idealize.ShloMosaic Idealize.ShloMosaic.TcCoe Idealize.SL.Sem Idealize.ShloMosaic.StableHlo

set_option maxRecDepth 8192 in
set_option maxHeartbeats 20000000 in
theorem after_v3 (V : Valuation τ sig (Elt Ideal)) :
    after (ops (F := Ideal)) V (Proc.devRef .tc main_v3)
      = res3 (V (Proc.devRef .tc main_arg1)) (V (Proc.devRef .tc main_arg2)) := by
  simp only [ops, ops0, ops1, ops2, List.cons_append, List.nil_append]
  after_results_simp
  rfl

set_option maxRecDepth 8192 in
set_option maxHeartbeats 40000000 in
theorem after_v94 (V : Valuation τ sig (Elt Ideal)) :
    after (ops (F := Ideal)) V (Proc.devRef .tc main_v94)
      = res94 (V (Proc.devRef .tc main_arg0)) (V (Proc.devRef .tc main_arg1)) (V (Proc.devRef .tc main_arg2)) (V (Proc.devRef .tc main_arg3)) := by
  simp only [ops, ops0, ops1, ops2, List.cons_append, List.nil_append]
  after_results_simp
  rfl

set_option maxRecDepth 8192 in
set_option maxHeartbeats 40000000 in
theorem after_v98 (V : Valuation τ sig (Elt Ideal)) :
    after (ops (F := Ideal)) V (Proc.devRef .tc main_v98)
      = res98 (V (Proc.devRef .tc main_arg0)) (V (Proc.devRef .tc main_arg1)) (V (Proc.devRef .tc main_arg2)) (V (Proc.devRef .tc main_arg3)) := by
  simp only [ops, ops0, ops1, ops2, List.cons_append, List.nil_append]
  after_results_simp
  rfl

/-- At the compiled mesh, from any memory with zero counters: every weakly fair execution of the reference's @main
    terminates with its three results at their composed terms of the launch contents of the four arguments, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v98) = res98 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v3) = res3 (m ((c.tc : Thread nD τ).loc main_arg1)) (m ((c.tc : Thread nD τ).loc main_arg2))
      ∧ r.2.mem ((c.tc : Thread nD τ).loc main_v94) = res94 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v98).trans (after_v98 _), (h c main_v3).trans (after_v3 _),
      (h c main_v94).trans (after_v94 _), (h c main_arg0).trans (after_arg0 _), (h c main_arg1).trans (after_arg1 _),
      (h c main_arg2).trans (after_arg2 _), (h c main_arg3).trans (after_arg3 _)⟩)
    (run_after m ρ)

end Cert.ReferenceIdeal.Hand

end
-- ==== Proof.RefWfaRead.lean ====
/-
  The reference's intermediate matrices read at an index: the Stokes I and V matrices are the argument's rows
  0 and 3 cut to 111 samples, the broadcast wavelength gradient reads its vector at the column, and a row sum over
  the 111 columns is the finite sum of the row's entries.
-/
import proofs.«179079_j52828097741444_2_alg».proof.Proof.RefTerms
import Idealize.ShloMosaic.Lib.IdealHost
import Idealize.ShloMosaic.Lib.Pipeline.Value

noncomputable section

namespace Cert.ReferenceIdeal.Hand

open Cert.ReferenceIdeal Idealize.ShloMosaic Idealize.ShloMosaic.ValueIdx
open Cert.ReferenceIdeal.Facts₀
open scoped BigOperators

theorem reduces_S65536x111_S65536_d1 : S65536x111.Reduces [1] S65536 := by decide

/-- A row sum at row `r` is the sum of that row's 111 entries. -/
theorem rowsum_apply (X : FVec Ideal S65536x111 .f32) (r : Fin 65536) :
    rowsum X (ix1 r) = ∑ k : Fin 111, X (ix2 r k) := by
  show Ideal.hostReduceAdd reducesTo_S65536x111_S65536_d1 X (Ideal.ofBits .f32 0x00000000#32) (ix1 r) = _
  rw [Ideal.hostReduceAdd_single reducesTo_S65536x111_S65536_d1 reduces_S65536x111_S65536_d1, Ideal.ofBits_zero_f32, zero_add]
  refine Finset.sum_congr rfl fun k _ => congrArg X ?_
  funext a
  match a with
  | ⟨0, _⟩ => exact Fin.ext rfl
  | ⟨1, _⟩ => exact Fin.ext rfl

/-- A literal spread over the rows reads the literal. -/
theorem splatT_apply (b : BitVec 32) (i : S65536.Idx) : splatT b i = Ideal.ofBits .f32 b := rfl

/-- The Stokes I matrix at (r, k) is the argument at (r, 0, k). -/
theorem v6T_apply (a0 : FVec Ideal S65536x4x112 .f32) (r : Fin 65536) (k : Fin 111) :
    v6T a0 (ix2 r k) = a0 (ix3 r (0 : Fin 4) (⟨k.val, by omega⟩ : Fin 112)) := by
  unfold v6T
  refine (shapeCast_apply _ _ (ix2 r k) (ix3 r (0 : Fin 1) k) ?_).trans ?_
  · rw [Shape.rowMajor_val_two, Shape.rowMajor_val_three]
    show ((r.val * 1 + 0) * 111 + k.val) = r.val * 111 + k.val
    omega
  · refine extractStridedSlice_apply _ _ _ _ _ fun a => ?_
    match a with
    | ⟨0, _⟩ => show r.val = 0 + r.val; omega
    | ⟨1, _⟩ => rfl
    | ⟨2, _⟩ => show k.val = 0 + k.val; omega

/-- The Stokes V matrix at (r, k) is the argument at (r, 3, k). -/
theorem v8T_apply (a0 : FVec Ideal S65536x4x112 .f32) (r : Fin 65536) (k : Fin 111) :
    v8T a0 (ix2 r k) = a0 (ix3 r (3 : Fin 4) (⟨k.val, by omega⟩ : Fin 112)) := by
  unfold v8T
  refine (shapeCast_apply _ _ (ix2 r k) (ix3 r (0 : Fin 1) k) ?_).trans ?_
  · rw [Shape.rowMajor_val_two, Shape.rowMajor_val_three]
    show ((r.val * 1 + 0) * 111 + k.val) = r.val * 111 + k.val
    omega
  · refine extractStridedSlice_apply _ _ _ _ _ fun a => ?_
    match a with
    | ⟨0, _⟩ => show r.val = 0 + r.val; omega
    | ⟨1, _⟩ => rfl
    | ⟨2, _⟩ => show k.val = 0 + k.val; omega

/-- The wavelength gradient spread over the rows reads the vector at the column. -/
theorem v34T_apply (a3 : FVec Ideal S112 .f32) (r : Fin 65536) (k : Fin 111) :
    v34T a3 (ix2 r k) = Cert.Spec.dwl (F := Ideal) a3 (ix1 k) := by
  unfold v34T
  refine (broadcastInDim_apply _ _ _ (ix2 r k) (ix2 (0 : Fin 1) k) fun a => ?_).trans ?_
  · match a with
    | ⟨0, _⟩ => rfl
    | ⟨1, _⟩ => rfl
  · refine broadcastInDim_apply _ _ _ _ (ix1 k) fun a => ?_
    match a with
    | ⟨0, _⟩ => rfl

end Cert.ReferenceIdeal.Hand

end
-- ==== Proof.RefGrad.lean ====
/-
  The reference's gradient matrix read at an index: the three pieces laid end to end along the columns are, at
  column j, the one-sided difference at the first column, the halved central difference between, and the one-sided
  difference at the last — the row function `Cert.Spec.gradRow` of the matrix's row.
-/
import proofs.«179079_j52828097741444_2_alg».proof.Proof.RefTerms
import Idealize.ShloMosaic.Lib.IdealHost
import Idealize.ShloMosaic.Lib.Pipeline.Value

noncomputable section

namespace Cert.ReferenceIdeal.Hand

open Cert.ReferenceIdeal Idealize.ShloMosaic Idealize.ShloMosaic.ValueIdx
open Cert.ReferenceIdeal.Facts₀
open scoped BigOperators

/-- The first piece: the second entry less the first. -/
theorem v11T_apply (x : FVec Ideal S65536x111 .f32) (r : Fin 65536) :
    v11T x (ix2 r (0 : Fin 1)) = x (ix2 r (⟨1, by omega⟩ : Fin 111)) - x (ix2 r (⟨0, by omega⟩ : Fin 111)) := by
  show extractStridedSlice S65536x1 ![0, 1] x slices_S65536x111_S65536x1_0_1 (ix2 r (0 : Fin 1))
      - extractStridedSlice S65536x1 ![0, 0] x slices_S65536x111_S65536x1_0_0 (ix2 r (0 : Fin 1)) = _
  refine congrArg₂ (fun u v : EReal => u - v)
    (extractStridedSlice_apply _ _ _ _ _ fun a => ?_) (extractStridedSlice_apply _ _ _ _ _ fun a => ?_)
  · match a with
    | ⟨0, _⟩ => show r.val = 0 + r.val; omega
    | ⟨1, _⟩ => rfl
  · match a with
    | ⟨0, _⟩ => show r.val = 0 + r.val; omega
    | ⟨1, _⟩ => rfl

/-- The last piece: the last entry less the one before. -/
theorem v19T_apply (x : FVec Ideal S65536x111 .f32) (r : Fin 65536) :
    v19T x (ix2 r (0 : Fin 1)) = x (ix2 r (⟨110, by omega⟩ : Fin 111)) - x (ix2 r (⟨109, by omega⟩ : Fin 111)) := by
  show extractStridedSlice S65536x1 ![0, 110] x slices_S65536x111_S65536x1_0_110 (ix2 r (0 : Fin 1))
      - extractStridedSlice S65536x1 ![0, 109] x slices_S65536x111_S65536x1_0_109 (ix2 r (0 : Fin 1)) = _
  refine congrArg₂ (fun u v : EReal => u - v)
    (extractStridedSlice_apply _ _ _ _ _ fun a => ?_) (extractStridedSlice_apply _ _ _ _ _ fun a => ?_)
  · match a with
    | ⟨0, _⟩ => show r.val = 0 + r.val; omega
    | ⟨1, _⟩ => rfl
  · match a with
    | ⟨0, _⟩ => show r.val = 0 + r.val; omega
    | ⟨1, _⟩ => rfl

/-- The middle piece at place `m`: half the entry two further less the entry at `m`. -/
theorem v16T_apply (x : FVec Ideal S65536x111 .f32) (r : Fin 65536) (m : Fin 109) :
    v16T x (ix2 r m) = (x (ix2 r (⟨m.val + 2, by omega⟩ : Fin 111)) - x (ix2 r (⟨m.val, by omega⟩ : Fin 111))) * Cert.Spec.half := by
  show (extractStridedSlice S65536x109 ![0, 2] x slices_S65536x111_S65536x109_0_2 (ix2 r m)
      - extractStridedSlice S65536x109 ![0, 0] x slices_S65536x111_S65536x109_0_0 (ix2 r m)) * Cert.Spec.half = _
  refine congrArg (fun u : EReal => u * Cert.Spec.half) (congrArg₂ (fun u v : EReal => u - v)
    (extractStridedSlice_apply _ _ _ _ _ fun a => ?_) (extractStridedSlice_apply _ _ _ _ _ fun a => ?_))
  · match a with
    | ⟨0, _⟩ => show r.val = 0 + r.val; omega
    | ⟨1, _⟩ => show m.val + 2 = 2 + m.val; omega
  · match a with
    | ⟨0, _⟩ => show r.val = 0 + r.val; omega
    | ⟨1, _⟩ => show m.val = 0 + m.val; omega

/-- The gradient matrix at (r, j) is the gradient of row r at j. -/
theorem v20T_apply (x : FVec Ideal S65536x111 .f32) (r : Fin 65536) (j : Fin 111) :
    v20T x (ix2 r j) = Cert.Spec.gradRow (fun k => x (ix2 r k)) j := by
  unfold v20T Cert.Spec.gradRow
  by_cases h0 : j.val < 1
  · rw [dif_pos h0]
    refine (concatenate_apply_piece (t := S65536x111) (1 : Fin 2) [⟨S65536x1, v11T x⟩, ⟨S65536x109, v16T x⟩, ⟨S65536x1, v19T x⟩]
      concatenates_S65536x1_S65536x109_S65536x1_S65536x111_d1 (ix2 r j) 0 (by simp) S65536x1 (v11T x) rfl rfl 0 rfl
      (ix2 r (0 : Fin 1)) (fun b hb => ?_) ?_).trans (v11T_apply x r)
    · match b with
      | ⟨0, _⟩ => rfl
      | ⟨1, _⟩ => exact absurd rfl hb
    · show 0 + 0 = j.val; omega
  · rw [dif_neg h0]
    by_cases h1 : j.val < 110
    · rw [dif_pos h1]
      refine (concatenate_apply_piece (t := S65536x111) (1 : Fin 2) [⟨S65536x1, v11T x⟩, ⟨S65536x109, v16T x⟩, ⟨S65536x1, v19T x⟩]
      concatenates_S65536x1_S65536x109_S65536x1_S65536x111_d1 (ix2 r j) 1 (by simp) S65536x109 (v16T x) rfl rfl 1 rfl
        (ix2 r (⟨j.val - 1, by omega⟩ : Fin 109)) (fun b hb => ?_) ?_).trans ?_
      · match b with
        | ⟨0, _⟩ => rfl
        | ⟨1, _⟩ => exact absurd rfl hb
      · show 1 + (j.val - 1) = j.val; omega
      · refine (v16T_apply x r _).trans ?_
        show (x (ix2 r ⟨j.val - 1 + 2, _⟩) - x (ix2 r ⟨j.val - 1, _⟩)) * Cert.Spec.half
          = (x (ix2 r ⟨j.val + 1, _⟩) - x (ix2 r ⟨j.val - 1, _⟩)) * Cert.Spec.half
        have e : j.val - 1 + 2 = j.val + 1 := by omega
        simp only [e]
    · rw [dif_neg h1]
      refine (concatenate_apply_piece (t := S65536x111) (1 : Fin 2) [⟨S65536x1, v11T x⟩, ⟨S65536x109, v16T x⟩, ⟨S65536x1, v19T x⟩]
      concatenates_S65536x1_S65536x109_S65536x1_S65536x111_d1 (ix2 r j) 2 (by simp) S65536x1 (v19T x) rfl rfl 110 rfl
        (ix2 r (0 : Fin 1)) (fun b hb => ?_) ?_).trans (v19T_apply x r)
      · match b with
        | ⟨0, _⟩ => rfl
        | ⟨1, _⟩ => exact absurd rfl hb
      · show 110 + 0 = j.val; omega

end Cert.ReferenceIdeal.Hand

end
-- ==== Proof.RefWfa.lean ====
/-
  The reference's field estimate per row is the specification's: its derivative matrix at (r, k) is the gradient of
  row r of Stokes I over the wavelength gradient at k, its four row sums are the finite sums over the 111 samples, and
  what it then forms from them — 111 times the sum of products less the product of sums, over the same with the
  derivative twice, negated, over the literal — is `Cert.Spec.wfaR` of the row.
-/
import proofs.«179079_j52828097741444_2_alg».proof.Proof.RefWfaRead
import proofs.«179079_j52828097741444_2_alg».proof.Proof.RefGrad

noncomputable section

namespace Cert.ReferenceIdeal.Hand

open Cert.ReferenceIdeal Idealize.ShloMosaic Idealize.ShloMosaic.ValueIdx
open Cert.ReferenceIdeal.Facts₀
open scoped BigOperators

/-- The derivative matrix at (r, k): the gradient of row r of Stokes I at k over the wavelength gradient at k. -/
theorem v35T_apply (a0 : FVec Ideal S65536x4x112 .f32) (a3 : FVec Ideal S112 .f32) (r : Fin 65536) (k : Fin 111) :
    v35T a0 a3 (ix2 r k) = Ideal.div (Cert.Spec.gradRow (Cert.Spec.rowI a0 r) k) (Cert.Spec.dvec a3 k) := by
  show Ideal.div (v20T (v6T a0) (ix2 r k)) (v34T a3 (ix2 r k)) = _
  rw [v20T_apply, v34T_apply]
  have e : (fun k => v6T a0 (ix2 r k)) = Cert.Spec.rowI a0 r := funext fun k => v6T_apply a0 r k
  rw [e]
  rfl

/-- The host's negation at an index is the negation of the element. -/
theorem wfa_hostNegf_apply {s : Shape} {φ : FTy} (x : FVec Ideal s φ) (i : s.Idx) : Host.negf x i = -(x i) := rfl

/-- The field estimate the reference computes is `Cert.Spec.WR`. -/
theorem wfaT_eq (a0 : FVec Ideal S65536x4x112 .f32) (a3 : FVec Ideal S112 .f32) : wfaT a0 a3 = Cert.Spec.WR a0 a3 := by
  funext i
  obtain ⟨r, rfl⟩ : ∃ r : Fin 65536, i = ix1 r := ⟨i 0, eq_ix1 i⟩
  have hV : ∀ k : Fin 111, v8T a0 (ix2 r k) = Cert.Spec.rowV a0 r k := fun k => v8T_apply a0 r k
  show _ = Cert.Spec.wfaR (Cert.Spec.rowI a0 r) (Cert.Spec.rowV a0 r) (Cert.Spec.dvec a3)
  unfold Cert.Spec.wfaR Cert.Spec.slope wfaT v50T v45T v49T
  simp only [hostDivf_apply, wfa_hostNegf_apply, subf_apply, mulf_apply, splatT_apply, rowsum_apply, v35T_apply, hV]

end Cert.ReferenceIdeal.Hand

end
-- ==== Proof.RefPb.lean ====
/-
  The reference's predicted field per row is the specification's: the index table of its gather is the rows (k, 3),
  k = 0, 1, 2, so the gathered matrix at (r, k) is the row's 21 × 4 parameters at (k, 3) — entry 4k + 3 of the row's 84 —
  and the sum over k over the literal three is the mean of entries 3, 7 and 11.
-/
import proofs.«179079_j52828097741444_2_alg».proof.Proof.RefTerms
import Idealize.ShloMosaic.Lib.IdealHost
import Idealize.ShloMosaic.Lib.Pipeline.Value

noncomputable section

namespace Cert.ReferenceIdeal.Hand

open Cert.ReferenceIdeal Idealize.ShloMosaic Idealize.ShloMosaic.ValueIdx
open Cert.ReferenceIdeal.Facts₀
open scoped BigOperators

/-- The gather's dimension numbers. -/
local notation "gd" => gather_S65536x21x4_S3x2_S65536x3_0_12_n_n_12_1_6553611

/-- The table [0, 1, 2] read as naturals. -/
theorem lit0_toNat : ∀ k : Fin 3, (lit0 k).toInt.toNat = k.val := by decide

/-- The index table's first column is the table [0, 1, 2] … -/
theorem v62T_col0 (k : Fin 3) : v62T (ix2 k (0 : Fin 2)) = lit0 k := by
  unfold v62T
  refine (concatenate_pair_apply_left (t := S3x2) (s₁ := S3x1) (s₂ := S3x1) (1 : Fin 2) _ _ _ (ix2 k (0 : Fin 2)) rfl (ix2 k (0 : Fin 1)) fun b => ?_).trans ?_
  · match b with
    | ⟨0, _⟩ => rfl
    | ⟨1, _⟩ => rfl
  · refine (broadcastInDim_apply _ _ _ (ix2 k (0 : Fin 1)) (ix1 k) fun a => ?_).trans ?_
    · match a with
      | ⟨0, _⟩ => rfl
    · unfold v57T
      rw [select_apply]
      refine (select_zero _ _).trans ?_
      show lit0 (S3.rowMajor (ix1 k)) = lit0 k
      exact congrArg lit0 (Fin.ext (Shape.rowMajor_val_one _))

/-- … and its second column the constant 3. -/
theorem v62T_col1 (k : Fin 3) : v62T (ix2 k (1 : Fin 2)) = 3#32 := by
  unfold v62T
  exact concatenate_pair_apply_right (t := S3x2) (s₁ := S3x1) (s₂ := S3x1) (1 : Fin 2) _ _ _ (ix2 k (1 : Fin 2)) rfl rfl (ix2 k (0 : Fin 1))
    (fun b hb => by
      match b with
      | ⟨0, _⟩ => rfl
      | ⟨1, _⟩ => exact absurd rfl hb)
    rfl

/-- The index the gather reads the operand at, for the result index `(r, k)`: the row `r` whole (the one offset
    axis), and on the two collapsed axes the two entries of row `k` of the index table, read signed and clamped into
    the axis. -/
theorem gather_apply {α : Type} (x : S65536x21x4.Idx → α) (idx : IVec S3x2 32) (r : Fin 65536) (k : Fin 3)
    (p : Fin 21) (q : Fin 4) (hp : min (idx (ix2 k (0 : Fin 2))).toInt.toNat 20 = p.val)
    (hq : min (idx (ix2 k (1 : Fin 2))).toInt.toNat 3 = q.val) :
    Host.gather gd x idx (ix2 r k) = x (ix3 r p q) := by
  unfold Host.gather
  refine congrArg x (funext fun a => Fin.ext ?_)
  have hsi0 : GatherDims.siIdx gd (ix2 r k) ⟨0, by decide⟩ = ix2 k (0 : Fin 2) := by
    funext b; refine Fin.ext ?_
    match b with
    | ⟨0, _⟩ => rfl
    | ⟨1, _⟩ => rfl
  have hsi1 : GatherDims.siIdx gd (ix2 r k) ⟨1, by decide⟩ = ix2 k (1 : Fin 2) := by
    funext b; refine Fin.ext ?_
    match b with
    | ⟨0, _⟩ => rfl
    | ⟨1, _⟩ => rfl
  match a with
  | ⟨0, _⟩ =>
    show GatherDims.start gd (ix2 r k) idx 0 + GatherDims.batchCoord gd (ix2 r k) 0 + GatherDims.offCoord gd (ix2 r k) 0 = r.val
    rw [GatherDims.batchCoord_eq_zero _ _ _ List.not_mem_nil]
    have h0 : GatherDims.start gd (ix2 r k) idx 0 = 0 := by
      unfold GatherDims.start; rw [dif_neg (by decide)]
    have h1 : GatherDims.offCoord gd (ix2 r k) 0 = r.val := by
      unfold GatherDims.offCoord; rw [dif_pos (by decide)]; rfl
    rw [h0, h1]; omega
  | ⟨1, _⟩ =>
    show GatherDims.start gd (ix2 r k) idx 1 + GatherDims.batchCoord gd (ix2 r k) 1 + GatherDims.offCoord gd (ix2 r k) 1 = p.val
    rw [GatherDims.batchCoord_eq_zero _ _ _ List.not_mem_nil, GatherDims.offCoord_eq_zero _ _ _ (by decide)]
    have h0 : GatherDims.start gd (ix2 r k) idx 1 = min (idx (ix2 k (0 : Fin 2))).toInt.toNat 20 := by
      unfold GatherDims.start; rw [dif_pos (by decide)]
      show min (idx (GatherDims.siIdx gd (ix2 r k) ⟨0, _⟩)).toInt.toNat 20 = _
      rw [hsi0]
    rw [h0, hp]; omega
  | ⟨2, _⟩ =>
    show GatherDims.start gd (ix2 r k) idx 2 + GatherDims.batchCoord gd (ix2 r k) 2 + GatherDims.offCoord gd (ix2 r k) 2 = q.val
    rw [GatherDims.batchCoord_eq_zero _ _ _ List.not_mem_nil, GatherDims.offCoord_eq_zero _ _ _ (by decide)]
    have h0 : GatherDims.start gd (ix2 r k) idx 2 = min (idx (ix2 k (1 : Fin 2))).toInt.toNat 3 := by
      unfold GatherDims.start; rw [dif_pos (by decide)]
      show min (idx (GatherDims.siIdx gd (ix2 r k) ⟨1, _⟩)).toInt.toNat 3 = _
      rw [hsi1]
    rw [h0, hq]; omega

/-- The reshape of a row's 84 parameters to 21 × 4 reads entry `(p, q)` at `4p + q`. -/
theorem reshape_apply (a1 : FVec Ideal S65536x84 .f32) (r : Fin 65536) (p : Fin 21) (q : Fin 4) (c : Fin 84)
    (hc : c.val = 4 * p.val + q.val) :
    shapeCast S65536x21x4 a1 shapeCasts_S65536x84_S65536x21x4 (ix3 r p q) = a1 (ix2 r c) := by
  refine shapeCast_apply a1 _ (ix3 r p q) (ix2 r c) ?_
  rw [Shape.rowMajor_val_two, Shape.rowMajor_val_three]
  show r.val * 84 + c.val = (r.val * 21 + p.val) * 4 + q.val
  omega

/-- The gathered matrix at `(r, k)` is entry `4k + 3` of row `r`. -/
theorem v63T_apply (a1 : FVec Ideal S65536x84 .f32) (r : Fin 65536) (k : Fin 3) :
    v63T a1 (ix2 r k) = a1 (ix2 r (⟨4 * k.val + 3, by omega⟩ : Fin 84)) := by
  unfold v63T
  refine (gather_apply _ v62T r k ⟨k.val, by omega⟩ (3 : Fin 4) ?_ ?_).trans ?_
  · rw [v62T_col0, lit0_toNat]; show min k.val 20 = k.val; omega
  · rw [v62T_col1]; decide
  · exact reshape_apply a1 r ⟨k.val, by omega⟩ (3 : Fin 4) ⟨4 * k.val + 3, by omega⟩ rfl

theorem reduces_S65536x3_S65536 : S65536x3.Reduces [1] S65536 := by decide

/-- The index a sum over the three gathered entries inserts `k` into, for the row `r`, is `(r, k)`. -/
theorem lift3 (r : Fin 65536) (k : Fin 3) : reduces_S65536x3_S65536.lift (ix1 r) k = ix2 r k := by
  funext a; match a with | ⟨0, _⟩ => rfl | ⟨1, _⟩ => rfl

theorem pbT_eq (a1 : FVec Ideal S65536x84 .f32) : pbT a1 = Cert.Spec.PB a1 := by
  funext i
  obtain ⟨r, rfl⟩ : ∃ r : Fin 65536, i = ix1 r := ⟨i 0, eq_ix1 i⟩
  unfold pbT Cert.Spec.PB Cert.Spec.pb Cert.Spec.row84 splatT
  simp only [hostDivf_apply, hostReduceAdd_apply, broadcastInDim_scalar_apply, constant_apply, Ideal.ofBits_zero_f32]
  rw [Ideal.hostReduceAdd_single _ reduces_S65536x3_S65536, zero_add]
  show Ideal.div (∑ k : Fin 3, v63T a1 (reduces_S65536x3_S65536.lift (ix1 r) k)) _ = _
  rw [Fin.sum_univ_three, lift3, lift3, lift3, v63T_apply, v63T_apply, v63T_apply]
  rfl

end Cert.ReferenceIdeal.Hand

end
-- ==== Proof.RefBase.lean ====
/-
  The reference's mean absolute error is the specification's: the host's sum over both axes of the array of absolute
  differences is the double sum over rows and parameters, the initial value the zero word.
-/
import proofs.«179079_j52828097741444_2_alg».proof.Proof.RefTerms
import Idealize.ShloMosaic.Lib.IdealHost
import Idealize.ShloMosaic.Lib.Pipeline.Value

noncomputable section

namespace Cert.ReferenceIdeal.Hand

open Cert.ReferenceIdeal Idealize.ShloMosaic Idealize.ShloMosaic.ValueIdx
open Cert.ReferenceIdeal.Facts₀
open scoped BigOperators

/-- The mean absolute error the reference computes is `Cert.Spec.BASE`. -/
theorem baseT_eq (a1 a2 : FVec Ideal S65536x84 .f32) : baseT a1 a2 = Cert.Spec.BASE a1 a2 := by
  funext i
  show Ideal.div (Ideal.hostReduceAdd reducesTo_S65536x84_S_d0_1 (v1T a1 a2) (Ideal.ofBits .f32 0x00000000#32) i)
      (Ideal.ofBits .f32 0x4AA80000#32) = Cert.Spec.base (Cert.Spec.row84 a1) (Cert.Spec.row84 a2)
  rw [Ideal.hostReduceAdd_total _ (fun b => b.elim0), Ideal.ofBits_zero_f32, zero_add, sum_idx2]
  rfl

end Cert.ReferenceIdeal.Hand

end
-- ==== Proof.lean ====
/-
  The certificate's claims, assembled.

  The kernel computes, per spectrum (row), the weak-field estimate of the line-of-sight field — minus the
  least-squares slope of Stokes V against the wavelength derivative of Stokes I, over a constant —, the mean of
  three entries of the predicted atmosphere, and the row sum of |predicted − target|; a few host lines then
  combine the three length-65536 vectors into three scalar losses.  The reference computes the same three
  vectors with whole-array operations and applies the same last lines.

  The one place the two differ is the derivative: the kernel multiplies the gradient of I by a precomputed
  reciprocal of the wavelength gradient, the reference divides by the wavelength gradient.  On the extended reals
  `x · (1 / y) = x / y` for every `x` as soon as `y ≠ 0` (at `y = 0`, `x = 0` the product is 0 and the quotient is
  not), and the precondition says exactly that no entry of the wavelength gradient is zero.  Everything else is the
  same arithmetic in the same order, up to the grouping of finite sums.

  Frames: each program runs to its end, faults nowhere and leaves its four argument arrays as launched (the kernel
  programs by the launch theorem for one region between host lines, the reference by folding its host lines).
  Nothing was rewritten by the ideal pass, so the idealization claim is empty.
-/
import proofs.«179079_j52828097741444_2_alg».proof.Defs
import proofs.«179079_j52828097741444_2_alg».proof.Proof.Gen.Kernel
import proofs.«179079_j52828097741444_2_alg».proof.Proof.Gen.KernelIdeal
import proofs.«179079_j52828097741444_2_alg».proof.Proof.Gen.ReferenceIdeal
import proofs.«179079_j52828097741444_2_alg».proof.Proof.Gen.Pre_finite_inputs
import proofs.«179079_j52828097741444_2_alg».proof.Proof.Spec
import proofs.«179079_j52828097741444_2_alg».proof.Proof.Tail
import proofs.«179079_j52828097741444_2_alg».proof.Proof.PreDecode
import proofs.«179079_j52828097741444_2_alg».proof.Proof.KFrameBits
import proofs.«179079_j52828097741444_2_alg».proof.Proof.KFrame
import proofs.«179079_j52828097741444_2_alg».proof.Proof.KValue
import proofs.«179079_j52828097741444_2_alg».proof.Proof.RefRunValue
import proofs.«179079_j52828097741444_2_alg».proof.Proof.RefWfa
import proofs.«179079_j52828097741444_2_alg».proof.Proof.RefPb
import proofs.«179079_j52828097741444_2_alg».proof.Proof.RefBase
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ => Cert.ReferenceIdeal.Hand.frame (F := Ideal) m ρ

theorem preserves : Cert.preserves_Kernel_KernelIdeal := trivial

/-- Both programs end with their three results at the shared last lines applied to the field estimate, the predicted
    field and the mean absolute error of the SAME argument arrays; the two spellings of the field estimate agree
    because the wavelength gradient has no zero entry. -/
theorem algebraic : Cert.algebraic_KernelIdeal_ReferenceIdeal := by
  intro m ρ m' ρ' hpre hagree
  refine ⟨_, _, _, Cert.KernelIdeal.Hand.value_run m ρ, ?_⟩
  refine (θ_run Cert.ReferenceIdeal.defs _ _).mono (fun r h c => ?_) (Cert.ReferenceIdeal.Hand.run m' ρ')
  obtain ⟨h98, h3, h94, hargs⟩ := h c
  obtain ⟨e0, e1, e2, e3⟩ := hagree c
  have hd := Cert.PreDecode.dwl_ne_zero _ _ _ _ (hpre c)
  refine ⟨?_, ?_, ?_, hargs⟩
  · rw [h98, e0, e1, e2, e3]
    unfold Cert.ReferenceIdeal.Hand.res98
    rw [Cert.ReferenceIdeal.Hand.wfaT_eq, Cert.ReferenceIdeal.Hand.pbT_eq, Cert.ReferenceIdeal.Hand.baseT_eq, Cert.Spec.WK_eq_WR _ _ hd]
  · rw [h3, e1, e2]
    unfold Cert.ReferenceIdeal.Hand.res3
    rw [Cert.ReferenceIdeal.Hand.baseT_eq]
  · rw [h94, e0, e1, e2, e3]
    unfold Cert.ReferenceIdeal.Hand.res94
    rw [Cert.ReferenceIdeal.Hand.wfaT_eq, Cert.ReferenceIdeal.Hand.pbT_eq, Cert.ReferenceIdeal.Hand.baseT_eq, Cert.Spec.WK_eq_WR _ _ hd]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
